-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) (main_arg1 : IVec S512 32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Kernel.lean ====
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1x1 : Shape := ⟨2, ![1, 1]⟩
abbrev S128x128 : Shape := ⟨2, ![128, 128]⟩
abbrev S128x1 : Shape := ⟨2, ![128, 1]⟩
abbrev S1x128 : Shape := ⟨2, ![1, 128]⟩
abbrev S1x1x1 : Shape := ⟨3, ![1, 1, 1]⟩
abbrev S128x32 : Shape := ⟨2, ![128, 32]⟩
abbrev S128x128x1 : Shape := ⟨3, ![128, 128, 1]⟩
abbrev S128x1x32 : Shape := ⟨3, ![128, 1, 32]⟩
abbrev S128x128x32 : Shape := ⟨3, ![128, 128, 32]⟩
abbrev S128x1x1 : Shape := ⟨3, ![128, 1, 1]⟩
abbrev S_ : Shape := ⟨0, ![]⟩

abbrev nBuf : Space → Nat
  | .hbm => 7
  | .vmem => 15
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S512x512, .f32⟩
  | .hbm, ⟨3, _⟩ => ⟨S512x1, .i32⟩
  | .hbm, ⟨4, _⟩ => ⟨S1x512, .i32⟩
  | .hbm, ⟨5, _⟩ => ⟨S1x1, .f32⟩
  | .hbm, ⟨6, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x1, .i32⟩
  | .local _ .vmem, ⟨7, _⟩ => ⟨S128x1, .i32⟩
  | .local _ .vmem, ⟨8, _⟩ => ⟨S1x128, .i32⟩
  | .local _ .vmem, ⟨9, _⟩ => ⟨S1x128, .i32⟩
  | .local _ .vmem, ⟨10, _⟩ => ⟨S1x128, .i32⟩
  | .local _ .vmem, ⟨11, _⟩ => ⟨S1x128, .i32⟩
  | .local _ .vmem, ⟨12, _⟩ => ⟨S1x1, .f32⟩
  | .local _ .vmem, ⟨13, _⟩ => ⟨S1x1, .f32⟩
  | .local _ .vmem, ⟨14, _⟩ => ⟨S1x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_scratch0 : Ref sig .tc := ⟨.vmem, 13, rfl⟩
abbrev cc1_scratch1 : Ref sig .tc := ⟨.vmem, 14, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨3, ![4, 4, 4], ![false, false, false]⟩

def k1_cond2 (i : grid1.Coords) : BitVec 1 :=
  let arg0 : BitVec 32 := BitVec.ofNat 32 (i 0).val
  let c3_i32 : BitVec 32 := 3#32
  let v165 : BitVec 1 := Scalar.cmpi .eq arg0 c3_i32
  let arg1 : BitVec 32 := BitVec.ofNat 32 (i 1).val
  let c3_i32_53 : BitVec 32 := 3#32
  let v166 : BitVec 1 := Scalar.cmpi .eq arg1 c3_i32_53
  let v167 : BitVec 1 := Scalar.andi v165 v166
  let arg2 : BitVec 32 := BitVec.ofNat 32 (i 2).val
  let c3_i32_54 : BitVec 32 := 3#32
  let v168 : BitVec 1 := Scalar.cmpi .eq arg2 c3_i32_54
  let v169 : BitVec 1 := Scalar.andi v167 v168
  let v170 : BitVec 32 := Scalar.extui v169
  let c0_i32_55 : BitVec 32 := 0#32
  let v171 : BitVec 1 := Scalar.cmpi .ne v170 c0_i32_55
  v171

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S128x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, false, true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

class Facts₀ : Prop where
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  reduces_S512x512_S512 : S512x512.Reduces [1] S512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S128x1_S128x128 : S128x1.Broadcasts S128x128
  broadcasts_S1x128_S128x128 : S1x128.Broadcasts S128x128
  natLt_1_32 : 1 < 32
  slices_S128x128_o0_0_S128x32 : S128x128.Slices ![0, 0] S128x32
  shapeCasts_S128x128_S128x128x1 : S128x128.ShapeCasts S128x128x1
  shapeCasts_S128x32_S128x1x32 : S128x32.ShapeCasts S128x1x32
  broadcasts_S128x128x1_S128x128x32 : S128x128x1.Broadcasts S128x128x32
  broadcasts_S128x1x32_S128x128x32 : S128x1x32.Broadcasts S128x128x32
  reduces_S128x128x32_S128x128 : S128x128x32.Reduces [2] S128x128
  reduces_S128x128x1_S128x1 : S128x128x1.Reduces [1] S128x1
  shapeCasts_S128x1_S128x1x1 : S128x1.ShapeCasts S128x1x1
  reduces_S128x1x1_S1x1 : S128x1x1.Reduces [0] S1x1
  shapeCasts_S1x1_S1x1x1 : S1x1.ShapeCasts S1x1x1
  slices_S128x128_o0_32_S128x32 : S128x128.Slices ![0, 32] S128x32
  slices_S128x128_o0_64_S128x32 : S128x128.Slices ![0, 64] S128x32
  slices_S128x128_o0_96_S128x32 : S128x128.Slices ![0, 96] S128x32
  shapeCasts_S1x1x1_S1x1 : S1x1x1.ShapeCasts S1x1
  shapeCasts_S1x1_S_ : S1x1.ShapeCasts S_
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S512x512.size a
  hwx1_0 : ∀ i : grid1.Coords, EltTy.bits .f32 = 32 ∨ (Rect.block (s := S512x512) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S512x512.size a
  hwx1_1 : ∀ i : grid1.Coords, EltTy.bits .f32 = 32 ∨ (Rect.block (s := S512x512) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S512x1.size a
  hwx1_2 : ∀ i : grid1.Coords, EltTy.bits .i32 = 32 ∨ (Rect.block (s := S512x1) S128x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x512.size a
  hwx1_3 : ∀ i : grid1.Coords, EltTy.bits .i32 = 32 ∨ (Rect.block (s := S1x512) S1x128.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x512.size a
  hwx1_4 : ∀ i : grid1.Coords, EltTy.bits .i32 = 32 ∨ (Rect.block (s := S1x512) S1x128.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512x1 : Shape := ⟨3, ![512, 512, 1]⟩
abbrev S512x1x512 : Shape := ⟨3, ![512, 1, 512]⟩
abbrev S512x512x512 : Shape := ⟨3, ![512, 512, 512]⟩

abbrev nBuf : Space → Nat
  | .hbm => 54
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S512x512, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S1x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S_, .f32⟩
  | .hbm, ⟨17, _⟩ => ⟨S_, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S512x1, .i32⟩
  | .hbm, ⟨22, _⟩ => ⟨S1x512, .i32⟩
  | .hbm, ⟨23, _⟩ => ⟨S512x512, .i32⟩
  | .hbm, ⟨24, _⟩ => ⟨S512x512, .i32⟩
  | .hbm, ⟨25, _⟩ => ⟨S512x512, .i1⟩
  | .hbm, ⟨26, _⟩ => ⟨S512x512, .i1⟩
  | .hbm, ⟨27, _⟩ => ⟨S512x512x1, .f32⟩
  | .hbm, ⟨28, _⟩ => ⟨S512x1x512, .f32⟩
  | .hbm, ⟨29, _⟩ => ⟨S512x512x512, .f32⟩
  | .hbm, ⟨30, _⟩ => ⟨S512x512x512, .f32⟩
  | .hbm, ⟨31, _⟩ => ⟨S512x512x512, .f32⟩
  | .hbm, ⟨32, _⟩ => ⟨S_, .f32⟩
  | .hbm, ⟨33, _⟩ => ⟨S512x512x512, .f32⟩
  | .hbm, ⟨34, _⟩ => ⟨S512x512x512, .f32⟩
  | .hbm, ⟨35, _⟩ => ⟨S_, .f32⟩
  | .hbm, ⟨36, _⟩ => ⟨S512x512x512, .f32⟩
  | .hbm, ⟨37, _⟩ => ⟨S512x512x512, .f32⟩
  | .hbm, ⟨38, _⟩ => ⟨S512x512x1, .i1⟩
  | .hbm, ⟨39, _⟩ => ⟨S512x1x512, .i1⟩
  | .hbm, ⟨40, _⟩ => ⟨S512x512x512, .i1⟩
  | .hbm, ⟨41, _⟩ => ⟨S512x512x512, .i1⟩
  | .hbm, ⟨42, _⟩ => ⟨S512x512x512, .i1⟩
  | .hbm, ⟨43, _⟩ => ⟨S512x512x512, .i32⟩
  | .hbm, ⟨44, _⟩ => ⟨S_, .i32⟩
  | .hbm, ⟨45, _⟩ => ⟨S_, .i32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S512x512x512, .f32⟩
  | .hbm, ⟨50, _⟩ => ⟨S512x512x512, .f32⟩
  | .hbm, ⟨51, _⟩ => ⟨S_, .f32⟩
  | .hbm, ⟨52, _⟩ => ⟨S_, .f32⟩
  | .hbm, ⟨53, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_call1_cst : Ref sig .tc := ⟨.hbm, 35, rfl⟩
abbrev main_call1_v0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_call2_v0 : Ref sig .tc := ⟨.hbm, 48, rfl⟩
abbrev main_call2_v1 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  transposes_S512x512_S512x512_1_0 : S512x512.Transposes [1, 0] S512x512
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  bcast_S_S512x512x512 : S_.BroadcastsInDim S512x512x512 (![] : Fin 0 → Fin S512x512x512.rank)
  natLt_1_32 : 1 < 32
  reducesTo_S512x512x512_S_d0_1_2 : S512x512x512.ReducesTo [0, 1, 2] S_
  dot_S512x512_S512x512_S512x512_1_0_0_1_n_n_wf : DotDims.WF S512x512 S512x512 S512x512 [1] [0] [0] [1] [] []

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

class Facts : Prop extends Facts₀ where

variable [Facts]
-- ==== Proof.Step.lean ====
/-
  One grid point of the triplet kernel as pure functions of what it loads.

  The body loads a 128 × 128 block of anchor–positive distances, a 128 × 128 block of anchor–negative distances, the
  anchors' labels as a column and the positives' and negatives' labels as rows, and the two running totals it keeps
  between points. `lossStep` is the new total of hinges, `cntStep` the new total of valid triples: the old total plus the
  block's contribution, the negatives taken in four chunks of 32 lanes. `quot` is the quotient stored at the last point,
  `zeroLoss` / `zeroCnt` the zeros stored at the first.
-/
import proofs.«146449_j82489141887188_2_alg».proof.Proof.Gen.KernelIdeal.Skeleton

noncomputable section

namespace Cert.KernelIdeal.Step

open Idealize.ShloMosaic Cert.KernelIdeal Cert.KernelIdeal.Gen

variable {F : FTy → Type} [FloatOps F]

/-- The total of hinges after a point, from the blocks it loads and the total before it. -/
def lossStep (x3 x4 : Vec F S128x128 .f32) (x5 : Vec F S128x1 .i32) (x6 x7 : Vec F S1x128 .i32) (s : Vec F S1x1 .f32) :
    FVec F S1x1 .f32 :=
  k1_pay25
    (k1_pay19 (k1_pay4 x3) (k1_pay5 x4) (k1_pay7 x5 x6) (k1_pay8 x5 x7)
      (k1_pay16 (k1_pay4 x3) (k1_pay5 x4) (k1_pay7 x5 x6) (k1_pay8 x5 x7) (k1_pay9 (F := F)) (k1_pay11 x5 x7) (k1_pay12 x3 x4)
        (Scalar.ofBits .f32 0x00000000#32)))
    (k1_pay21 (k1_pay8 x5 x7)) (k1_pay22 (k1_pay4 x3) (k1_pay5 x4)) (k1_pay23 (k1_pay7 x5 x6)) s

/-- The total of valid triples after a point, from the label blocks it loads and the total before it. -/
def cntStep (x5 : Vec F S128x1 .i32) (x6 x7 : Vec F S1x128 .i32) (s : Vec F S1x1 .f32) : FVec F S1x1 .f32 :=
  k1_pay26
    (k1_pay20 (k1_pay7 x5 x6) (k1_pay8 x5 x7) (k1_pay14 (k1_pay7 x5 x6) (k1_pay10 (F := F)) (k1_pay11 x5 x7))
      (k1_pay17 (k1_pay7 x5 x6) (k1_pay8 x5 x7)))
    (k1_pay21 (k1_pay8 x5 x7)) (k1_pay23 (k1_pay7 x5 x6)) s

/-- The zeros the first point stores into the two totals. -/
def zeroLoss : FVec F S1x1 .f32 := k1_pay2 (F := F)
def zeroCnt : FVec F S1x1 .f32 := k1_pay3 (F := F)

/-- The quotient the last point stores. -/
def quot (l c : Vec F S1x1 .f32) : FVec F S1x1 .f32 := k1_pay1 l c

end Cert.KernelIdeal.Step

end
-- ==== Proof.Body0.lean ====
/-
  The distance kernel's body as a separation-logic triple, generic in the float instance.

  The body loads its whole input block, loads and then overwrites its whole output block with the
  payload (the matrix of clamped Euclidean distances of the rows). Entered with the input at contents `x0`
  and the output at anything, it ends with the input unchanged and the output at `k0_pay1 x0`.
-/
import proofs.«146449_j82489141887188_2_alg».proof.Proof.Gen.KernelIdeal.Launch
import proofs.«146449_j82489141887188_2_alg».proof.Proof.Gen.KernelIdeal.Skeleton
import proofs.«146449_j82489141887188_2_alg».proof.Proof.Gen.KernelIdeal.Points
import proofs.«146449_j82489141887188_2_alg».proof.Proof.Step
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The distance body on whole staging memrefs: the input stays, the output holds the payload of the input. -/
theorem sound_kernel0 (c : Dev nD) (E : Set ℕ) (i : grid0.Coords)
    (arg1 : Memref sig .tc .vmem S512x512 .f32) (harg1 : arg1.IsWhole)
    (arg2 : Memref sig .tc .vmem S512x512 .f32) (harg2 : arg2.IsWhole)
    (x0 : Vec F S512x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__dist_kernel i arg1 harg1 arg2 harg2) K := by
  simp only [cc0__dist_kernel_eq_skeleton]; unfold cc0__dist_kernel_skel
  unfold owns
  iintro ⟨⟨%f0, %hf0, H0⟩, ⟨%d1, %f1, -, H1⟩, Hk⟩
  obtain rfl := harg1.eq_unread hf0
  sl_exec
  sl_step
  iapply Hk
  isplitl [H0]
  · iexists _; isplitr; · ipureintro; exact harg1.read_unread x0
    iexact H0
  iexists _; isplitr
  swap; · iexact H1
  ipureintro
  have hz : (![0, 0] : Fin S512x512.rank → ℕ) = fun _ => 0 := by funext a; fin_cases a <;> rfl
  refine (View.read_writes_eq_canon _ _ _ (fun y => ⟨_, List.mem_singleton_self _,
    View.mem_set_unit_zero hz inb_S512x512_S512x512_0_0 y⟩)).trans ?_
  rw [View.canon_unit_zero hz]
  simp only [View.readAt_eq_ld, harg1.read_unread]
  rw [View.ld_unit_zero hz]

end Cert.KernelIdeal.Body

end
-- ==== Proof.Frame0.lean ====
/-
  The first region (the distance kernel) as the pipeline library sees it, at any contents `V` of the core's buffers
  when the region is entered: the one grid point loads the whole 512 × 512 input block and stores the whole output
  block, so after the body the output's staging buffer holds the distance payload of the input array, and the region's
  invariant is the scoped buffers nobody names beside the generator register.
-/
import proofs.«146449_j82489141887188_2_alg».proof.Proof.Gen.KernelIdeal.Launch
import proofs.«146449_j82489141887188_2_alg».proof.Proof.Gen.KernelIdeal.Skeleton
import proofs.«146449_j82489141887188_2_alg».proof.Proof.Gen.KernelIdeal.Points
import proofs.«146449_j82489141887188_2_alg».proof.Proof.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the input's block at the point, whatever it held before the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The proof data of the first pipeline: the arrays as found; after the body the input's buffer at its block and the
    output's at the distance payload of it; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (Cert.KernelIdeal.Body.sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Body1.lean ====
/-
  The triplet kernel's body as separation-logic triples, generic in the float instance.

  At a grid point the body first, at the first point only, stores zeros into its two running totals; then it
  loads the two blocks of distances and the three blocks of labels, adds the block's total of hinges to the
  first total and the block's number of valid triples to the second; and at the last point only it stores
  the quotient of the two totals into the output block. Three triples, one per case: the first point, a
  point that is neither first nor last, the last point.
-/
import proofs.«146449_j82489141887188_2_alg».proof.Proof.Gen.KernelIdeal.Launch
import proofs.«146449_j82489141887188_2_alg».proof.Proof.Gen.KernelIdeal.Skeleton
import proofs.«146449_j82489141887188_2_alg».proof.Proof.Gen.KernelIdeal.Points
import proofs.«146449_j82489141887188_2_alg».proof.Proof.Step
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition of the zeroing branch: all three grid coordinates are zero. -/
abbrev condInit (i : grid1.Coords) : Prop :=
  Scalar.cmpi .ne (Scalar.extui (Scalar.andi (Scalar.andi (Scalar.cmpi .eq (BitVec.ofNat 32 (i 0).val) 0#32)
    (Scalar.cmpi .eq (BitVec.ofNat 32 (i 1).val) 0#32)) (Scalar.cmpi .eq (BitVec.ofNat 32 (i 2).val) 0#32))) 0#32 = 1#1
/-- The condition of the final branch: all three grid coordinates are three. -/
abbrev condLast (i : grid1.Coords) : Prop := k1_cond2 i = 1#1

/-- The zero offsets of a rank-two rectangle, however spelt. -/
theorem hz2 : (![0, 0] : Fin 2 → ℕ) = fun _ => 0 := by funext a; fin_cases a <;> rfl

set_option maxHeartbeats 4000000 in
/-- A point neither first nor last: the inputs and the output block stay, each total advances by one step. -/
theorem sound_kernel1_mid (c : Dev nD) (E : Set ℕ) (i : grid1.Coords)
    (arg3 : Memref sig .tc .vmem S128x128 .f32) (harg3 : arg3.IsWhole)
    (arg4 : Memref sig .tc .vmem S128x128 .f32) (harg4 : arg4.IsWhole)
    (arg5 : Memref sig .tc .vmem S128x1 .i32) (harg5 : arg5.IsWhole)
    (arg6 : Memref sig .tc .vmem S1x128 .i32) (harg6 : arg6.IsWhole)
    (arg7 : Memref sig .tc .vmem S1x128 .i32) (harg7 : arg7.IsWhole)
    (arg8 : Memref sig .tc .vmem S1x1 .f32) (harg8 : arg8.IsWhole)
    (arg9 : Memref sig .tc .vmem S1x1 .f32) (harg9 : arg9.IsWhole)
    (arg10 : Memref sig .tc .vmem S1x1 .f32) (harg10 : arg10.IsWhole)
    (hi : ¬ condInit i) (hl : ¬ condLast i)
    (x3 x4 : Vec F S128x128 .f32) (x5 : Vec F S128x1 .i32) (x6 x7 : Vec F S1x128 .i32) (d8 s9 s10 : Vec F S1x1 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg8 fullShare d8 ∗ owns (c : Thread nD τ) arg9 fullShare s9 ∗ owns (c : Thread nD τ) arg10 fullShare s10
        ∗ (iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
            ∗ owns (c : Thread nD τ) arg8 fullShare d8
            ∗ owns (c : Thread nD τ) arg9 fullShare (Step.lossStep x3 x4 x5 x6 x7 s9)
            ∗ owns (c : Thread nD τ) arg10 fullShare (Step.cntStep x5 x6 x7 s10)) -∗ K ⟨⟩))
      ⊢ wp frame (wpE (defs₀ (F := F)) Variants.none c none) E
          (cc1__triplet_kernel i arg3 harg3 arg4 harg4 arg5 harg5 arg6 harg6 arg7 harg7 arg8 harg8 arg9 harg9 arg10 harg10) K := by
  simp only [cc1__triplet_kernel_eq_skeleton]; unfold cc1__triplet_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10
  sl_exec (disch := first | exact hi | exact hl)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    refine (View.read_writes_eq_canon _ _ _ (fun y => ⟨_, List.mem_singleton_self _, View.mem_set_unit_zero hz2 inb_S1x1_S1x1_0_0 y⟩)).trans ?_
    rw [View.canon_unit_zero hz2]
    sl_unfold_run_names
    simp only [View.readAt_eq_ld, harg3.read_unread, harg4.read_unread, harg5.read_unread, harg6.read_unread,
      harg7.read_unread, harg8.read_unread, harg9.read_unread, harg10.read_unread,
      View.ld_unit_zero (S := S128x128) hz2, View.ld_unit_zero (S := S128x1) hz2, View.ld_unit_zero (S := S1x128) hz2,
      View.ld_unit_zero (S := S1x1) hz2]
    rfl
  iexists _; isplitr
  swap; · iexact H10
  ipureintro
  refine (View.read_writes_eq_canon _ _ _ (fun y => ⟨_, List.mem_singleton_self _, View.mem_set_unit_zero hz2 inb_S1x1_S1x1_0_0 y⟩)).trans ?_
  rw [View.canon_unit_zero hz2]
  sl_unfold_run_names
  simp only [View.readAt_eq_ld, harg3.read_unread, harg4.read_unread, harg5.read_unread, harg6.read_unread,
      harg7.read_unread, harg8.read_unread, harg9.read_unread, harg10.read_unread,
      View.ld_unit_zero (S := S128x128) hz2, View.ld_unit_zero (S := S128x1) hz2, View.ld_unit_zero (S := S1x128) hz2,
      View.ld_unit_zero (S := S1x1) hz2]
  rfl

set_option maxHeartbeats 4000000 in
/-- The first point: the totals are zeroed, then advance by one step; the inputs and the output block stay. -/
theorem sound_kernel1_first (c : Dev nD) (E : Set ℕ) (i : grid1.Coords)
    (arg3 : Memref sig .tc .vmem S128x128 .f32) (harg3 : arg3.IsWhole)
    (arg4 : Memref sig .tc .vmem S128x128 .f32) (harg4 : arg4.IsWhole)
    (arg5 : Memref sig .tc .vmem S128x1 .i32) (harg5 : arg5.IsWhole)
    (arg6 : Memref sig .tc .vmem S1x128 .i32) (harg6 : arg6.IsWhole)
    (arg7 : Memref sig .tc .vmem S1x128 .i32) (harg7 : arg7.IsWhole)
    (arg8 : Memref sig .tc .vmem S1x1 .f32) (harg8 : arg8.IsWhole)
    (arg9 : Memref sig .tc .vmem S1x1 .f32) (harg9 : arg9.IsWhole)
    (arg10 : Memref sig .tc .vmem S1x1 .f32) (harg10 : arg10.IsWhole)
    (hi : condInit i) (hl : ¬ condLast i)
    (x3 x4 : Vec F S128x128 .f32) (x5 : Vec F S128x1 .i32) (x6 x7 : Vec F S1x128 .i32) (d8 : Vec F S1x1 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg8 fullShare d8 ∗ (∃ d, owns (c : Thread nD τ) arg9 fullShare d) ∗ (∃ d, owns (c : Thread nD τ) arg10 fullShare d)
        ∗ (iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
            ∗ owns (c : Thread nD τ) arg8 fullShare d8
            ∗ owns (c : Thread nD τ) arg9 fullShare (Step.lossStep x3 x4 x5 x6 x7 Step.zeroLoss)
            ∗ owns (c : Thread nD τ) arg10 fullShare (Step.cntStep x5 x6 x7 Step.zeroCnt)) -∗ K ⟨⟩))
      ⊢ wp frame (wpE (defs₀ (F := F)) Variants.none c none) E
          (cc1__triplet_kernel i arg3 harg3 arg4 harg4 arg5 harg5 arg6 harg6 arg7 harg7 arg8 harg8 arg9 harg9 arg10 harg10) K := by
  simp only [cc1__triplet_kernel_eq_skeleton]; unfold cc1__triplet_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hi | exact hl)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_run_names
    refine (View.read_writes_eq_canon _ _ _ (fun y => ⟨_, List.mem_cons.mpr (Or.inl rfl), View.mem_set_unit_zero hz2 inb_S1x1_S1x1_0_0 y⟩)).trans ?_
    rw [View.canon_cons_unit_zero hz2]
    simp only [View.readCov_unit_zero (S := S1x1) arg9.view hz2 inb_S1x1_S1x1_0_0,
      View.readCov_unit_zero (S := S1x1) arg10.view hz2 inb_S1x1_S1x1_0_0, View.readAt_eq_ld, harg3.read_unread, harg4.read_unread, harg5.read_unread, harg6.read_unread,
      harg7.read_unread, harg8.read_unread, harg9.read_unread, harg10.read_unread,
      View.ld_unit_zero (S := S128x128) hz2, View.ld_unit_zero (S := S128x1) hz2, View.ld_unit_zero (S := S1x128) hz2,
      View.ld_unit_zero (S := S1x1) hz2]
    rfl
  iexists _; isplitr
  swap; · iexact H10
  ipureintro
  sl_unfold_run_names
  refine (View.read_writes_eq_canon _ _ _ (fun y => ⟨_, List.mem_cons.mpr (Or.inl rfl), View.mem_set_unit_zero hz2 inb_S1x1_S1x1_0_0 y⟩)).trans ?_
  rw [View.canon_cons_unit_zero hz2]
  simp only [View.readCov_unit_zero (S := S1x1) arg9.view hz2 inb_S1x1_S1x1_0_0,
    View.readCov_unit_zero (S := S1x1) arg10.view hz2 inb_S1x1_S1x1_0_0, View.readAt_eq_ld, harg3.read_unread, harg4.read_unread, harg5.read_unread, harg6.read_unread,
    harg7.read_unread, harg8.read_unread, harg9.read_unread, harg10.read_unread,
    View.ld_unit_zero (S := S128x128) hz2, View.ld_unit_zero (S := S128x1) hz2, View.ld_unit_zero (S := S1x128) hz2,
    View.ld_unit_zero (S := S1x1) hz2]
  rfl

set_option maxHeartbeats 4000000 in
/-- The last point: each total advances by one step and the output block receives their quotient; the inputs stay. -/
theorem sound_kernel1_last (c : Dev nD) (E : Set ℕ) (i : grid1.Coords)
    (arg3 : Memref sig .tc .vmem S128x128 .f32) (harg3 : arg3.IsWhole)
    (arg4 : Memref sig .tc .vmem S128x128 .f32) (harg4 : arg4.IsWhole)
    (arg5 : Memref sig .tc .vmem S128x1 .i32) (harg5 : arg5.IsWhole)
    (arg6 : Memref sig .tc .vmem S1x128 .i32) (harg6 : arg6.IsWhole)
    (arg7 : Memref sig .tc .vmem S1x128 .i32) (harg7 : arg7.IsWhole)
    (arg8 : Memref sig .tc .vmem S1x1 .f32) (harg8 : arg8.IsWhole)
    (arg9 : Memref sig .tc .vmem S1x1 .f32) (harg9 : arg9.IsWhole)
    (arg10 : Memref sig .tc .vmem S1x1 .f32) (harg10 : arg10.IsWhole)
    (hi : ¬ condInit i) (hl : condLast i)
    (x3 x4 : Vec F S128x128 .f32) (x5 : Vec F S128x1 .i32) (x6 x7 : Vec F S1x128 .i32) (s9 s10 : Vec F S1x1 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ (∃ d, owns (c : Thread nD τ) arg8 fullShare d) ∗ owns (c : Thread nD τ) arg9 fullShare s9 ∗ owns (c : Thread nD τ) arg10 fullShare s10
        ∗ (iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
            ∗ owns (c : Thread nD τ) arg8 fullShare (Step.quot (Step.lossStep x3 x4 x5 x6 x7 s9) (Step.cntStep x5 x6 x7 s10))
            ∗ owns (c : Thread nD τ) arg9 fullShare (Step.lossStep x3 x4 x5 x6 x7 s9)
            ∗ owns (c : Thread nD τ) arg10 fullShare (Step.cntStep x5 x6 x7 s10)) -∗ K ⟨⟩))
      ⊢ wp frame (wpE (defs₀ (F := F)) Variants.none c none) E
          (cc1__triplet_kernel i arg3 harg3 arg4 harg4 arg5 harg5 arg6 harg6 arg7 harg7 arg8 harg8 arg9 harg9 arg10 harg10) K := by
  simp only [cc1__triplet_kernel_eq_skeleton]; unfold cc1__triplet_kernel_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7
  obtain rfl := harg9.eq_unread hf9; obtain rfl := harg10.eq_unread hf10
  sl_exec (disch := first | exact hi | exact hl)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_run_names
    refine (View.read_writes_eq_canon _ _ _ (fun y => ⟨_, List.mem_cons.mpr (Or.inl rfl), View.mem_set_unit_zero hz2 inb_S1x1_S1x1_0_0 y⟩)).trans ?_
    rw [View.canon_cons_unit_zero hz2]
    simp only [View.readCov_unit_zero (S := S1x1) arg9.view hz2 inb_S1x1_S1x1_0_0,
      View.readCov_unit_zero (S := S1x1) arg10.view hz2 inb_S1x1_S1x1_0_0, View.readAt_eq_ld, harg3.read_unread, harg4.read_unread, harg5.read_unread, harg6.read_unread,
      harg7.read_unread, harg8.read_unread, harg9.read_unread, harg10.read_unread,
      View.ld_unit_zero (S := S128x128) hz2, View.ld_unit_zero (S := S128x1) hz2, View.ld_unit_zero (S := S1x128) hz2,
      View.ld_unit_zero (S := S1x1) hz2]
    rfl
  isplitl [H9]
  · iexists _; isplitr
    swap; · iexact H9
    ipureintro
    sl_unfold_run_names
    refine (View.read_writes_eq_canon _ _ _ (fun y => ⟨_, List.mem_cons.mpr (Or.inl rfl), View.mem_set_unit_zero hz2 inb_S1x1_S1x1_0_0 y⟩)).trans ?_
    rw [View.canon_cons_unit_zero hz2]
    simp only [View.readCov_unit_zero (S := S1x1) arg9.view hz2 inb_S1x1_S1x1_0_0,
      View.readCov_unit_zero (S := S1x1) arg10.view hz2 inb_S1x1_S1x1_0_0, View.readAt_eq_ld, harg3.read_unread, harg4.read_unread, harg5.read_unread, harg6.read_unread,
      harg7.read_unread, harg8.read_unread, harg9.read_unread, harg10.read_unread,
      View.ld_unit_zero (S := S128x128) hz2, View.ld_unit_zero (S := S128x1) hz2, View.ld_unit_zero (S := S1x128) hz2,
      View.ld_unit_zero (S := S1x1) hz2]
    rfl
  iexists _; isplitr
  swap; · iexact H10
  ipureintro
  sl_unfold_run_names
  refine (View.read_writes_eq_canon _ _ _ (fun y => ⟨_, List.mem_cons.mpr (Or.inl rfl), View.mem_set_unit_zero hz2 inb_S1x1_S1x1_0_0 y⟩)).trans ?_
  rw [View.canon_cons_unit_zero hz2]
  simp only [View.readCov_unit_zero (S := S1x1) arg9.view hz2 inb_S1x1_S1x1_0_0,
    View.readCov_unit_zero (S := S1x1) arg10.view hz2 inb_S1x1_S1x1_0_0, View.readAt_eq_ld, harg3.read_unread, harg4.read_unread, harg5.read_unread, harg6.read_unread,
    harg7.read_unread, harg8.read_unread, harg9.read_unread, harg10.read_unread,
    View.ld_unit_zero (S := S128x128) hz2, View.ld_unit_zero (S := S128x1) hz2, View.ld_unit_zero (S := S1x128) hz2,
    View.ld_unit_zero (S := S1x1) hz2]
  rfl

end Cert.KernelIdeal.Body

end
-- ==== Proof.Frame1.lean ====
/-
  The second region (the triplet kernel) as the pipeline library sees it, at any contents `V` of the core's buffers
  when the region is entered. The grid has 64 points. Five windows are inputs (two blocks of the distance matrix, the
  anchors' labels as a column, the positives' and the negatives' labels as rows); the sixth is the 1 × 1 output, stored
  and written back at the last point only. The kernel keeps two running totals in scratch buffers: after `n` points they
  hold `acc n`, the zeros stored at the first point pushed through the first `n` blocks' contributions; the last point
  stores their quotient.
-/
import proofs.«146449_j82489141887188_2_alg».proof.Proof.Gen.KernelIdeal.Launch
import proofs.«146449_j82489141887188_2_alg».proof.Proof.Gen.KernelIdeal.Skeleton
import proofs.«146449_j82489141887188_2_alg».proof.Proof.Gen.KernelIdeal.Points
import proofs.«146449_j82489141887188_2_alg».proof.Proof.Step
import proofs.«146449_j82489141887188_2_alg».proof.Proof.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Body

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The two running totals after `n` points: the zeros, then one step per point over that point's blocks. -/
def acc (c : Dev nD) : ℕ → Vec F S1x1 .f32 × Vec F S1x1 .f32
  | 0 => (Step.zeroLoss, Step.zeroCnt)
  | n + 1 =>
    if h : n < cfg1.N then
      (Step.lossStep (iblk1 V c 0 ⟨n, h⟩) (iblk1 V c 1 ⟨n, h⟩) (iblk1 V c 2 ⟨n, h⟩) (iblk1 V c 3 ⟨n, h⟩) (iblk1 V c 4 ⟨n, h⟩) (acc c n).1,
        Step.cntStep (iblk1 V c 2 ⟨n, h⟩) (iblk1 V c 3 ⟨n, h⟩) (iblk1 V c 4 ⟨n, h⟩) (acc c n).2)
    else acc c n

theorem acc_succ (c : Dev nD) (t : Fin cfg1.N) :
    acc V c (t.val + 1) = (Step.lossStep (iblk1 V c 0 t) (iblk1 V c 1 t) (iblk1 V c 2 t) (iblk1 V c 3 t) (iblk1 V c 4 t) (acc V c t.val).1,
      Step.cntStep (iblk1 V c 2 t) (iblk1 V c 3 t) (iblk1 V c 4 t) (acc V c t.val).2) := by
  obtain ⟨n, hn⟩ := t
  exact (dif_pos hn)

/-- The scratch operands as memrefs. -/
abbrev scM0 : Memref sig .tc .vmem S1x1 .f32 := Memref.whole cc1_scratch0
abbrev scM1 : Memref sig .tc .vmem S1x1 .f32 := Memref.whole cc1_scratch1

/-- The scoped buffers of the other region, at some contents, and the generator register at some state. -/
def other (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ r, prngReg c r))

/-- The region's invariant before point `n`: before the first point the two totals hold anything; afterwards `acc n`. -/
def PhiS (c : Dev nD) : ℕ → sProp 𝕄
  | 0 => iprop((∃ d, owns (c : Thread nD τ) scM0 fullShare d) ∗ (∃ d, owns (c : Thread nD τ) scM1 fullShare d) ∗ other (F := F) c)
  | n + 1 => iprop(owns (c : Thread nD τ) scM0 fullShare (acc V c (n + 1)).1 ∗ owns (c : Thread nD τ) scM1 fullShare (acc V c (n + 1)).2 ∗ other (F := F) c)

theorem PhiS_pos (c : Dev nD) (n : ℕ) (hz : n ≠ 0) :
    PhiS V c n = iprop(owns (c : Thread nD τ) scM0 fullShare (acc V c n).1 ∗ owns (c : Thread nD τ) scM1 fullShare (acc V c n).2 ∗ other (F := F) c) := by
  cases n with
  | zero => exact absurd rfl hz
  | succ n => rfl

/-- The proof data of the second pipeline. The two blocks of the distance matrix read one array, and so do the two
    label rows: each pair holds its array at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => Step.quot (acc V c (t.val + 1)).1 (acc V c (t.val + 1)).2
  Φ t := PhiS V c t.val
  q w := match w with
    | ⟨0, _⟩ => fullShare.left
    | ⟨1, _⟩ => fullShare.right
    | ⟨2, _⟩ => fullShare
    | ⟨3, _⟩ => fullShare.left
    | ⟨4, _⟩ => fullShare.right
    | ⟨5, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = Step.quot (acc V c (t.val + 1)).1 (acc V c (t.val + 1)).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- The two branch conditions in closed form over the grid, and where the output window is idle. -/
theorem hInit : ∀ t : Fin cfg1.N, condInit (grid1.coords t) ↔ t.val = 0 :=
  (by decide +kernel : ∀ t : Fin grid1.N, condInit (grid1.coords t) ↔ t.val = 0)
theorem hLast : ∀ t : Fin cfg1.N, condLast (grid1.coords t) ↔ t.val = 63 :=
  (by decide +kernel : ∀ t : Fin grid1.N, condLast (grid1.coords t) ↔ t.val = 63)
theorem idleAt5 : ∀ t : Fin cfg1.N, ¬ condLast (grid1.coords t) → cfg1.idle 5 (grid1.coords t) = true := by decide +kernel
theorem noFlush5 : ∀ t : Fin cfg1.N, ¬ condLast (grid1.coords t) → (cfg1.win 5).flush t = false := by decide +kernel
theorem liveAt5 : ∀ t : Fin cfg1.N, condLast (grid1.coords t) → cfg1.idle 5 (grid1.coords t) = false := by decide +kernel

theorem PhiS_zero (c : Dev nD) (n : ℕ) (hz : n = 0) :
    PhiS V c n = iprop((∃ d, owns (c : Thread nD τ) scM0 fullShare d) ∗ (∃ d, owns (c : Thread nD τ) scM1 fullShare d) ∗ other (F := F) c) := by
  subst hz; rfl
theorem acc_zero (c : Dev nD) (n : ℕ) (hz : n = 0) : acc V c n = (Step.zeroLoss, Step.zeroCnt) := by
  subst hz; rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point: the inputs' buffers hold their blocks; the first point stores the zeros and adds its block's
    contribution, every later point adds to what the point before left, the last also stores the quotient; the output's
    buffer is handed back untouched at the points that do not store into it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) from rfl, show (dat1 V c).Φ t.castSucc = PhiS V c t.val from rfl]
  rw [show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2,
    show (dat1 V c).leavesExact 3 t = owns (c : Thread nD τ) (st1_3 t) fullShare ((dat1 V c).after 3 t) from rfl, after1_3,
    show (dat1 V c).leavesExact 4 t = owns (c : Thread nD τ) (st1_4 t) fullShare ((dat1 V c).after 4 t) from rfl, after1_4]
  rw [show PhiS V c (t.val + 1) = iprop(owns (c : Thread nD τ) scM0 fullShare (acc V c (t.val + 1)).1 ∗ owns (c : Thread nD τ) scM1 fullShare (acc V c (t.val + 1)).2 ∗ other (F := F) c) from rfl,
    acc_succ V c t]
  have hN : t.val < 64 := lt_of_lt_of_eq t.isLt (show cfg1.N = 64 from N_1)
  by_cases hz : t.val = 0
  · have hi : condInit (grid1.coords t) := (hInit t).mpr hz
    have hl : ¬ condLast (grid1.coords t) := fun h => by have := (hLast t).mp h; omega
    rw [Dat.leavesExact_idle (dat1 V c) 5 t (idleAt5 t hl) (noFlush5 t hl), PhiS_zero V c _ hz, acc_zero V c _ hz]
    iintro ⟨⟨HS0, HS1, Hoth⟩, Ho, ⟨%d0, H0⟩, ⟨%d1, H1⟩, ⟨%d2, H2⟩, ⟨%d3, H3⟩, ⟨%d4, H4⟩, ⟨%d5, H5⟩⟩
    iapply (sound_kernel1_first c Set.univ (grid1.coords t) _ _ _ _ _ _ _ _ _ _ _ _ _ _ _ _ hi hl
      (iblk1 V c 0 t) (iblk1 V c 1 t) (iblk1 V c 2 t) (iblk1 V c 3 t) (iblk1 V c 4 t) ((dat1 V c).before 5 t d5) _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hoth]
    · isplitl [HS0]; · iexact HS0
      isplitl [HS1]; · iexact HS1
      iexact Hoth
    isplitl [Ho]; · iexact Ho
    isplitl [H0]; · iexact H0
    isplitl [H1]; · iexact H1
    isplitl [H2]; · iexact H2
    isplitl [H3]; · iexact H3
    isplitl [H4]; · iexact H4
    iexists d5; iexact H5
  · have hi : ¬ condInit (grid1.coords t) := fun h => hz ((hInit t).mp h)
    rw [PhiS_pos V c _ hz]
    by_cases hl63 : t.val = 63
    · have hl : condLast (grid1.coords t) := (hLast t).mpr hl63
      rw [show (dat1 V c).leavesExact 5 t = owns (c : Thread nD τ) (st1_5 t) fullShare ((dat1 V c).after 5 t) from by
        unfold Dat.leavesExact; rw [liveAt5 t hl], after1_5, acc_succ V c t]
      iintro ⟨⟨HS0, HS1, Hoth⟩, Ho, ⟨%d0, H0⟩, ⟨%d1, H1⟩, ⟨%d2, H2⟩, ⟨%d3, H3⟩, ⟨%d4, H4⟩, ⟨%d5, H5⟩⟩
      iapply (sound_kernel1_last c Set.univ (grid1.coords t) _ _ _ _ _ _ _ _ _ _ _ _ _ _ _ _ hi hl
        (iblk1 V c 0 t) (iblk1 V c 1 t) (iblk1 V c 2 t) (iblk1 V c 3 t) (iblk1 V c 4 t) (acc V c t.val).1 (acc V c t.val).2 _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hoth]
      · isplitl [HS0]; · iexact HS0
        isplitl [HS1]; · iexact HS1
        iexact Hoth
      isplitl [Ho]; · iexact Ho
      isplitl [H0]; · iexact H0
      isplitl [H1]; · iexact H1
      isplitl [H2]; · iexact H2
      isplitl [H3]; · iexact H3
      isplitl [H4]; · iexact H4
      iexact H5
    · have hl : ¬ condLast (grid1.coords t) := fun h => hl63 ((hLast t).mp h)
      rw [Dat.leavesExact_idle (dat1 V c) 5 t (idleAt5 t hl) (noFlush5 t hl)]
      iintro ⟨⟨HS0, HS1, Hoth⟩, Ho, ⟨%d0, H0⟩, ⟨%d1, H1⟩, ⟨%d2, H2⟩, ⟨%d3, H3⟩, ⟨%d4, H4⟩, ⟨%d5, H5⟩⟩
      iapply (sound_kernel1_mid c Set.univ (grid1.coords t) _ _ _ _ _ _ _ _ _ _ _ _ _ _ _ _ hi hl
        (iblk1 V c 0 t) (iblk1 V c 1 t) (iblk1 V c 2 t) (iblk1 V c 3 t) (iblk1 V c 4 t) ((dat1 V c).before 5 t d5)
        (acc V c t.val).1 (acc V c t.val).2 _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hoth]
      · isplitl [HS0]; · iexact HS0
        isplitl [HS1]; · iexact HS1
        iexact Hoth
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.Vals.lean ====
/-
  The contents of the core's buffers at each boundary of the program: at launch; after the first region, which leaves
  the distance matrix in its result buffer; after the two reshapes of the labels; after the second region, which leaves
  the loss in its 1 × 1 result buffer; after the last reshape.
-/
import proofs.«146449_j82489141887188_2_alg».proof.Proof.Gen.KernelIdeal.Regions
import proofs.«146449_j82489141887188_2_alg».proof.Proof.Frame0
import proofs.«146449_j82489141887188_2_alg».proof.Proof.Frame1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- What the first region finds: the launch contents. -/
abbrev Ve0 (c : Dev nD) (b : Ref sig .tc) : Buf (Elt F) ((c : Thread nD τ).loc b) := Gen.V0 m c b
/-- What the first region leaves in its result buffer. -/
def out1 (c : Dev nD) : Buf (Elt F) ((c : Thread nD τ).loc main_v0) := (dat0 (Ve0 m) c).arrAt 1 cfg0.N
/-- The buffers after the first region. -/
def W1 (c : Dev nD) : Valuation τ sig (Elt F) := Function.update (Gen.V0 m c) main_v0 (out1 m c)
/-- What the second region finds: after the reshapes of the labels. -/
abbrev Ve1 (c : Dev nD) (b : Ref sig .tc) : Buf (Elt F) ((c : Thread nD τ).loc b) := StableHlo.after hostOps1 (W1 m c) b
/-- What the second region leaves in its result buffer. -/
def out3 (c : Dev nD) : Buf (Elt F) ((c : Thread nD τ).loc main_v3) := (dat1 (Ve1 m) c).arrAt 5 cfg1.N
/-- The buffers after the second region, and after the last reshape. -/
def W3 (c : Dev nD) : Valuation τ sig (Elt F) := Function.update (StableHlo.after hostOps1 (W1 m c)) main_v3 (out3 m c)
def W4 (c : Dev nD) : Valuation τ sig (Elt F) := StableHlo.after hostOps2 (W3 m c)
/-- What the regions leave, as the conditional frame takes it. -/
def outs : Gen.Outs (F := F) := fun J r c => if J = 1 then W1 m c r else W3 m c r

theorem V1_eq (c : Dev nD) : Gen.V1 m (outs m) c = W1 m c := by
  unfold Gen.V1 outs W1
  simp only [if_pos, Function.update_self]
theorem V2_eq (c : Dev nD) : Gen.V2 m (outs m) c = StableHlo.after hostOps1 (W1 m c) := by
  unfold Gen.V2; rw [V1_eq]
theorem V3_eq (c : Dev nD) : Gen.V3 m (outs m) c = W3 m c := by
  unfold Gen.V3; rw [V2_eq]; unfold outs W3
  simp only [show ¬ ((3 : ℕ) = 1) from by decide, if_false, Function.update_self]
theorem V4_eq (c : Dev nD) : Gen.V4 m (outs m) c = W4 m c := by
  unfold Gen.V4 W4; rw [V3_eq]

end Cert.KernelIdeal.Fr

end
-- ==== Proof.Shared.lean ====
/-
  The second region's arrays among the core's buffers. Two of its windows read the distance matrix and two read the
  row of labels, so each of those two buffers, held whole at the full share when the region is entered, is dealt to its
  two windows as the two halves of the full share, and put together again when the region is left; the output's
  buffer comes back holding what the last point wrote.
-/
import proofs.«146449_j82489141887188_2_alg».proof.Proof.Frame1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The core's unscoped buffers, one by one. -/
theorem unscopedBufs_list (c : Dev nD) (W : (b : Ref sig .tc) → Buf (Elt F) ((c : Thread nD τ).loc b)) :
    (unscopedBufs (Ix := Unit) (Name := ℕ) (U := UR sig nD τ) (Lvl := ℕ) c W : sProp 𝕄)
      = iprop((((c : Thread nD τ).loc main_arg0) ↦{fullShare} W main_arg0) ∗ (((c : Thread nD τ).loc main_arg1) ↦{fullShare} W main_arg1)
        ∗ (((c : Thread nD τ).loc main_v0) ↦{fullShare} W main_v0) ∗ (((c : Thread nD τ).loc main_v1) ↦{fullShare} W main_v1)
        ∗ (((c : Thread nD τ).loc main_v2) ↦{fullShare} W main_v2) ∗ (((c : Thread nD τ).loc main_v3) ↦{fullShare} W main_v3)
        ∗ (((c : Thread nD τ).loc main_v4) ↦{fullShare} W main_v4)) := by
  unfold unscopedBufs
  exact bigSep_eq_bigSepL_of_eq [main_arg0, main_arg1, main_v0, main_v1, main_v2, main_v3, main_v4] (by decide) (by decide) _

/-- The second pipeline's arrays, window by window, each at its share. -/
theorem arrays1_list (c : Dev nD) (Fw : (w : Fin cfg1.W) → Buf (Elt F) ((cfg1.win w).arr.view.loc (c : Thread nD τ))) :
    ((dat1 V c).arrays Fw : sProp 𝕄)
      = iprop((((c : Thread nD τ).loc main_v0) ↦{fullShare.left} Fw 0) ∗ (((c : Thread nD τ).loc main_v0) ↦{fullShare.right} Fw 1)
        ∗ (((c : Thread nD τ).loc main_v1) ↦{fullShare} Fw 2)
        ∗ (((c : Thread nD τ).loc main_v2) ↦{fullShare.left} Fw 3) ∗ (((c : Thread nD τ).loc main_v2) ↦{fullShare.right} Fw 4)
        ∗ (((c : Thread nD τ).loc main_v3) ↦{fullShare} Fw 5)) := by
  unfold Dat.arrays
  rw [bigSep_W1, (arr_whole1 0).set_eq_univ, (arr_whole1 2).set_eq_univ, (arr_whole1 3).set_eq_univ, (arr_whole1 5).set_eq_univ]
  rfl

/-- A buffer held whole at the full share is held at its two halves. -/
theorem share_halves (c : Dev nD) (b : Ref sig .tc) (f : Buf (Elt F) ((c : Thread nD τ).loc b)) :
    ((((c : Thread nD τ).loc b) ↦{fullShare} f) : sProp 𝕄)
      = iprop((((c : Thread nD τ).loc b) ↦{fullShare.left} f) ∗ (((c : Thread nD τ).loc b) ↦{fullShare.right} f)) :=
  BI.Entails.antisymm (pointsTo_share (PosShare.mem_left_op_right fullShare)).1 (pointsTo_share (PosShare.mem_left_op_right fullShare)).2

/-- ENTRY: the core's unscoped buffers at the entry contents are the second pipeline's arrays at those contents, each
    shared buffer dealt to its two windows, and the buffers no window stages. -/
theorem split_entry (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [unscopedBufs_list, arrays1_list, unscopedRest1_eq, share_halves c main_v0, share_halves c main_v2]
  iintro ⟨Ha0, Ha1, ⟨H0l, H0r⟩, H1, ⟨H2l, H2r⟩, H3, H4⟩
  isplitl [H0l H0r H1 H2l H2r H3]
  · isplitl [H0l]; · iexact H0l
    isplitl [H0r]; · iexact H0r
    isplitl [H1]; · iexact H1
    isplitl [H2l]; · iexact H2l
    isplitl [H2r]; · iexact H2r
    iexact H3
  isplitl [Ha0]; · iexact Ha0
  isplitl [Ha1]; · iexact Ha1
  iexact H4

/-- EXIT: the arrays as the pipeline leaves them — the inputs as entered, the output at what the last point wrote — and the
    buffers no window stages are the core's unscoped buffers at any contents that have the output's buffer at that and
    agree with the entry contents elsewhere. -/
theorem join_exit (c : Dev nD) (W' : (b : Ref sig .tc) → Buf (Elt F) ((c : Thread nD τ).loc b))
    (h3 : W' main_v3 = (dat1 V c).arrAt 5 cfg1.N) (hr : ∀ b : Ref sig .tc, b ≠ main_v3 → W' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c W' : sProp 𝕄) := by
  rw [unscopedBufs_list, arrays1_list, unscopedRest1_eq]
  rw [show (dat1 V c).arrAt 0 cfg1.N = V c main_v0 from ((dat1 V c).arrAt_in 0 rfl _).trans (A_eq1 V c 0),
    show (dat1 V c).arrAt 1 cfg1.N = V c main_v0 from ((dat1 V c).arrAt_in 1 rfl _).trans (A_eq1 V c 1),
    show (dat1 V c).arrAt 2 cfg1.N = V c main_v1 from ((dat1 V c).arrAt_in 2 rfl _).trans (A_eq1 V c 2),
    show (dat1 V c).arrAt 3 cfg1.N = V c main_v2 from ((dat1 V c).arrAt_in 3 rfl _).trans (A_eq1 V c 3),
    show (dat1 V c).arrAt 4 cfg1.N = V c main_v2 from ((dat1 V c).arrAt_in 4 rfl _).trans (A_eq1 V c 4)]
  rw [hr main_arg0 (by decide), hr main_arg1 (by decide), hr main_v0 (by decide), hr main_v1 (by decide), hr main_v2 (by decide),
    hr main_v4 (by decide), h3]
  rw [share_halves c main_v0, share_halves c main_v2]
  iintro ⟨⟨H0l, H0r, H1, H2l, H2r, H3⟩, Ha0, Ha1, H4⟩
  isplitl [Ha0]; · iexact Ha0
  isplitl [Ha1]; · iexact Ha1
  isplitl [H0l H0r]
  · isplitl [H0l]; · iexact H0l
    iexact H0r
  isplitl [H1]; · iexact H1
  isplitl [H2l H2r]
  · isplitl [H2l]; · iexact H2l
    iexact H2r
  isplitl [H3]; · iexact H3
  iexact H4

end Cert.KernelIdeal.Fr

end
-- ==== Proof.Frames.lean ====
/-
  The whole program's run. Its two regions are entered from, and left at, thread states that hold every unscoped buffer
  of the core at the boundary's contents (`Vals`), the generator register at some state and nothing owed. The first
  region's arrays are distinct buffers; the second deals each of its two shared buffers to two windows and puts them
  together again. From the run: every unscoped buffer ends at the last boundary's contents, so the arguments end as
  launched (the frame) and the result buffer holds the last reshape of what the second region wrote.
-/
import proofs.«146449_j82489141887188_2_alg».proof.Proof.Vals
import proofs.«146449_j82489141887188_2_alg».proof.Proof.Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- Every pipeline's proof data, each at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

/-- At the first region's exit each of its arrays holds what the pipeline leaves, -/
theorem hF0 (c : Dev nD) : ∀ w : Fin cfg0.W, (dat0 (Ve0 m) c).arrAt w cfg0.N = W1 m c (Pipeline.arrRef spec0 w)
  | ⟨0, _⟩ => ((dat0 (Ve0 m) c).arrAt_in 0 rfl _).trans ((A_eq0 (Ve0 m) c 0).trans (by
      unfold W1; exact (Function.update_of_ne (StableHlo.devRef_ne_of_ne (by decide)) _ _).symm))
  | ⟨1, _⟩ => by unfold W1 out1; exact (Function.update_self (Proc.devRef .tc main_v0 : DevRef τ sig) _ (Gen.V0 m c)).symm
/-- and every other buffer what it held at entry. -/
theorem hrest0 (c : Dev nD) : ∀ b, b ∉ Finset.univ.image (Pipeline.arrRef spec0) → W1 m c b = Ve0 m c b := fun b hb => by
  have hne : b ≠ main_v0 := fun e => hb (Finset.mem_image.mpr ⟨1, Finset.mem_univ _, e.symm⟩)
  unfold W1; exact Function.update_of_ne (StableHlo.devRef_ne_of_ne hne) _ _

set_option backward.isDefEq.respectTransparency.types false in
/-- The first region over the thread state: entered from the launch contents, left with the distance matrix in its
    result buffer. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Ve0 m c) (fun b => W1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second region's invariant before the first point, from the scoped buffers nobody stages and the generator register. -/
theorem hin1 (c : Dev nD) :
    iprop((∃ r, prngReg c r) ∗ Pipeline.scopedRest (Ix := Unit) (Name := ℕ) (U := UR sig nD τ) (Lvl := ℕ) (Val := Elt F) spec1 c)
      ⊢ (PhiS (Ve1 m) c 0 : sProp 𝕄) := by
  rw [scopedRest1_eq]
  show _ ⊢ iprop((∃ d, owns (c : Thread nD τ) scM0 fullShare d) ∗ (∃ d, owns (c : Thread nD τ) scM1 fullShare d) ∗ other (F := F) c)
  unfold other
  simp only [scM0, scM1, owns_whole]
  iintro ⟨Hp, H0, H1, HS0, HS1⟩
  isplitl [HS0]; · iexact HS0
  isplitl [HS1]; · iexact HS1
  isplitl [H0]; · iexact H0
  isplitl [H1]; · iexact H1
  iexact Hp

/-- After the last point the invariant gives the scoped buffers back, their contents forgotten. -/
theorem hout1 (c : Dev nD) :
    (PhiS (Ve1 m) c 64 : sProp 𝕄)
      ⊢ iprop((∃ r, prngReg c r) ∗ Pipeline.scopedRest (Ix := Unit) (Name := ℕ) (U := UR sig nD τ) (Lvl := ℕ) (Val := Elt F) spec1 c) := by
  rw [scopedRest1_eq, PhiS_pos (Ve1 m) c 64 (by decide)]
  unfold other
  simp only [← owns_whole]
  iintro ⟨HS0, HS1, H0, H1, Hp⟩
  isplitl [Hp]; · iexact Hp
  isplitl [H0]; · iexact H0
  isplitl [H1]; · iexact H1
  isplitl [HS0]; · iexists _; iexact HS0
  iexists _; iexact HS1

set_option backward.isDefEq.respectTransparency.types false in
/-- The second region over the thread state: entered from the contents after the labels' reshapes, left with the loss in
    its result buffer. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (StableHlo.after hostOps1 (W1 m c)) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := split_entry (Ve1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = PhiS (Ve1 m) c 0 from rfl]
    iintro ⟨Hp, -, Hr⟩
    iapply (hin1 m c)
    isplitl [Hp]; · iexact Hp
    iexact Hr
  hout c := by
    rw [Pipeline.ownSems0_none, show (pdats m 1 c).Φ (Fin.last _) = PhiS (Ve1 m) c 64 from rfl]
    iintro H
    ihave H' := (hout1 m c) $$ H
    icases H' with ⟨Hp, Hr⟩
    isplitl [Hp]; · iexact Hp
    isplitr; · iempintro
    iexact Hr
  hexit c := by
    have hjoin := join_exit (Ve1 m) c (fun b => W3 m c b)
      (by unfold W3 out3; exact Function.update_self (Proc.devRef .tc main_v3 : DevRef τ sig) _ (StableHlo.after hostOps1 (W1 m c)))
      (fun b hb => by unfold W3; exact Function.update_of_ne (StableHlo.devRef_ne_of_ne hb) _ _)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The thread states chain: each region is entered from, and left at, the boundary's contents. -/
theorem hpre0 (c : Dev nD) : iprop(StableHlo.held (c : Thread nD τ) (Pipeline.ucRefs τ sig) (Gen.V0 m c) ∗ R (F := F) c) ⊢ (reg0 m).pre c := .rfl
theorem hpost0 (c : Dev nD) : (reg0 m).post c ⊢ iprop(StableHlo.held (c : Thread nD τ) (Pipeline.ucRefs τ sig) (Gen.V1 m (outs m) c) ∗ R (F := F) c) := by
  rw [V1_eq]; exact .rfl
theorem hpre1 (c : Dev nD) : iprop(StableHlo.held (c : Thread nD τ) (Pipeline.ucRefs τ sig) (Gen.V2 m (outs m) c) ∗ R (F := F) c) ⊢ (reg1 m).pre c := by
  rw [V2_eq]; exact .rfl
theorem hpost1 (c : Dev nD) : (reg1 m).post c ⊢ iprop(StableHlo.held (c : Thread nD τ) (Pipeline.ucRefs τ sig) (Gen.V3 m (outs m) c) ∗ R (F := F) c) := by
  rw [V3_eq]; exact .rfl
/-- The last thread state owes nothing. -/
theorem hE2 (c : Dev nD) : R (F := F) c ⊢ (iprop(∃ W, owes (c : Thread nD τ) (0 : CellTallies nD τ sig Unit) W) : sProp 𝕄) := by
  iintro ⟨-, HO⟩; iexact HO

set_option backward.isDefEq.respectTransparency.types false in
/-- THE RUN: from any memory with zero counters every weakly fair execution of the program terminates, nothing
    faulting, and every final state holds each unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V4 m (outs m) c b) := by
  refine Pipeline.θ_run_regions_kit_dev (pcfgs (F := F)) Gen.adm (pdats m) () cellOf_inj emb₁ defs₀ 𝒱₀ L lv m ρ main
    (Gen.segs m (outs m) 𝒱₀ L lv (fun _ c => R (F := F) c) () (pdats m) (reg0 m) (reg1 m))
    (fun c Q => by
      rewrite [main_chain c, Seg.run_eq_chain,
        show (Gen.segs m (outs m) 𝒱₀ L lv (fun _ c => R (F := F) c) () (pdats m) (reg0 m) (reg1 m) c).map Seg.prog = [
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V4 m (outs m) c))
    (hch := fun c => ⟨hpre0 m c, hpost0 m c, hpre1 m c, hpost1 m c, sep_mono .rfl (hE2 c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V4 m (outs m) c b)
    (hfin := fun c s' => by
      iintro ⟨Hh, HSI⟩
      unfold StableHlo.held
      imodintro
      iapply (pointsTo_read_all (Pipeline.ucRefs τ sig) (fun b => (((c : Thread nD τ)).1, b)) (Gen.V4 m (outs m) c) s')
      isplitl [Hh] <;> iassumption)
    (hQ := fun s h => h)

/-- THE FRAME: the argument arrays end as launched — no host operation and no region writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (Gen.V4_main_arg0 m (outs m) c),
      (h c _ (mem_uc main_arg1 (by decide))).trans (Gen.V4_main_arg1 m (outs m) c)⟩) (run_all m ρ)

/-- THE RUN WITH ITS RESULT: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v4) = W4 m c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v4 (by decide))).trans (congrFun (V4_eq m c) _),
      (h c _ (mem_uc main_arg0 (by decide))).trans (Gen.V4_main_arg0 m (outs m) c),
      (h c _ (mem_uc main_arg1 (by decide))).trans (Gen.V4_main_arg1 m (outs m) c)⟩) (run_all m ρ)

end Cert.KernelIdeal.Fr

end
-- ==== Proof.KStep.lean ====
/-
  One grid point of the triplet kernel as pure functions of what it loads.

  The body loads a 128 × 128 block of anchor–positive distances, a 128 × 128 block of anchor–negative distances, the
  anchors' labels as a column and the positives' and negatives' labels as rows, and the two running totals it keeps
  between points. `lossStep` is the new total of hinges, `cntStep` the new total of valid triples: the old total plus the
  block's contribution, the negatives taken in four chunks of 32 lanes. `quot` is the quotient stored at the last point,
  `zeroLoss` / `zeroCnt` the zeros stored at the first.
-/
import proofs.«146449_j82489141887188_2_alg».proof.Proof.Gen.Kernel.Skeleton

noncomputable section

namespace Cert.Kernel.Step

open Idealize.ShloMosaic Cert.Kernel Cert.Kernel.Gen

variable {F : FTy → Type} [FloatOps F]

/-- The total of hinges after a point, from the blocks it loads and the total before it. -/
def lossStep (x3 x4 : Vec F S128x128 .f32) (x5 : Vec F S128x1 .i32) (x6 x7 : Vec F S1x128 .i32) (s : Vec F S1x1 .f32) :
    FVec F S1x1 .f32 :=
  k1_pay25
    (k1_pay19 (k1_pay4 x3) (k1_pay5 x4) (k1_pay7 x5 x6) (k1_pay8 x5 x7)
      (k1_pay16 (k1_pay4 x3) (k1_pay5 x4) (k1_pay7 x5 x6) (k1_pay8 x5 x7) (k1_pay9 (F := F)) (k1_pay11 x5 x7) (k1_pay12 x3 x4)
        (Scalar.ofBits .f32 0x00000000#32)))
    (k1_pay21 (k1_pay8 x5 x7)) (k1_pay22 (k1_pay4 x3) (k1_pay5 x4)) (k1_pay23 (k1_pay7 x5 x6)) s

/-- The total of valid triples after a point, from the label blocks it loads and the total before it. -/
def cntStep (x5 : Vec F S128x1 .i32) (x6 x7 : Vec F S1x128 .i32) (s : Vec F S1x1 .f32) : FVec F S1x1 .f32 :=
  k1_pay26
    (k1_pay20 (k1_pay7 x5 x6) (k1_pay8 x5 x7) (k1_pay14 (k1_pay7 x5 x6) (k1_pay10 (F := F)) (k1_pay11 x5 x7))
      (k1_pay17 (k1_pay7 x5 x6) (k1_pay8 x5 x7)))
    (k1_pay21 (k1_pay8 x5 x7)) (k1_pay23 (k1_pay7 x5 x6)) s

/-- The zeros the first point stores into the two totals. -/
def zeroLoss : FVec F S1x1 .f32 := k1_pay2 (F := F)
def zeroCnt : FVec F S1x1 .f32 := k1_pay3 (F := F)

/-- The quotient the last point stores. -/
def quot (l c : Vec F S1x1 .f32) : FVec F S1x1 .f32 := k1_pay1 l c

end Cert.Kernel.Step

end
-- ==== Proof.KBody0.lean ====
/-
  The distance kernel's body as a separation-logic triple, generic in the float instance.

  The body loads its whole input block, loads and then overwrites its whole output block with the
  payload (the matrix of clamped Euclidean distances of the rows). Entered with the input at contents `x0`
  and the output at anything, it ends with the input unchanged and the output at `k0_pay1 x0`.
-/
import proofs.«146449_j82489141887188_2_alg».proof.Proof.Gen.Kernel.Launch
import proofs.«146449_j82489141887188_2_alg».proof.Proof.Gen.Kernel.Skeleton
import proofs.«146449_j82489141887188_2_alg».proof.Proof.Gen.Kernel.Points
import proofs.«146449_j82489141887188_2_alg».proof.Proof.KStep
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The distance body on whole staging memrefs: the input stays, the output holds the payload of the input. -/
theorem sound_kernel0 (c : Dev nD) (E : Set ℕ) (i : grid0.Coords)
    (arg1 : Memref sig .tc .vmem S512x512 .f32) (harg1 : arg1.IsWhole)
    (arg2 : Memref sig .tc .vmem S512x512 .f32) (harg2 : arg2.IsWhole)
    (x0 : Vec F S512x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__dist_kernel i arg1 harg1 arg2 harg2) K := by
  simp only [cc0__dist_kernel_eq_skeleton]; unfold cc0__dist_kernel_skel
  unfold owns
  iintro ⟨⟨%f0, %hf0, H0⟩, ⟨%d1, %f1, -, H1⟩, Hk⟩
  obtain rfl := harg1.eq_unread hf0
  sl_exec
  sl_step
  iapply Hk
  isplitl [H0]
  · iexists _; isplitr; · ipureintro; exact harg1.read_unread x0
    iexact H0
  iexists _; isplitr
  swap; · iexact H1
  ipureintro
  have hz : (![0, 0] : Fin S512x512.rank → ℕ) = fun _ => 0 := by funext a; fin_cases a <;> rfl
  refine (View.read_writes_eq_canon _ _ _ (fun y => ⟨_, List.mem_singleton_self _,
    View.mem_set_unit_zero hz inb_S512x512_S512x512_0_0 y⟩)).trans ?_
  rw [View.canon_unit_zero hz]
  simp only [View.readAt_eq_ld, harg1.read_unread]
  rw [View.ld_unit_zero hz]

end Cert.Kernel.Body

end
-- ==== Proof.KFrame0.lean ====
/-
  The first region (the distance kernel) as the pipeline library sees it, at any contents `V` of the core's buffers
  when the region is entered: the one grid point loads the whole 512 × 512 input block and stores the whole output
  block, so after the body the output's staging buffer holds the distance payload of the input array, and the region's
  invariant is the scoped buffers nobody names beside the generator register.
-/
import proofs.«146449_j82489141887188_2_alg».proof.Proof.Gen.Kernel.Launch
import proofs.«146449_j82489141887188_2_alg».proof.Proof.Gen.Kernel.Skeleton
import proofs.«146449_j82489141887188_2_alg».proof.Proof.Gen.Kernel.Points
import proofs.«146449_j82489141887188_2_alg».proof.Proof.KBody0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the input's block at the point, whatever it held before the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The proof data of the first pipeline: the arrays as found; after the body the input's buffer at its block and the
    output's at the distance payload of it; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (Cert.Kernel.Body.sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KBody1.lean ====
/-
  The triplet kernel's body as separation-logic triples, generic in the float instance.

  At a grid point the body first, at the first point only, stores zeros into its two running totals; then it
  loads the two blocks of distances and the three blocks of labels, adds the block's total of hinges to the
  first total and the block's number of valid triples to the second; and at the last point only it stores
  the quotient of the two totals into the output block. Three triples, one per case: the first point, a
  point that is neither first nor last, the last point.
-/
import proofs.«146449_j82489141887188_2_alg».proof.Proof.Gen.Kernel.Launch
import proofs.«146449_j82489141887188_2_alg».proof.Proof.Gen.Kernel.Skeleton
import proofs.«146449_j82489141887188_2_alg».proof.Proof.Gen.Kernel.Points
import proofs.«146449_j82489141887188_2_alg».proof.Proof.KStep
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The condition of the zeroing branch: all three grid coordinates are zero. -/
abbrev condInit (i : grid1.Coords) : Prop :=
  Scalar.cmpi .ne (Scalar.extui (Scalar.andi (Scalar.andi (Scalar.cmpi .eq (BitVec.ofNat 32 (i 0).val) 0#32)
    (Scalar.cmpi .eq (BitVec.ofNat 32 (i 1).val) 0#32)) (Scalar.cmpi .eq (BitVec.ofNat 32 (i 2).val) 0#32))) 0#32 = 1#1
/-- The condition of the final branch: all three grid coordinates are three. -/
abbrev condLast (i : grid1.Coords) : Prop := k1_cond2 i = 1#1

/-- The zero offsets of a rank-two rectangle, however spelt. -/
theorem hz2 : (![0, 0] : Fin 2 → ℕ) = fun _ => 0 := by funext a; fin_cases a <;> rfl

set_option maxHeartbeats 4000000 in
/-- A point neither first nor last: the inputs and the output block stay, each total advances by one step. -/
theorem sound_kernel1_mid (c : Dev nD) (E : Set ℕ) (i : grid1.Coords)
    (arg3 : Memref sig .tc .vmem S128x128 .f32) (harg3 : arg3.IsWhole)
    (arg4 : Memref sig .tc .vmem S128x128 .f32) (harg4 : arg4.IsWhole)
    (arg5 : Memref sig .tc .vmem S128x1 .i32) (harg5 : arg5.IsWhole)
    (arg6 : Memref sig .tc .vmem S1x128 .i32) (harg6 : arg6.IsWhole)
    (arg7 : Memref sig .tc .vmem S1x128 .i32) (harg7 : arg7.IsWhole)
    (arg8 : Memref sig .tc .vmem S1x1 .f32) (harg8 : arg8.IsWhole)
    (arg9 : Memref sig .tc .vmem S1x1 .f32) (harg9 : arg9.IsWhole)
    (arg10 : Memref sig .tc .vmem S1x1 .f32) (harg10 : arg10.IsWhole)
    (hi : ¬ condInit i) (hl : ¬ condLast i)
    (x3 x4 : Vec F S128x128 .f32) (x5 : Vec F S128x1 .i32) (x6 x7 : Vec F S1x128 .i32) (d8 s9 s10 : Vec F S1x1 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg8 fullShare d8 ∗ owns (c : Thread nD τ) arg9 fullShare s9 ∗ owns (c : Thread nD τ) arg10 fullShare s10
        ∗ (iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
            ∗ owns (c : Thread nD τ) arg8 fullShare d8
            ∗ owns (c : Thread nD τ) arg9 fullShare (Step.lossStep x3 x4 x5 x6 x7 s9)
            ∗ owns (c : Thread nD τ) arg10 fullShare (Step.cntStep x5 x6 x7 s10)) -∗ K ⟨⟩))
      ⊢ wp frame (wpE (defs₀ (F := F)) Variants.none c none) E
          (cc1__triplet_kernel i arg3 harg3 arg4 harg4 arg5 harg5 arg6 harg6 arg7 harg7 arg8 harg8 arg9 harg9 arg10 harg10) K := by
  simp only [cc1__triplet_kernel_eq_skeleton]; unfold cc1__triplet_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10
  sl_exec (disch := first | exact hi | exact hl)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    refine (View.read_writes_eq_canon _ _ _ (fun y => ⟨_, List.mem_singleton_self _, View.mem_set_unit_zero hz2 inb_S1x1_S1x1_0_0 y⟩)).trans ?_
    rw [View.canon_unit_zero hz2]
    sl_unfold_run_names
    simp only [View.readAt_eq_ld, harg3.read_unread, harg4.read_unread, harg5.read_unread, harg6.read_unread,
      harg7.read_unread, harg8.read_unread, harg9.read_unread, harg10.read_unread,
      View.ld_unit_zero (S := S128x128) hz2, View.ld_unit_zero (S := S128x1) hz2, View.ld_unit_zero (S := S1x128) hz2,
      View.ld_unit_zero (S := S1x1) hz2]
    rfl
  iexists _; isplitr
  swap; · iexact H10
  ipureintro
  refine (View.read_writes_eq_canon _ _ _ (fun y => ⟨_, List.mem_singleton_self _, View.mem_set_unit_zero hz2 inb_S1x1_S1x1_0_0 y⟩)).trans ?_
  rw [View.canon_unit_zero hz2]
  sl_unfold_run_names
  simp only [View.readAt_eq_ld, harg3.read_unread, harg4.read_unread, harg5.read_unread, harg6.read_unread,
      harg7.read_unread, harg8.read_unread, harg9.read_unread, harg10.read_unread,
      View.ld_unit_zero (S := S128x128) hz2, View.ld_unit_zero (S := S128x1) hz2, View.ld_unit_zero (S := S1x128) hz2,
      View.ld_unit_zero (S := S1x1) hz2]
  rfl

set_option maxHeartbeats 4000000 in
/-- The first point: the totals are zeroed, then advance by one step; the inputs and the output block stay. -/
theorem sound_kernel1_first (c : Dev nD) (E : Set ℕ) (i : grid1.Coords)
    (arg3 : Memref sig .tc .vmem S128x128 .f32) (harg3 : arg3.IsWhole)
    (arg4 : Memref sig .tc .vmem S128x128 .f32) (harg4 : arg4.IsWhole)
    (arg5 : Memref sig .tc .vmem S128x1 .i32) (harg5 : arg5.IsWhole)
    (arg6 : Memref sig .tc .vmem S1x128 .i32) (harg6 : arg6.IsWhole)
    (arg7 : Memref sig .tc .vmem S1x128 .i32) (harg7 : arg7.IsWhole)
    (arg8 : Memref sig .tc .vmem S1x1 .f32) (harg8 : arg8.IsWhole)
    (arg9 : Memref sig .tc .vmem S1x1 .f32) (harg9 : arg9.IsWhole)
    (arg10 : Memref sig .tc .vmem S1x1 .f32) (harg10 : arg10.IsWhole)
    (hi : condInit i) (hl : ¬ condLast i)
    (x3 x4 : Vec F S128x128 .f32) (x5 : Vec F S128x1 .i32) (x6 x7 : Vec F S1x128 .i32) (d8 : Vec F S1x1 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg8 fullShare d8 ∗ (∃ d, owns (c : Thread nD τ) arg9 fullShare d) ∗ (∃ d, owns (c : Thread nD τ) arg10 fullShare d)
        ∗ (iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
            ∗ owns (c : Thread nD τ) arg8 fullShare d8
            ∗ owns (c : Thread nD τ) arg9 fullShare (Step.lossStep x3 x4 x5 x6 x7 Step.zeroLoss)
            ∗ owns (c : Thread nD τ) arg10 fullShare (Step.cntStep x5 x6 x7 Step.zeroCnt)) -∗ K ⟨⟩))
      ⊢ wp frame (wpE (defs₀ (F := F)) Variants.none c none) E
          (cc1__triplet_kernel i arg3 harg3 arg4 harg4 arg5 harg5 arg6 harg6 arg7 harg7 arg8 harg8 arg9 harg9 arg10 harg10) K := by
  simp only [cc1__triplet_kernel_eq_skeleton]; unfold cc1__triplet_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hi | exact hl)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_run_names
    refine (View.read_writes_eq_canon _ _ _ (fun y => ⟨_, List.mem_cons.mpr (Or.inl rfl), View.mem_set_unit_zero hz2 inb_S1x1_S1x1_0_0 y⟩)).trans ?_
    rw [View.canon_cons_unit_zero hz2]
    simp only [View.readCov_unit_zero (S := S1x1) arg9.view hz2 inb_S1x1_S1x1_0_0,
      View.readCov_unit_zero (S := S1x1) arg10.view hz2 inb_S1x1_S1x1_0_0, View.readAt_eq_ld, harg3.read_unread, harg4.read_unread, harg5.read_unread, harg6.read_unread,
      harg7.read_unread, harg8.read_unread, harg9.read_unread, harg10.read_unread,
      View.ld_unit_zero (S := S128x128) hz2, View.ld_unit_zero (S := S128x1) hz2, View.ld_unit_zero (S := S1x128) hz2,
      View.ld_unit_zero (S := S1x1) hz2]
    rfl
  iexists _; isplitr
  swap; · iexact H10
  ipureintro
  sl_unfold_run_names
  refine (View.read_writes_eq_canon _ _ _ (fun y => ⟨_, List.mem_cons.mpr (Or.inl rfl), View.mem_set_unit_zero hz2 inb_S1x1_S1x1_0_0 y⟩)).trans ?_
  rw [View.canon_cons_unit_zero hz2]
  simp only [View.readCov_unit_zero (S := S1x1) arg9.view hz2 inb_S1x1_S1x1_0_0,
    View.readCov_unit_zero (S := S1x1) arg10.view hz2 inb_S1x1_S1x1_0_0, View.readAt_eq_ld, harg3.read_unread, harg4.read_unread, harg5.read_unread, harg6.read_unread,
    harg7.read_unread, harg8.read_unread, harg9.read_unread, harg10.read_unread,
    View.ld_unit_zero (S := S128x128) hz2, View.ld_unit_zero (S := S128x1) hz2, View.ld_unit_zero (S := S1x128) hz2,
    View.ld_unit_zero (S := S1x1) hz2]
  rfl

set_option maxHeartbeats 4000000 in
/-- The last point: each total advances by one step and the output block receives their quotient; the inputs stay. -/
theorem sound_kernel1_last (c : Dev nD) (E : Set ℕ) (i : grid1.Coords)
    (arg3 : Memref sig .tc .vmem S128x128 .f32) (harg3 : arg3.IsWhole)
    (arg4 : Memref sig .tc .vmem S128x128 .f32) (harg4 : arg4.IsWhole)
    (arg5 : Memref sig .tc .vmem S128x1 .i32) (harg5 : arg5.IsWhole)
    (arg6 : Memref sig .tc .vmem S1x128 .i32) (harg6 : arg6.IsWhole)
    (arg7 : Memref sig .tc .vmem S1x128 .i32) (harg7 : arg7.IsWhole)
    (arg8 : Memref sig .tc .vmem S1x1 .f32) (harg8 : arg8.IsWhole)
    (arg9 : Memref sig .tc .vmem S1x1 .f32) (harg9 : arg9.IsWhole)
    (arg10 : Memref sig .tc .vmem S1x1 .f32) (harg10 : arg10.IsWhole)
    (hi : ¬ condInit i) (hl : condLast i)
    (x3 x4 : Vec F S128x128 .f32) (x5 : Vec F S128x1 .i32) (x6 x7 : Vec F S1x128 .i32) (s9 s10 : Vec F S1x1 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ (∃ d, owns (c : Thread nD τ) arg8 fullShare d) ∗ owns (c : Thread nD τ) arg9 fullShare s9 ∗ owns (c : Thread nD τ) arg10 fullShare s10
        ∗ (iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
            ∗ owns (c : Thread nD τ) arg8 fullShare (Step.quot (Step.lossStep x3 x4 x5 x6 x7 s9) (Step.cntStep x5 x6 x7 s10))
            ∗ owns (c : Thread nD τ) arg9 fullShare (Step.lossStep x3 x4 x5 x6 x7 s9)
            ∗ owns (c : Thread nD τ) arg10 fullShare (Step.cntStep x5 x6 x7 s10)) -∗ K ⟨⟩))
      ⊢ wp frame (wpE (defs₀ (F := F)) Variants.none c none) E
          (cc1__triplet_kernel i arg3 harg3 arg4 harg4 arg5 harg5 arg6 harg6 arg7 harg7 arg8 harg8 arg9 harg9 arg10 harg10) K := by
  simp only [cc1__triplet_kernel_eq_skeleton]; unfold cc1__triplet_kernel_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7
  obtain rfl := harg9.eq_unread hf9; obtain rfl := harg10.eq_unread hf10
  sl_exec (disch := first | exact hi | exact hl)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_run_names
    refine (View.read_writes_eq_canon _ _ _ (fun y => ⟨_, List.mem_cons.mpr (Or.inl rfl), View.mem_set_unit_zero hz2 inb_S1x1_S1x1_0_0 y⟩)).trans ?_
    rw [View.canon_cons_unit_zero hz2]
    simp only [View.readCov_unit_zero (S := S1x1) arg9.view hz2 inb_S1x1_S1x1_0_0,
      View.readCov_unit_zero (S := S1x1) arg10.view hz2 inb_S1x1_S1x1_0_0, View.readAt_eq_ld, harg3.read_unread, harg4.read_unread, harg5.read_unread, harg6.read_unread,
      harg7.read_unread, harg8.read_unread, harg9.read_unread, harg10.read_unread,
      View.ld_unit_zero (S := S128x128) hz2, View.ld_unit_zero (S := S128x1) hz2, View.ld_unit_zero (S := S1x128) hz2,
      View.ld_unit_zero (S := S1x1) hz2]
    rfl
  isplitl [H9]
  · iexists _; isplitr
    swap; · iexact H9
    ipureintro
    sl_unfold_run_names
    refine (View.read_writes_eq_canon _ _ _ (fun y => ⟨_, List.mem_cons.mpr (Or.inl rfl), View.mem_set_unit_zero hz2 inb_S1x1_S1x1_0_0 y⟩)).trans ?_
    rw [View.canon_cons_unit_zero hz2]
    simp only [View.readCov_unit_zero (S := S1x1) arg9.view hz2 inb_S1x1_S1x1_0_0,
      View.readCov_unit_zero (S := S1x1) arg10.view hz2 inb_S1x1_S1x1_0_0, View.readAt_eq_ld, harg3.read_unread, harg4.read_unread, harg5.read_unread, harg6.read_unread,
      harg7.read_unread, harg8.read_unread, harg9.read_unread, harg10.read_unread,
      View.ld_unit_zero (S := S128x128) hz2, View.ld_unit_zero (S := S128x1) hz2, View.ld_unit_zero (S := S1x128) hz2,
      View.ld_unit_zero (S := S1x1) hz2]
    rfl
  iexists _; isplitr
  swap; · iexact H10
  ipureintro
  sl_unfold_run_names
  refine (View.read_writes_eq_canon _ _ _ (fun y => ⟨_, List.mem_cons.mpr (Or.inl rfl), View.mem_set_unit_zero hz2 inb_S1x1_S1x1_0_0 y⟩)).trans ?_
  rw [View.canon_cons_unit_zero hz2]
  simp only [View.readCov_unit_zero (S := S1x1) arg9.view hz2 inb_S1x1_S1x1_0_0,
    View.readCov_unit_zero (S := S1x1) arg10.view hz2 inb_S1x1_S1x1_0_0, View.readAt_eq_ld, harg3.read_unread, harg4.read_unread, harg5.read_unread, harg6.read_unread,
    harg7.read_unread, harg8.read_unread, harg9.read_unread, harg10.read_unread,
    View.ld_unit_zero (S := S128x128) hz2, View.ld_unit_zero (S := S128x1) hz2, View.ld_unit_zero (S := S1x128) hz2,
    View.ld_unit_zero (S := S1x1) hz2]
  rfl

end Cert.Kernel.Body

end
-- ==== Proof.KFrame1.lean ====
/-
  The second region (the triplet kernel) as the pipeline library sees it, at any contents `V` of the core's buffers
  when the region is entered. The grid has 64 points. Five windows are inputs (two blocks of the distance matrix, the
  anchors' labels as a column, the positives' and the negatives' labels as rows); the sixth is the 1 × 1 output, stored
  and written back at the last point only. The kernel keeps two running totals in scratch buffers: after `n` points they
  hold `acc n`, the zeros stored at the first point pushed through the first `n` blocks' contributions; the last point
  stores their quotient.
-/
import proofs.«146449_j82489141887188_2_alg».proof.Proof.Gen.Kernel.Launch
import proofs.«146449_j82489141887188_2_alg».proof.Proof.Gen.Kernel.Skeleton
import proofs.«146449_j82489141887188_2_alg».proof.Proof.Gen.Kernel.Points
import proofs.«146449_j82489141887188_2_alg».proof.Proof.KStep
import proofs.«146449_j82489141887188_2_alg».proof.Proof.KBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.Body

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The two running totals after `n` points: the zeros, then one step per point over that point's blocks. -/
def acc (c : Dev nD) : ℕ → Vec F S1x1 .f32 × Vec F S1x1 .f32
  | 0 => (Step.zeroLoss, Step.zeroCnt)
  | n + 1 =>
    if h : n < cfg1.N then
      (Step.lossStep (iblk1 V c 0 ⟨n, h⟩) (iblk1 V c 1 ⟨n, h⟩) (iblk1 V c 2 ⟨n, h⟩) (iblk1 V c 3 ⟨n, h⟩) (iblk1 V c 4 ⟨n, h⟩) (acc c n).1,
        Step.cntStep (iblk1 V c 2 ⟨n, h⟩) (iblk1 V c 3 ⟨n, h⟩) (iblk1 V c 4 ⟨n, h⟩) (acc c n).2)
    else acc c n

theorem acc_succ (c : Dev nD) (t : Fin cfg1.N) :
    acc V c (t.val + 1) = (Step.lossStep (iblk1 V c 0 t) (iblk1 V c 1 t) (iblk1 V c 2 t) (iblk1 V c 3 t) (iblk1 V c 4 t) (acc V c t.val).1,
      Step.cntStep (iblk1 V c 2 t) (iblk1 V c 3 t) (iblk1 V c 4 t) (acc V c t.val).2) := by
  obtain ⟨n, hn⟩ := t
  exact (dif_pos hn)

/-- The scratch operands as memrefs. -/
abbrev scM0 : Memref sig .tc .vmem S1x1 .f32 := Memref.whole cc1_scratch0
abbrev scM1 : Memref sig .tc .vmem S1x1 .f32 := Memref.whole cc1_scratch1

/-- The scoped buffers of the other region, at some contents, and the generator register at some state. -/
def other (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ r, prngReg c r))

/-- The region's invariant before point `n`: before the first point the two totals hold anything; afterwards `acc n`. -/
def PhiS (c : Dev nD) : ℕ → sProp 𝕄
  | 0 => iprop((∃ d, owns (c : Thread nD τ) scM0 fullShare d) ∗ (∃ d, owns (c : Thread nD τ) scM1 fullShare d) ∗ other (F := F) c)
  | n + 1 => iprop(owns (c : Thread nD τ) scM0 fullShare (acc V c (n + 1)).1 ∗ owns (c : Thread nD τ) scM1 fullShare (acc V c (n + 1)).2 ∗ other (F := F) c)

theorem PhiS_pos (c : Dev nD) (n : ℕ) (hz : n ≠ 0) :
    PhiS V c n = iprop(owns (c : Thread nD τ) scM0 fullShare (acc V c n).1 ∗ owns (c : Thread nD τ) scM1 fullShare (acc V c n).2 ∗ other (F := F) c) := by
  cases n with
  | zero => exact absurd rfl hz
  | succ n => rfl

/-- The proof data of the second pipeline. The two blocks of the distance matrix read one array, and so do the two
    label rows: each pair holds its array at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => Step.quot (acc V c (t.val + 1)).1 (acc V c (t.val + 1)).2
  Φ t := PhiS V c t.val
  q w := match w with
    | ⟨0, _⟩ => fullShare.left
    | ⟨1, _⟩ => fullShare.right
    | ⟨2, _⟩ => fullShare
    | ⟨3, _⟩ => fullShare.left
    | ⟨4, _⟩ => fullShare.right
    | ⟨5, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = Step.quot (acc V c (t.val + 1)).1 (acc V c (t.val + 1)).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- The two branch conditions in closed form over the grid, and where the output window is idle. -/
theorem hInit : ∀ t : Fin cfg1.N, condInit (grid1.coords t) ↔ t.val = 0 :=
  (by decide +kernel : ∀ t : Fin grid1.N, condInit (grid1.coords t) ↔ t.val = 0)
theorem hLast : ∀ t : Fin cfg1.N, condLast (grid1.coords t) ↔ t.val = 63 :=
  (by decide +kernel : ∀ t : Fin grid1.N, condLast (grid1.coords t) ↔ t.val = 63)
theorem idleAt5 : ∀ t : Fin cfg1.N, ¬ condLast (grid1.coords t) → cfg1.idle 5 (grid1.coords t) = true := by decide +kernel
theorem noFlush5 : ∀ t : Fin cfg1.N, ¬ condLast (grid1.coords t) → (cfg1.win 5).flush t = false := by decide +kernel
theorem liveAt5 : ∀ t : Fin cfg1.N, condLast (grid1.coords t) → cfg1.idle 5 (grid1.coords t) = false := by decide +kernel

theorem PhiS_zero (c : Dev nD) (n : ℕ) (hz : n = 0) :
    PhiS V c n = iprop((∃ d, owns (c : Thread nD τ) scM0 fullShare d) ∗ (∃ d, owns (c : Thread nD τ) scM1 fullShare d) ∗ other (F := F) c) := by
  subst hz; rfl
theorem acc_zero (c : Dev nD) (n : ℕ) (hz : n = 0) : acc V c n = (Step.zeroLoss, Step.zeroCnt) := by
  subst hz; rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point: the inputs' buffers hold their blocks; the first point stores the zeros and adds its block's
    contribution, every later point adds to what the point before left, the last also stores the quotient; the output's
    buffer is handed back untouched at the points that do not store into it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) from rfl, show (dat1 V c).Φ t.castSucc = PhiS V c t.val from rfl]
  rw [show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2,
    show (dat1 V c).leavesExact 3 t = owns (c : Thread nD τ) (st1_3 t) fullShare ((dat1 V c).after 3 t) from rfl, after1_3,
    show (dat1 V c).leavesExact 4 t = owns (c : Thread nD τ) (st1_4 t) fullShare ((dat1 V c).after 4 t) from rfl, after1_4]
  rw [show PhiS V c (t.val + 1) = iprop(owns (c : Thread nD τ) scM0 fullShare (acc V c (t.val + 1)).1 ∗ owns (c : Thread nD τ) scM1 fullShare (acc V c (t.val + 1)).2 ∗ other (F := F) c) from rfl,
    acc_succ V c t]
  have hN : t.val < 64 := lt_of_lt_of_eq t.isLt (show cfg1.N = 64 from N_1)
  by_cases hz : t.val = 0
  · have hi : condInit (grid1.coords t) := (hInit t).mpr hz
    have hl : ¬ condLast (grid1.coords t) := fun h => by have := (hLast t).mp h; omega
    rw [Dat.leavesExact_idle (dat1 V c) 5 t (idleAt5 t hl) (noFlush5 t hl), PhiS_zero V c _ hz, acc_zero V c _ hz]
    iintro ⟨⟨HS0, HS1, Hoth⟩, Ho, ⟨%d0, H0⟩, ⟨%d1, H1⟩, ⟨%d2, H2⟩, ⟨%d3, H3⟩, ⟨%d4, H4⟩, ⟨%d5, H5⟩⟩
    iapply (sound_kernel1_first c Set.univ (grid1.coords t) _ _ _ _ _ _ _ _ _ _ _ _ _ _ _ _ hi hl
      (iblk1 V c 0 t) (iblk1 V c 1 t) (iblk1 V c 2 t) (iblk1 V c 3 t) (iblk1 V c 4 t) ((dat1 V c).before 5 t d5) _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hoth]
    · isplitl [HS0]; · iexact HS0
      isplitl [HS1]; · iexact HS1
      iexact Hoth
    isplitl [Ho]; · iexact Ho
    isplitl [H0]; · iexact H0
    isplitl [H1]; · iexact H1
    isplitl [H2]; · iexact H2
    isplitl [H3]; · iexact H3
    isplitl [H4]; · iexact H4
    iexists d5; iexact H5
  · have hi : ¬ condInit (grid1.coords t) := fun h => hz ((hInit t).mp h)
    rw [PhiS_pos V c _ hz]
    by_cases hl63 : t.val = 63
    · have hl : condLast (grid1.coords t) := (hLast t).mpr hl63
      rw [show (dat1 V c).leavesExact 5 t = owns (c : Thread nD τ) (st1_5 t) fullShare ((dat1 V c).after 5 t) from by
        unfold Dat.leavesExact; rw [liveAt5 t hl], after1_5, acc_succ V c t]
      iintro ⟨⟨HS0, HS1, Hoth⟩, Ho, ⟨%d0, H0⟩, ⟨%d1, H1⟩, ⟨%d2, H2⟩, ⟨%d3, H3⟩, ⟨%d4, H4⟩, ⟨%d5, H5⟩⟩
      iapply (sound_kernel1_last c Set.univ (grid1.coords t) _ _ _ _ _ _ _ _ _ _ _ _ _ _ _ _ hi hl
        (iblk1 V c 0 t) (iblk1 V c 1 t) (iblk1 V c 2 t) (iblk1 V c 3 t) (iblk1 V c 4 t) (acc V c t.val).1 (acc V c t.val).2 _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hoth]
      · isplitl [HS0]; · iexact HS0
        isplitl [HS1]; · iexact HS1
        iexact Hoth
      isplitl [Ho]; · iexact Ho
      isplitl [H0]; · iexact H0
      isplitl [H1]; · iexact H1
      isplitl [H2]; · iexact H2
      isplitl [H3]; · iexact H3
      isplitl [H4]; · iexact H4
      iexact H5
    · have hl : ¬ condLast (grid1.coords t) := fun h => hl63 ((hLast t).mp h)
      rw [Dat.leavesExact_idle (dat1 V c) 5 t (idleAt5 t hl) (noFlush5 t hl)]
      iintro ⟨⟨HS0, HS1, Hoth⟩, Ho, ⟨%d0, H0⟩, ⟨%d1, H1⟩, ⟨%d2, H2⟩, ⟨%d3, H3⟩, ⟨%d4, H4⟩, ⟨%d5, H5⟩⟩
      iapply (sound_kernel1_mid c Set.univ (grid1.coords t) _ _ _ _ _ _ _ _ _ _ _ _ _ _ _ _ hi hl
        (iblk1 V c 0 t) (iblk1 V c 1 t) (iblk1 V c 2 t) (iblk1 V c 3 t) (iblk1 V c 4 t) ((dat1 V c).before 5 t d5)
        (acc V c t.val).1 (acc V c t.val).2 _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hoth]
      · isplitl [HS0]; · iexact HS0
        isplitl [HS1]; · iexact HS1
        iexact Hoth
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KVals.lean ====
/-
  The contents of the core's buffers at each boundary of the program: at launch; after the first region, which leaves
  the distance matrix in its result buffer; after the two reshapes of the labels; after the second region, which leaves
  the loss in its 1 × 1 result buffer; after the last reshape.
-/
import proofs.«146449_j82489141887188_2_alg».proof.Proof.Gen.Kernel.Regions
import proofs.«146449_j82489141887188_2_alg».proof.Proof.KFrame0
import proofs.«146449_j82489141887188_2_alg».proof.Proof.KFrame1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- What the first region finds: the launch contents. -/
abbrev Ve0 (c : Dev nD) (b : Ref sig .tc) : Buf (Elt F) ((c : Thread nD τ).loc b) := Gen.V0 m c b
/-- What the first region leaves in its result buffer. -/
def out1 (c : Dev nD) : Buf (Elt F) ((c : Thread nD τ).loc main_v0) := (dat0 (Ve0 m) c).arrAt 1 cfg0.N
/-- The buffers after the first region. -/
def W1 (c : Dev nD) : Valuation τ sig (Elt F) := Function.update (Gen.V0 m c) main_v0 (out1 m c)
/-- What the second region finds: after the reshapes of the labels. -/
abbrev Ve1 (c : Dev nD) (b : Ref sig .tc) : Buf (Elt F) ((c : Thread nD τ).loc b) := StableHlo.after hostOps1 (W1 m c) b
/-- What the second region leaves in its result buffer. -/
def out3 (c : Dev nD) : Buf (Elt F) ((c : Thread nD τ).loc main_v3) := (dat1 (Ve1 m) c).arrAt 5 cfg1.N
/-- The buffers after the second region, and after the last reshape. -/
def W3 (c : Dev nD) : Valuation τ sig (Elt F) := Function.update (StableHlo.after hostOps1 (W1 m c)) main_v3 (out3 m c)
def W4 (c : Dev nD) : Valuation τ sig (Elt F) := StableHlo.after hostOps2 (W3 m c)
/-- What the regions leave, as the conditional frame takes it. -/
def outs : Gen.Outs (F := F) := fun J r c => if J = 1 then W1 m c r else W3 m c r

theorem V1_eq (c : Dev nD) : Gen.V1 m (outs m) c = W1 m c := by
  unfold Gen.V1 outs W1
  simp only [if_pos, Function.update_self]
theorem V2_eq (c : Dev nD) : Gen.V2 m (outs m) c = StableHlo.after hostOps1 (W1 m c) := by
  unfold Gen.V2; rw [V1_eq]
theorem V3_eq (c : Dev nD) : Gen.V3 m (outs m) c = W3 m c := by
  unfold Gen.V3; rw [V2_eq]; unfold outs W3
  simp only [show ¬ ((3 : ℕ) = 1) from by decide, if_false, Function.update_self]
theorem V4_eq (c : Dev nD) : Gen.V4 m (outs m) c = W4 m c := by
  unfold Gen.V4 W4; rw [V3_eq]

end Cert.Kernel.Fr

end
-- ==== Proof.KShared.lean ====
/-
  The second region's arrays among the core's buffers. Two of its windows read the distance matrix and two read the
  row of labels, so each of those two buffers, held whole at the full share when the region is entered, is dealt to its
  two windows as the two halves of the full share, and put together again when the region is left; the output's
  buffer comes back holding what the last point wrote.
-/
import proofs.«146449_j82489141887188_2_alg».proof.Proof.KFrame1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The core's unscoped buffers, one by one. -/
theorem unscopedBufs_list (c : Dev nD) (W : (b : Ref sig .tc) → Buf (Elt F) ((c : Thread nD τ).loc b)) :
    (unscopedBufs (Ix := Unit) (Name := ℕ) (U := UR sig nD τ) (Lvl := ℕ) c W : sProp 𝕄)
      = iprop((((c : Thread nD τ).loc main_arg0) ↦{fullShare} W main_arg0) ∗ (((c : Thread nD τ).loc main_arg1) ↦{fullShare} W main_arg1)
        ∗ (((c : Thread nD τ).loc main_v0) ↦{fullShare} W main_v0) ∗ (((c : Thread nD τ).loc main_v1) ↦{fullShare} W main_v1)
        ∗ (((c : Thread nD τ).loc main_v2) ↦{fullShare} W main_v2) ∗ (((c : Thread nD τ).loc main_v3) ↦{fullShare} W main_v3)
        ∗ (((c : Thread nD τ).loc main_v4) ↦{fullShare} W main_v4)) := by
  unfold unscopedBufs
  exact bigSep_eq_bigSepL_of_eq [main_arg0, main_arg1, main_v0, main_v1, main_v2, main_v3, main_v4] (by decide) (by decide) _

/-- The second pipeline's arrays, window by window, each at its share. -/
theorem arrays1_list (c : Dev nD) (Fw : (w : Fin cfg1.W) → Buf (Elt F) ((cfg1.win w).arr.view.loc (c : Thread nD τ))) :
    ((dat1 V c).arrays Fw : sProp 𝕄)
      = iprop((((c : Thread nD τ).loc main_v0) ↦{fullShare.left} Fw 0) ∗ (((c : Thread nD τ).loc main_v0) ↦{fullShare.right} Fw 1)
        ∗ (((c : Thread nD τ).loc main_v1) ↦{fullShare} Fw 2)
        ∗ (((c : Thread nD τ).loc main_v2) ↦{fullShare.left} Fw 3) ∗ (((c : Thread nD τ).loc main_v2) ↦{fullShare.right} Fw 4)
        ∗ (((c : Thread nD τ).loc main_v3) ↦{fullShare} Fw 5)) := by
  unfold Dat.arrays
  rw [bigSep_W1, (arr_whole1 0).set_eq_univ, (arr_whole1 2).set_eq_univ, (arr_whole1 3).set_eq_univ, (arr_whole1 5).set_eq_univ]
  rfl

/-- A buffer held whole at the full share is held at its two halves. -/
theorem share_halves (c : Dev nD) (b : Ref sig .tc) (f : Buf (Elt F) ((c : Thread nD τ).loc b)) :
    ((((c : Thread nD τ).loc b) ↦{fullShare} f) : sProp 𝕄)
      = iprop((((c : Thread nD τ).loc b) ↦{fullShare.left} f) ∗ (((c : Thread nD τ).loc b) ↦{fullShare.right} f)) :=
  BI.Entails.antisymm (pointsTo_share (PosShare.mem_left_op_right fullShare)).1 (pointsTo_share (PosShare.mem_left_op_right fullShare)).2

/-- ENTRY: the core's unscoped buffers at the entry contents are the second pipeline's arrays at those contents, each
    shared buffer dealt to its two windows, and the buffers no window stages. -/
theorem split_entry (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [unscopedBufs_list, arrays1_list, unscopedRest1_eq, share_halves c main_v0, share_halves c main_v2]
  iintro ⟨Ha0, Ha1, ⟨H0l, H0r⟩, H1, ⟨H2l, H2r⟩, H3, H4⟩
  isplitl [H0l H0r H1 H2l H2r H3]
  · isplitl [H0l]; · iexact H0l
    isplitl [H0r]; · iexact H0r
    isplitl [H1]; · iexact H1
    isplitl [H2l]; · iexact H2l
    isplitl [H2r]; · iexact H2r
    iexact H3
  isplitl [Ha0]; · iexact Ha0
  isplitl [Ha1]; · iexact Ha1
  iexact H4

/-- EXIT: the arrays as the pipeline leaves them — the inputs as entered, the output at what the last point wrote — and the
    buffers no window stages are the core's unscoped buffers at any contents that have the output's buffer at that and
    agree with the entry contents elsewhere. -/
theorem join_exit (c : Dev nD) (W' : (b : Ref sig .tc) → Buf (Elt F) ((c : Thread nD τ).loc b))
    (h3 : W' main_v3 = (dat1 V c).arrAt 5 cfg1.N) (hr : ∀ b : Ref sig .tc, b ≠ main_v3 → W' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c W' : sProp 𝕄) := by
  rw [unscopedBufs_list, arrays1_list, unscopedRest1_eq]
  rw [show (dat1 V c).arrAt 0 cfg1.N = V c main_v0 from ((dat1 V c).arrAt_in 0 rfl _).trans (A_eq1 V c 0),
    show (dat1 V c).arrAt 1 cfg1.N = V c main_v0 from ((dat1 V c).arrAt_in 1 rfl _).trans (A_eq1 V c 1),
    show (dat1 V c).arrAt 2 cfg1.N = V c main_v1 from ((dat1 V c).arrAt_in 2 rfl _).trans (A_eq1 V c 2),
    show (dat1 V c).arrAt 3 cfg1.N = V c main_v2 from ((dat1 V c).arrAt_in 3 rfl _).trans (A_eq1 V c 3),
    show (dat1 V c).arrAt 4 cfg1.N = V c main_v2 from ((dat1 V c).arrAt_in 4 rfl _).trans (A_eq1 V c 4)]
  rw [hr main_arg0 (by decide), hr main_arg1 (by decide), hr main_v0 (by decide), hr main_v1 (by decide), hr main_v2 (by decide),
    hr main_v4 (by decide), h3]
  rw [share_halves c main_v0, share_halves c main_v2]
  iintro ⟨⟨H0l, H0r, H1, H2l, H2r, H3⟩, Ha0, Ha1, H4⟩
  isplitl [Ha0]; · iexact Ha0
  isplitl [Ha1]; · iexact Ha1
  isplitl [H0l H0r]
  · isplitl [H0l]; · iexact H0l
    iexact H0r
  isplitl [H1]; · iexact H1
  isplitl [H2l H2r]
  · isplitl [H2l]; · iexact H2l
    iexact H2r
  isplitl [H3]; · iexact H3
  iexact H4

end Cert.Kernel.Fr

end
-- ==== Proof.KFrames.lean ====
/-
  The whole program's run. Its two regions are entered from, and left at, thread states that hold every unscoped buffer
  of the core at the boundary's contents (`Vals`), the generator register at some state and nothing owed. The first
  region's arrays are distinct buffers; the second deals each of its two shared buffers to two windows and puts them
  together again. From the run: every unscoped buffer ends at the last boundary's contents, so the arguments end as
  launched (the frame) and the result buffer holds the last reshape of what the second region wrote.
-/
import proofs.«146449_j82489141887188_2_alg».proof.Proof.KVals
import proofs.«146449_j82489141887188_2_alg».proof.Proof.KShared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- Every pipeline's proof data, each at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

/-- At the first region's exit each of its arrays holds what the pipeline leaves, -/
theorem hF0 (c : Dev nD) : ∀ w : Fin cfg0.W, (dat0 (Ve0 m) c).arrAt w cfg0.N = W1 m c (Pipeline.arrRef spec0 w)
  | ⟨0, _⟩ => ((dat0 (Ve0 m) c).arrAt_in 0 rfl _).trans ((A_eq0 (Ve0 m) c 0).trans (by
      unfold W1; exact (Function.update_of_ne (StableHlo.devRef_ne_of_ne (by decide)) _ _).symm))
  | ⟨1, _⟩ => by unfold W1 out1; exact (Function.update_self (Proc.devRef .tc main_v0 : DevRef τ sig) _ (Gen.V0 m c)).symm
/-- and every other buffer what it held at entry. -/
theorem hrest0 (c : Dev nD) : ∀ b, b ∉ Finset.univ.image (Pipeline.arrRef spec0) → W1 m c b = Ve0 m c b := fun b hb => by
  have hne : b ≠ main_v0 := fun e => hb (Finset.mem_image.mpr ⟨1, Finset.mem_univ _, e.symm⟩)
  unfold W1; exact Function.update_of_ne (StableHlo.devRef_ne_of_ne hne) _ _

set_option backward.isDefEq.respectTransparency.types false in
/-- The first region over the thread state: entered from the launch contents, left with the distance matrix in its
    result buffer. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Ve0 m c) (fun b => W1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second region's invariant before the first point, from the scoped buffers nobody stages and the generator register. -/
theorem hin1 (c : Dev nD) :
    iprop((∃ r, prngReg c r) ∗ Pipeline.scopedRest (Ix := Unit) (Name := ℕ) (U := UR sig nD τ) (Lvl := ℕ) (Val := Elt F) spec1 c)
      ⊢ (PhiS (Ve1 m) c 0 : sProp 𝕄) := by
  rw [scopedRest1_eq]
  show _ ⊢ iprop((∃ d, owns (c : Thread nD τ) scM0 fullShare d) ∗ (∃ d, owns (c : Thread nD τ) scM1 fullShare d) ∗ other (F := F) c)
  unfold other
  simp only [scM0, scM1, owns_whole]
  iintro ⟨Hp, H0, H1, HS0, HS1⟩
  isplitl [HS0]; · iexact HS0
  isplitl [HS1]; · iexact HS1
  isplitl [H0]; · iexact H0
  isplitl [H1]; · iexact H1
  iexact Hp

/-- After the last point the invariant gives the scoped buffers back, their contents forgotten. -/
theorem hout1 (c : Dev nD) :
    (PhiS (Ve1 m) c 64 : sProp 𝕄)
      ⊢ iprop((∃ r, prngReg c r) ∗ Pipeline.scopedRest (Ix := Unit) (Name := ℕ) (U := UR sig nD τ) (Lvl := ℕ) (Val := Elt F) spec1 c) := by
  rw [scopedRest1_eq, PhiS_pos (Ve1 m) c 64 (by decide)]
  unfold other
  simp only [← owns_whole]
  iintro ⟨HS0, HS1, H0, H1, Hp⟩
  isplitl [Hp]; · iexact Hp
  isplitl [H0]; · iexact H0
  isplitl [H1]; · iexact H1
  isplitl [HS0]; · iexists _; iexact HS0
  iexists _; iexact HS1

set_option backward.isDefEq.respectTransparency.types false in
/-- The second region over the thread state: entered from the contents after the labels' reshapes, left with the loss in
    its result buffer. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (StableHlo.after hostOps1 (W1 m c)) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := split_entry (Ve1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = PhiS (Ve1 m) c 0 from rfl]
    iintro ⟨Hp, -, Hr⟩
    iapply (hin1 m c)
    isplitl [Hp]; · iexact Hp
    iexact Hr
  hout c := by
    rw [Pipeline.ownSems0_none, show (pdats m 1 c).Φ (Fin.last _) = PhiS (Ve1 m) c 64 from rfl]
    iintro H
    ihave H' := (hout1 m c) $$ H
    icases H' with ⟨Hp, Hr⟩
    isplitl [Hp]; · iexact Hp
    isplitr; · iempintro
    iexact Hr
  hexit c := by
    have hjoin := join_exit (Ve1 m) c (fun b => W3 m c b)
      (by unfold W3 out3; exact Function.update_self (Proc.devRef .tc main_v3 : DevRef τ sig) _ (StableHlo.after hostOps1 (W1 m c)))
      (fun b hb => by unfold W3; exact Function.update_of_ne (StableHlo.devRef_ne_of_ne hb) _ _)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The thread states chain: each region is entered from, and left at, the boundary's contents. -/
theorem hpre0 (c : Dev nD) : iprop(StableHlo.held (c : Thread nD τ) (Pipeline.ucRefs τ sig) (Gen.V0 m c) ∗ R (F := F) c) ⊢ (reg0 m).pre c := .rfl
theorem hpost0 (c : Dev nD) : (reg0 m).post c ⊢ iprop(StableHlo.held (c : Thread nD τ) (Pipeline.ucRefs τ sig) (Gen.V1 m (outs m) c) ∗ R (F := F) c) := by
  rw [V1_eq]; exact .rfl
theorem hpre1 (c : Dev nD) : iprop(StableHlo.held (c : Thread nD τ) (Pipeline.ucRefs τ sig) (Gen.V2 m (outs m) c) ∗ R (F := F) c) ⊢ (reg1 m).pre c := by
  rw [V2_eq]; exact .rfl
theorem hpost1 (c : Dev nD) : (reg1 m).post c ⊢ iprop(StableHlo.held (c : Thread nD τ) (Pipeline.ucRefs τ sig) (Gen.V3 m (outs m) c) ∗ R (F := F) c) := by
  rw [V3_eq]; exact .rfl
/-- The last thread state owes nothing. -/
theorem hE2 (c : Dev nD) : R (F := F) c ⊢ (iprop(∃ W, owes (c : Thread nD τ) (0 : CellTallies nD τ sig Unit) W) : sProp 𝕄) := by
  iintro ⟨-, HO⟩; iexact HO

set_option backward.isDefEq.respectTransparency.types false in
/-- THE RUN: from any memory with zero counters every weakly fair execution of the program terminates, nothing
    faulting, and every final state holds each unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V4 m (outs m) c b) := by
  refine Pipeline.θ_run_regions_kit_dev (pcfgs (F := F)) Gen.adm (pdats m) () cellOf_inj emb₁ defs₀ 𝒱₀ L lv m ρ main
    (Gen.segs m (outs m) 𝒱₀ L lv (fun _ c => R (F := F) c) () (pdats m) (reg0 m) (reg1 m))
    (fun c Q => by
      rewrite [main_chain c, Seg.run_eq_chain,
        show (Gen.segs m (outs m) 𝒱₀ L lv (fun _ c => R (F := F) c) () (pdats m) (reg0 m) (reg1 m) c).map Seg.prog = [
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V4 m (outs m) c))
    (hch := fun c => ⟨hpre0 m c, hpost0 m c, hpre1 m c, hpost1 m c, sep_mono .rfl (hE2 c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V4 m (outs m) c b)
    (hfin := fun c s' => by
      iintro ⟨Hh, HSI⟩
      unfold StableHlo.held
      imodintro
      iapply (pointsTo_read_all (Pipeline.ucRefs τ sig) (fun b => (((c : Thread nD τ)).1, b)) (Gen.V4 m (outs m) c) s')
      isplitl [Hh] <;> iassumption)
    (hQ := fun s h => h)

/-- THE FRAME: the argument arrays end as launched — no host operation and no region writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (Gen.V4_main_arg0 m (outs m) c),
      (h c _ (mem_uc main_arg1 (by decide))).trans (Gen.V4_main_arg1 m (outs m) c)⟩) (run_all m ρ)

/-- THE RUN WITH ITS RESULT: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v4) = W4 m c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v4 (by decide))).trans (congrFun (V4_eq m c) _),
      (h c _ (mem_uc main_arg0 (by decide))).trans (Gen.V4_main_arg0 m (outs m) c),
      (h c _ (mem_uc main_arg1 (by decide))).trans (Gen.V4_main_arg1 m (outs m) c)⟩) (run_all m ρ)

end Cert.Kernel.Fr

end
-- ==== Proof.Spec.lean ====
/-
  The mathematics both programs compute, stated once over the extended reals.

  For a matrix `x` of 512 rows (each a point of dimension 512) and a label `t p` per row:
  the squared norm of a row, the Gram entry of two rows, their Euclidean distance
  `sqrt (max (|x_p|^2 + |x_q|^2 - 2 <x_p, x_q>) eps)`; for an anchor `p`, a positive `q` and a negative
  `r` the hinge `max (d(p,q) - d(p,r) + margin) 0`; a triple is valid when `p` and `q` carry the same
  label and `p` and `r` different ones. The loss is the sum of the hinges over the valid triples divided by
  their number. The three float literals are kept as the binary words both programs print.
-/
import Idealize.ShloMosaic.PureOps.Ideal
import Idealize.ShloMosaic.PureOps.Ideal.Laws
import Idealize.ShloMosaic.Lib.ValueIdx

noncomputable section

namespace Cert.Trip

open Idealize.ShloMosaic Idealize.ShloMosaic.ValueIdx

/-- A 512 × 512 matrix of extended reals, and a vector of 512 labels. -/
abbrev Mat : Type := (⟨2, ![512, 512]⟩ : Shape).Idx → EReal
abbrev Lab : Type := (⟨1, ![512]⟩ : Shape).Idx → BitVec 32

/-- The literals `2.0`, `1e-12` and `0.3` as the binary32 words the programs print. -/
def two : EReal := Ideal.ofBits .f32 0x40000000#32
def eps : EReal := Ideal.ofBits .f32 0x2B8CBCCC#32
def margin : EReal := Ideal.ofBits .f32 0x3E99999A#32

/-- The squared norm of row `p`. -/
def sqn (x : Mat) (p : Fin 512) : EReal := ∑ k : Fin 512, x (ix2 p k) * x (ix2 p k)
/-- The inner product of rows `p` and `q`. -/
def gram (x : Mat) (p q : Fin 512) : EReal := ∑ k : Fin 512, x (ix2 p k) * x (ix2 q k)
/-- The clamped Euclidean distance of rows `p` and `q`. -/
def dist (x : Mat) (p q : Fin 512) : EReal :=
  Ideal.sqrt (max ((sqn x p + sqn x q) - two * gram x p q) eps)
/-- The hinge of anchor `p`, positive `q`, negative `r`, written over any distance matrix `d`. -/
def hingeOf (d : Fin 512 → Fin 512 → EReal) (p q r : Fin 512) : EReal := max ((d p q - d p r) + margin) 0
def hinge (x : Mat) (p q r : Fin 512) : EReal := hingeOf (dist x) p q r
/-- `p` and `q` share a label, `p` and `r` do not. -/
def valid (t : Lab) (p q r : Fin 512) : Prop := t (ix1 p) = t (ix1 q) ∧ t (ix1 p) ≠ t (ix1 r)
instance (t : Lab) (p q r : Fin 512) : Decidable (valid t p q r) := by unfold valid; infer_instance
/-- The sum of the hinges over the valid triples, over any distance matrix, and their number. -/
def lossSumOf (d : Fin 512 → Fin 512 → EReal) (t : Lab) : EReal :=
  ∑ p : Fin 512, ∑ q : Fin 512, ∑ r : Fin 512, if valid t p q r then hingeOf d p q r else 0
def lossSum (x : Mat) (t : Lab) : EReal := lossSumOf (dist x) t
def count (t : Lab) : EReal :=
  ∑ p : Fin 512, ∑ q : Fin 512, ∑ r : Fin 512, if valid t p q r then (1 : EReal) else 0
/-- The batch-all triplet loss, as a rank-0 array. -/
def loss (x : Mat) (t : Lab) : (⟨0, ![]⟩ : Shape).Idx → EReal := fun _ => Ideal.div (lossSum x t) (count t)

end Cert.Trip

end
-- ==== Proof.DistValue.lean ====
/-
  The distance kernel's value, entry by entry.

  The first kernel stores, from the one matrix `x` it loads (512 points as rows, each of dimension 512), the
  matrix whose entry `(p, q)` is `sqrt (max (|x_p|^2 + |x_q|^2 - 2 <x_p, x_q>) eps)`. It computes the Gram
  entries `<x_p, x_q>` as a matrix product of `x` with its transpose into a zero accumulator, the squared
  norms `|x_p|^2` as the row sums of the entrywise squares, spreads those sums once down the columns and
  once along the rows, and finishes entrywise. Below, each operation that is not entrywise is read at an
  index `(p, q)` — the transpose swaps the coordinates, the product is the sum over the contracted
  coordinate, the row sum is the sum over the second coordinate, a column of sums spread over the rows'
  entries reads the sum of the row, a row of sums spread over the rows reads the sum of the column's
  point — and the entrywise operations then give the specification's `dist x p q` term by term.
-/
import proofs.«146449_j82489141887188_2_alg».proof.Proof.Gen.KernelIdeal.Skeleton
import proofs.«146449_j82489141887188_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.DistValue

open Idealize.ShloMosaic Idealize.ShloMosaic.ValueIdx Cert.KernelIdeal Cert.KernelIdeal.Facts₀

/-- The transposed matrix at `(k, q)` is the matrix at `(q, k)`. -/
theorem transposed_apply (x : FVec Ideal S512x512 .f32) (k q : Fin 512) :
    transpose S512x512 [1, 0] x transposes_S512x512_p1_0_S512x512 (ix2 k q) = x (ix2 q k) :=
  transpose_ix2_apply x transposes_S512x512_p1_0_S512x512 k q

/-- The product's left operand is read at the result's row and the contracted coordinate … -/
theorem lhs_row (i : S512x512.Idx) (c : dot_S512x512_S512x512_S512x512_1_0_0_1_n_n.contr.Idx) :
    (dot_S512x512_S512x512_S512x512_1_0_0_1_n_n.lhsIdx i c 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
theorem lhs_col (i : S512x512.Idx) (c : dot_S512x512_S512x512_S512x512_1_0_0_1_n_n.contr.Idx) :
    (dot_S512x512_S512x512_S512x512_1_0_0_1_n_n.lhsIdx i c 1).val = (c ⟨0, by decide⟩).val :=
  dot_S512x512_S512x512_S512x512_1_0_0_1_n_n.lhsIdx_val_of_single rfl i c
/-- … and its right operand at the contracted coordinate and the result's column. -/
theorem rhs_row (i : S512x512.Idx) (c : dot_S512x512_S512x512_S512x512_1_0_0_1_n_n.contr.Idx) :
    (dot_S512x512_S512x512_S512x512_1_0_0_1_n_n.rhsIdx i c 0).val = (c ⟨0, by decide⟩).val :=
  dot_S512x512_S512x512_S512x512_1_0_0_1_n_n.rhsIdx_val_of_single rfl i c
theorem rhs_col (i : S512x512.Idx) (c : dot_S512x512_S512x512_S512x512_1_0_0_1_n_n.contr.Idx) :
    (dot_S512x512_S512x512_S512x512_1_0_0_1_n_n.rhsIdx i c 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- The product of the matrix with its transpose, into the zero accumulator, at `(p, q)`: the inner product of
    rows `p` and `q`. -/
theorem gram_apply (x : FVec Ideal S512x512 .f32) (p q : Fin 512) :
    matmul dot_S512x512_S512x512_S512x512_1_0_0_1_n_n (some .fp32) x
        (transpose S512x512 [1, 0] x transposes_S512x512_p1_0_S512x512)
        (constant (F := Ideal) S512x512 .f32 0x00000000#32) (ix2 p q)
      = Cert.Trip.gram x p q := by
  refine (Ideal.matmul_constant_zero_apply dot_S512x512_S512x512_S512x512_1_0_0_1_n_n (some .fp32) x
    (transpose S512x512 [1, 0] x transposes_S512x512_p1_0_S512x512) (ix2 p q)).trans ?_
  unfold Cert.Trip.gram
  rw [← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q)
      ((contrEquiv1 dot_S512x512_S512x512_S512x512_1_0_0_1_n_n 512 rfl rfl).symm k) = ix2 p k :=
    funext fun a => Fin.ext (by
      match a with
      | ⟨0, _⟩ => exact lhs_row _ _
      | ⟨1, _⟩ => exact (lhs_col _ _).trans hk)
  have er : dot_S512x512_S512x512_S512x512_1_0_0_1_n_n.rhsIdx (ix2 p q)
      ((contrEquiv1 dot_S512x512_S512x512_S512x512_1_0_0_1_n_n 512 rfl rfl).symm k) = ix2 k q :=
    funext fun a => Fin.ext (by
      match a with
      | ⟨0, _⟩ => exact (rhs_row _ _).trans hk
      | ⟨1, _⟩ => exact rhs_col _ _)
  rw [el, er, transposed_apply]

/-- The sum over the second coordinate of the entrywise squares, at `p`: the squared norm of row `p`. -/
theorem sqrow_apply (x : FVec Ideal S512x512 .f32) (p : Fin 512) :
    multiReduction (F := Ideal) .add [1] S512 (mulf x x) 0x00000000#32 reduces_S512x512_S512 (.inl rfl) rfl (ix1 p)
      = Cert.Trip.sqn x p := by
  refine (Ideal.multiReduction_add_single (mulf x x) 0x00000000#32 reduces_S512x512_S512 (.inl rfl) rfl (ix1 p)).trans ?_
  unfold Cert.Trip.sqn
  refine Finset.sum_congr rfl fun (k : Fin 512) _ => ?_
  have e : reduces_S512x512_S512.lift (ix1 p) k = ix2 p k :=
    funext fun a => Fin.ext (by
      match a with
      | ⟨0, _⟩ => rfl
      | ⟨1, _⟩ => rfl)
  rw [e]
  rfl

/-- A vector of 512 entries, set as a column and spread over 512 columns, reads at `(p, q)` its entry `p`. -/
theorem col_apply (v : FVec Ideal S512 .f32) (p q : Fin 512) :
    broadcastTo S512x512 (shapeCast S512x1 v shapeCasts_S512_S512x1) broadcasts_S512x1_S512x512 (ix2 p q) = v (ix1 p) := by
  refine (broadcastTo_apply (shapeCast S512x1 v shapeCasts_S512_S512x1) broadcasts_S512x1_S512x512 (ix2 p q)
    (ix2 p (0 : Fin 1)) fun ax => ?_).trans ?_
  · match ax with
    | ⟨0, _⟩ =>
      show p.val = if (512 : Nat) = 1 then 0 else p.val
      rw [if_neg (by decide)]
    | ⟨1, _⟩ =>
      show (0 : Nat) = if (1 : Nat) = 1 then 0 else q.val
      rw [if_pos rfl]
  · refine shapeCast_apply v shapeCasts_S512_S512x1 (ix2 p (0 : Fin 1)) (ix1 p) ?_
    rw [Shape.rowMajor_val_one, Shape.rowMajor_val_two]
    show p.val = p.val * 1 + 0
    omega

/-- The same vector set as a row and spread over 512 rows reads at `(p, q)` its entry `q`. -/
theorem row_apply (v : FVec Ideal S512 .f32) (p q : Fin 512) :
    broadcastTo S512x512 (shapeCast S1x512 v shapeCasts_S512_S1x512) broadcasts_S1x512_S512x512 (ix2 p q) = v (ix1 q) :=
  (broadcastTo_1b_ab_apply (shapeCast S1x512 v shapeCasts_S512_S1x512) broadcasts_S1x512_S512x512 p q).trans
    (shapeCast_a_1a_apply v shapeCasts_S512_S1x512 (0 : Fin 1) q)

/-- The entrywise tail of the kernel at an index, over any three matrices in the places of the two spread sums and
    the product. -/
theorem tail_apply (A B G : FVec Ideal S512x512 .f32) (i : S512x512.Idx) :
    sqrt (maximumf (subf (addf A B) (mulf (broadcast S512x512 (Scalar.ofBits (F := Ideal) .f32 0x40000000#32)) G))
        (broadcast S512x512 (Scalar.ofBits (F := Ideal) .f32 0x2B8CBCCC#32))) i
      = Ideal.sqrt (max ((A i + B i) - Cert.Trip.two * G i) Cert.Trip.eps) := rfl

/-- The distance kernel's stored value at `(p, q)` is the clamped Euclidean distance of rows `p` and `q`. -/
theorem dist_apply (x : Vec Ideal Cert.KernelIdeal.S512x512 .f32) (p q : Fin 512) :
    Cert.KernelIdeal.Gen.k0_pay1 (F := Ideal) x (Idealize.ShloMosaic.ValueIdx.ix2 p q) = Cert.Trip.dist x p q := by
  unfold Cert.KernelIdeal.Gen.k0_pay1
  refine (tail_apply _ _ _ (ix2 p q)).trans ?_
  unfold Cert.Trip.dist
  refine congrArg Ideal.sqrt (congrArg (fun t => max t Cert.Trip.eps) ?_)
  refine congrArg₂ (fun a b => a - b) (congrArg₂ (fun a b => a + b) ?_ ?_) (congrArg (fun t => Cert.Trip.two * t) ?_)
  · exact (col_apply _ p q).trans (sqrow_apply x p)
  · exact (row_apply _ p q).trans (sqrow_apply x q)
  · exact gram_apply x p q

end Cert.KernelIdeal.DistValue

end
-- ==== Proof.StepValueA.lean ====
/-
  Reading one grid point's operations at an index: the sums over one axis of the three-axis blocks, the views of a
  block under another shape, a block laid along a new axis, a cut of 32 lanes, the 0/1 word of a comparison, and a sum over
  128 lanes as its four chunks of 32.
-/
import proofs.«146449_j82489141887188_2_alg».proof.Proof.Step
import proofs.«146449_j82489141887188_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.StepValue

open Idealize.ShloMosaic Idealize.ShloMosaic.ValueIdx Cert.KernelIdeal

variable {α : Type}

/-- Summing over the last axis of a [128,128,32] array. -/
theorem red2_apply (v : FVec Ideal S128x128x32 .f32) (h : S128x128x32.Reduces [2] S128x128) (hφ : FKind.Formats .f32)
    (hacc : (0x00000000#32 : BitVec 32) = FKind.add.neutral .f32 hφ) (a b : Fin 128) :
    multiReduction .add [2] S128x128 v 0x00000000#32 h hφ hacc (ix2 a b) = ∑ k : Fin 32, v (ix3 a b k) := by
  refine (Ideal.multiReduction_add_single v _ h hφ hacc (ix2 a b)).trans ?_
  refine Finset.sum_congr rfl fun k _ => congrArg v ?_
  funext c
  match c with
  | ⟨0, _⟩ => rfl
  | ⟨1, _⟩ => rfl
  | ⟨2, _⟩ => rfl

/-- Summing over the middle axis of a [128,128,1] array. -/
theorem red1_apply (v : FVec Ideal S128x128x1 .f32) (h : S128x128x1.Reduces [1] S128x1) (hφ : FKind.Formats .f32)
    (hacc : (0x00000000#32 : BitVec 32) = FKind.add.neutral .f32 hφ) (a : Fin 128) (u : Fin 1) :
    multiReduction .add [1] S128x1 v 0x00000000#32 h hφ hacc (ix2 a u) = ∑ b : Fin 128, v (ix3 a b u) := by
  refine (Ideal.multiReduction_add_single v _ h hφ hacc (ix2 a u)).trans ?_
  refine Finset.sum_congr rfl fun k _ => congrArg v ?_
  funext c
  match c with
  | ⟨0, _⟩ => rfl
  | ⟨1, _⟩ => rfl
  | ⟨2, _⟩ => rfl

/-- Summing over the first axis of a [128,1,1] array. -/
theorem red0_apply (v : FVec Ideal S128x1x1 .f32) (h : S128x1x1.Reduces [0] S1x1) (hφ : FKind.Formats .f32)
    (hacc : (0x00000000#32 : BitVec 32) = FKind.add.neutral .f32 hφ) (u w : Fin 1) :
    multiReduction .add [0] S1x1 v 0x00000000#32 h hφ hacc (ix2 u w) = ∑ a : Fin 128, v (ix3 a u w) := by
  refine (Ideal.multiReduction_add_single v _ h hφ hacc (ix2 u w)).trans ?_
  refine Finset.sum_congr rfl fun k _ => congrArg v ?_
  funext c
  match c with
  | ⟨0, _⟩ => rfl
  | ⟨1, _⟩ => rfl
  | ⟨2, _⟩ => rfl

/-- [128,128] viewed [128,128,1]. -/
theorem cast_ab_ab1 (x : S128x128.Idx → α) (h : S128x128.ShapeCasts S128x128x1) (a b : Fin 128) (u : Fin 1) :
    shapeCast S128x128x1 x h (ix3 a b u) = x (ix2 a b) :=
  shapeCast_apply x h _ _ (by
    have hu : u.val = 0 := by omega
    rw [Shape.rowMajor_val_three, Shape.rowMajor_val_two]
    show a.val * 128 + b.val = (a.val * 128 + b.val) * 1 + u.val
    omega)

/-- [128,32] viewed [128,1,32]. -/
theorem cast_ak_a1k (x : S128x32.Idx → α) (h : S128x32.ShapeCasts S128x1x32) (a : Fin 128) (u : Fin 1) (k : Fin 32) :
    shapeCast S128x1x32 x h (ix3 a u k) = x (ix2 a k) :=
  shapeCast_apply x h _ _ (by
    have hu : u.val = 0 := by omega
    rw [Shape.rowMajor_val_three, Shape.rowMajor_val_two]
    show a.val * 32 + k.val = (a.val * 1 + u.val) * 32 + k.val
    omega)

/-- [128,1] viewed [128,1,1]. -/
theorem cast_a1_a11 (x : S128x1.Idx → α) (h : S128x1.ShapeCasts S128x1x1) (a : Fin 128) (u w : Fin 1) :
    shapeCast S128x1x1 x h (ix3 a u w) = x (ix2 a 0) :=
  shapeCast_apply x h _ _ (by
    have hu : u.val = 0 := by omega
    have hw : w.val = 0 := by omega
    rw [Shape.rowMajor_val_three, Shape.rowMajor_val_two]
    show a.val * 1 + (0 : Fin 1).val = (a.val * 1 + u.val) * 1 + w.val
    simp only [Fin.val_zero]
    omega)

/-- [1,1] viewed [1,1,1]. -/
theorem cast_11_111 (x : S1x1.Idx → α) (h : S1x1.ShapeCasts S1x1x1) (u v w : Fin 1) :
    shapeCast S1x1x1 x h (ix3 u v w) = x (ix2 0 0) :=
  shapeCast_apply x h _ _ (by
    have hu : u.val = 0 := by omega
    have hv : v.val = 0 := by omega
    have hw : w.val = 0 := by omega
    rw [Shape.rowMajor_val_three, Shape.rowMajor_val_two]
    show (0 : Fin 1).val * 1 + (0 : Fin 1).val = (u.val * 1 + v.val) * 1 + w.val
    simp only [Fin.val_zero]
    omega)

/-- [1,1,1] viewed [1,1]. -/
theorem cast_111_11 (x : S1x1x1.Idx → α) (h : S1x1x1.ShapeCasts S1x1) (u v : Fin 1) :
    shapeCast S1x1 x h (ix2 u v) = x (ix3 0 0 0) :=
  shapeCast_apply x h _ _ (by
    have hu : u.val = 0 := by omega
    have hv : v.val = 0 := by omega
    rw [Shape.rowMajor_val_three, Shape.rowMajor_val_two]
    show ((0 : Fin 1).val * 1 + (0 : Fin 1).val) * 1 + (0 : Fin 1).val = u.val * 1 + v.val
    simp only [Fin.val_zero]
    omega)

/-- [128,128,1] laid along 32 lanes. -/
theorem bcast_ab1 (x : S128x128x1.Idx → α) (h : S128x128x1.Broadcasts S128x128x32) (a b : Fin 128) (k : Fin 32) :
    broadcastTo S128x128x32 x h (ix3 a b k) = x (ix3 a b 0) := by
  refine broadcastTo_apply x h (ix3 a b k) (ix3 a b (0 : Fin 1)) fun ax => ?_
  match ax with
  | ⟨0, _⟩ => rfl
  | ⟨1, _⟩ => rfl
  | ⟨2, _⟩ => rfl

/-- [128,1,32] laid along 128 rows of the middle axis. -/
theorem bcast_a1k (x : S128x1x32.Idx → α) (h : S128x1x32.Broadcasts S128x128x32) (a b : Fin 128) (k : Fin 32) :
    broadcastTo S128x128x32 x h (ix3 a b k) = x (ix3 a 0 k) := by
  refine broadcastTo_apply x h (ix3 a b k) (ix3 a (0 : Fin 1) k) fun ax => ?_
  match ax with
  | ⟨0, _⟩ => rfl
  | ⟨1, _⟩ => rfl
  | ⟨2, _⟩ => rfl

/-- A column [128,1] laid along 128 columns. -/
theorem bcast_a1 (x : S128x1.Idx → α) (h : S128x1.Broadcasts S128x128) (a b : Fin 128) :
    broadcastTo S128x128 x h (ix2 a b) = x (ix2 a 0) := by
  refine broadcastTo_apply x h (ix2 a b) (ix2 a (0 : Fin 1)) fun ax => ?_
  match ax with
  | ⟨0, _⟩ => rfl
  | ⟨1, _⟩ => rfl

/-- A row [1,128] laid along 128 rows. -/
theorem bcast_1b (x : S1x128.Idx → α) (h : S1x128.Broadcasts S128x128) (a b : Fin 128) :
    broadcastTo S128x128 x h (ix2 a b) = x (ix2 0 b) :=
  broadcastTo_1b_ab_apply x h a b

/-- 32 lanes cut from the 128 columns at offset `o`. -/
theorem slice_cols (o : Nat) (x : S128x128.Idx → α) (h : S128x128.Slices ![0, o] S128x32) (a : Fin 128) (k : Fin 32)
    (ho : o + k.val < 128) :
    extractStridedSlice S128x32 ![0, o] x h (ix2 a k) = x (ix2 a ⟨o + k.val, ho⟩) :=
  slice2_axis1_apply o x h a k _ rfl

/-- The three sums in a row: the last axis, then the middle one, then the first, of a [128,128,32] array. -/
theorem total_apply (v : FVec Ideal S128x128x32 .f32)
    (h2 : S128x128x32.Reduces [2] S128x128) (c1 : S128x128.ShapeCasts S128x128x1)
    (h1 : S128x128x1.Reduces [1] S128x1) (c2 : S128x1.ShapeCasts S128x1x1)
    (h0 : S128x1x1.Reduces [0] S1x1) (c3 : S1x1.ShapeCasts S1x1x1) (hφ : FKind.Formats .f32)
    (hacc : (0x00000000#32 : BitVec 32) = FKind.add.neutral .f32 hφ) (u v' w : Fin 1) :
    shapeCast S1x1x1
        (multiReduction .add [0] S1x1
          (shapeCast S128x1x1
            (multiReduction .add [1] S128x1
              (shapeCast S128x128x1 (multiReduction .add [2] S128x128 v 0x00000000#32 h2 hφ hacc) c1)
              0x00000000#32 h1 hφ hacc) c2)
          0x00000000#32 h0 hφ hacc) c3 (ix3 u v' w)
      = ∑ a : Fin 128, ∑ b : Fin 128, ∑ k : Fin 32, v (ix3 a b k) := by
  refine (cast_11_111 _ c3 u v' w).trans ?_
  refine (red0_apply _ h0 hφ hacc 0 0).trans ?_
  refine Finset.sum_congr rfl fun a _ => ?_
  refine (cast_a1_a11 _ c2 a 0 0).trans ?_
  refine (red1_apply _ h1 hφ hacc a 0).trans ?_
  refine Finset.sum_congr rfl fun b _ => ?_
  refine (cast_ab_ab1 _ c1 a b 0).trans ?_
  exact red2_apply v h2 hφ hacc a b

/-- A 0/1 mask word: a one-bit condition widened to 32 bits and read as a signed integer. -/
theorem mask_word (c : BitVec 1) :
    FloatOps.sitofp (F := Ideal) .f32 (c.setWidth 32) = if c = 1#1 then (1 : EReal) else 0 := by
  rcases BitVec.eq_zero_or_eq_one c with h | h <;> subst h
  · show (((BitVec.setWidth 32 0#1).toInt : ℝ) : EReal) = _
    simp
  · show (((BitVec.setWidth 32 1#1).toInt : ℝ) : EReal) = _
    simp

theorem cmpi_eq_one (x y : BitVec 32) : IntOp.cmpi .eq x y = 1#1 ↔ x = y := by
  unfold IntOp.cmpi
  by_cases h : x = y
  · simp [h]
  · have hb : (x == y) = false := by simpa using h
    simp [hb, h]

theorem cmpi_ne_one (x y : BitVec 32) : IntOp.cmpi .ne x y = 1#1 ↔ x ≠ y := by
  unfold IntOp.cmpi
  by_cases h : x = y
  · simp [h]
  · have hb : (x != y) = true := by simpa using h
    simp [hb, h]

/-- A sum over 128 lanes is the sum of its four chunks of 32. -/
theorem sum_chunks {M : Type*} [AddCommMonoid M] (g : Fin 128 → M) :
    ∑ k : Fin 128, g k
      = ∑ k : Fin 32, g ⟨0 + k.val, by omega⟩ + ∑ k : Fin 32, g ⟨32 + k.val, by omega⟩
        + ∑ k : Fin 32, g ⟨64 + k.val, by omega⟩ + ∑ k : Fin 32, g ⟨96 + k.val, by omega⟩ := by
  have e : ∀ (n m : Nat) (f : Fin (n + m) → M),
      ∑ k : Fin (n + m), f k = ∑ k : Fin n, f (Fin.castAdd m k) + ∑ k : Fin m, f (Fin.natAdd n k) :=
    fun n m f => Fin.sum_univ_add f
  rw [e 96 32 g, e 64 32, e 32 32]
  refine congrArg₂ (· + ·) (congrArg₂ (· + ·) (congrArg₂ (· + ·) ?_ ?_) ?_) ?_ <;>
    exact Finset.sum_congr rfl fun k _ => congrArg g (Fin.ext (by simp [Fin.natAdd, Fin.castAdd]))

end Cert.KernelIdeal.StepValue

end
-- ==== Proof.StepValueB.lean ====
/-
  The payloads of one grid point read at an index: the two 0/1 masks, the products and hinges of the four chunks of 32
  lanes, and each running total as the total before it plus the chunk's triple sum.
-/
import proofs.«146449_j82489141887188_2_alg».proof.Proof.StepValueA
import proofs.«146449_j82489141887188_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.StepValue

open Idealize.ShloMosaic Idealize.ShloMosaic.ValueIdx Cert.KernelIdeal

open Cert.KernelIdeal.Gen

/-- The positives' mask: 1 where the anchor's label is the positive's. -/
theorem pay7_apply (x5 : Vec Ideal S128x1 .i32) (x6 : Vec Ideal S1x128 .i32) (a b : Fin 128) :
    k1_pay7 (F := Ideal) x5 x6 (ix2 a b) = if x5 (ix2 a 0) = x6 (ix2 0 b) then (1 : EReal) else 0 := by
  refine (mask_word _).trans ?_
  refine if_congr ?_ rfl rfl
  refine (cmpi_eq_one _ _).trans ?_
  have e1 : broadcastTo S128x128 (k1_pay6 (F := Ideal) x5) broadcasts_S128x1_S128x128 (ix2 a b) = x5 (ix2 a 0) :=
    (bcast_a1 _ _ a b).trans (congrFun (shapeCast_self x5 _) _)
  have e2 : broadcastTo S128x128 (shapeCast S1x128 x6 shapeCasts_S1x128_S1x128) broadcasts_S1x128_S128x128 (ix2 a b)
      = x6 (ix2 0 b) :=
    (bcast_1b _ _ a b).trans (congrFun (shapeCast_self x6 _) _)
  exact (Eq.congr e1 e2)

/-- The negatives' mask: 1 where the anchor's label is not the negative's. -/
theorem pay8_apply (x5 : Vec Ideal S128x1 .i32) (x7 : Vec Ideal S1x128 .i32) (a k : Fin 128) :
    k1_pay8 (F := Ideal) x5 x7 (ix2 a k) = if x5 (ix2 a 0) ≠ x7 (ix2 0 k) then (1 : EReal) else 0 := by
  refine (mask_word _).trans ?_
  refine if_congr ?_ rfl rfl
  refine (cmpi_ne_one _ _).trans ?_
  have e1 : broadcastTo S128x128 (k1_pay6 (F := Ideal) x5) broadcasts_S128x1_S128x128 (ix2 a k) = x5 (ix2 a 0) :=
    (bcast_a1 _ _ a k).trans (congrFun (shapeCast_self x5 _) _)
  have e2 : broadcastTo S128x128 (shapeCast S1x128 x7 shapeCasts_S1x128_S1x128) broadcasts_S1x128_S128x128 (ix2 a k)
      = x7 (ix2 0 k) :=
    (bcast_1b _ _ a k).trans (congrFun (shapeCast_self x7 _) _)
  exact not_congr (Eq.congr e1 e2)

/-- The product of a [128,128] block and a [128,32] block, each laid along the other's missing axis. -/
theorem prod_apply (m : FVec Ideal S128x128 .f32) (w : FVec Ideal S128x32 .f32)
    (c1 : S128x128.ShapeCasts S128x128x1) (c2 : S128x32.ShapeCasts S128x1x32)
    (hb1 : S128x128x1.Broadcasts S128x128x32) (hb2 : S128x1x32.Broadcasts S128x128x32) (a b : Fin 128) (k : Fin 32) :
    mulf (broadcastTo S128x128x32 (shapeCast S128x128x1 m c1) hb1) (broadcastTo S128x128x32 (shapeCast S128x1x32 w c2) hb2)
        (ix3 a b k) = m (ix2 a b) * w (ix2 a k) :=
  congrArg₂ (· * ·) ((bcast_ab1 _ hb1 a b k).trans (cast_ab_ab1 m c1 a b 0))
    ((bcast_a1k _ hb2 a b k).trans (cast_ak_a1k w c2 a 0 k))

/-- The difference of the two blocks laid the same way, plus the margin. -/
theorem diff_apply (p : FVec Ideal S128x128 .f32) (w : FVec Ideal S128x32 .f32)
    (c1 : S128x128.ShapeCasts S128x128x1) (c2 : S128x32.ShapeCasts S128x1x32)
    (hb1 : S128x128x1.Broadcasts S128x128x32) (hb2 : S128x1x32.Broadcasts S128x128x32) (a b : Fin 128) (k : Fin 32) :
    addf (subf (broadcastTo S128x128x32 (shapeCast S128x128x1 p c1) hb1)
          (broadcastTo S128x128x32 (shapeCast S128x1x32 w c2) hb2))
        (broadcast S128x128x32 (Scalar.ofBits (F := Ideal) .f32 0x3E99999A#32)) (ix3 a b k)
      = (p (ix2 a b) - w (ix2 a k)) + Cert.Trip.margin :=
  congrArg (· + Cert.Trip.margin)
    (congrArg₂ (· - ·) ((bcast_ab1 _ hb1 a b k).trans (cast_ab_ab1 p c1 a b 0))
      ((bcast_a1k _ hb2 a b k).trans (cast_ak_a1k w c2 a 0 k)))

/-- The zero word is the extended real 0. -/
theorem zero_word : Scalar.ofBits (F := Ideal) .f32 0x00000000#32 = (0 : EReal) := Ideal.ofBits_zero_f32

theorem pay13_apply (v24 : FVec Ideal S128x128 .f32) (v30 : FVec Ideal S128x32 .f32) (a b : Fin 128) (k : Fin 32) :
    k1_pay13 v24 v30 (ix3 a b k) = v24 (ix2 a b) * v30 (ix2 a k) :=
  prod_apply v24 v30 _ _ _ _ a b k

theorem pay15_apply (v24 v26 : FVec Ideal S128x128 .f32) (a b : Fin 128) (k : Fin 32) :
    k1_pay15 v24 v26 (ix3 a b k) = v24 (ix2 a b) * v26 (ix2 a ⟨32 + k.val, by omega⟩) :=
  (prod_apply v24 _ _ _ _ _ a b k).trans (congrArg (v24 (ix2 a b) * ·) (slice_cols 32 v26 _ a k _))

theorem pay18_apply (v24 v26 : FVec Ideal S128x128 .f32) (a b : Fin 128) (k : Fin 32) :
    k1_pay18 v24 v26 (ix3 a b k) = v24 (ix2 a b) * v26 (ix2 a ⟨64 + k.val, by omega⟩) :=
  (prod_apply v24 _ _ _ _ _ a b k).trans (congrArg (v24 (ix2 a b) * ·) (slice_cols 64 v26 _ a k _))

theorem pay24_apply (v24 v26 : FVec Ideal S128x128 .f32) (a b : Fin 128) (k : Fin 32) :
    k1_pay24 (k1_pay21 v26) (k1_pay23 v24) (ix3 a b k) = v24 (ix2 a b) * v26 (ix2 a ⟨96 + k.val, by omega⟩) :=
  (prod_apply v24 _ _ _ _ _ a b k).trans (congrArg (v24 (ix2 a b) * ·) (slice_cols 96 v26 slices_S128x128_o0_96_S128x32 a k _))

theorem pay11_apply (x5 : Vec Ideal S128x1 .i32) (x7 : Vec Ideal S1x128 .i32) (a : Fin 128) (k : Fin 32) :
    k1_pay11 (F := Ideal) x5 x7 (ix2 a k) = k1_pay8 (F := Ideal) x5 x7 (ix2 a ⟨0 + k.val, by omega⟩) :=
  slice_cols 0 (k1_pay8 (F := Ideal) x5 x7) slices_S128x128_o0_0_S128x32 a k _

/-- The printed chain of three sums, at the index of the [1,1,1] result. -/
theorem total_gen (v : FVec Ideal S128x128x32 .f32) (u v' w : Fin 1) :
    shapeCast S1x1x1
        (multiReduction .add [0] S1x1
          (shapeCast S128x1x1
            (multiReduction .add [1] S128x1
              (shapeCast S128x128x1
                (multiReduction .add [2] S128x128 v 0x00000000#32 reduces_S128x128x32_S128x128 (.inl rfl) rfl)
                shapeCasts_S128x128_S128x128x1)
              0x00000000#32 reduces_S128x128x1_S128x1 (.inl rfl) rfl) shapeCasts_S128x1_S128x1x1)
          0x00000000#32 reduces_S128x1x1_S1x1 (.inl rfl) rfl) shapeCasts_S1x1_S1x1x1 (ix3 u v' w)
      = ∑ a : Fin 128, ∑ b : Fin 128, ∑ k : Fin 32, v (ix3 a b k) :=
  total_apply v _ _ _ _ _ _ _ _ u v' w

/-- The hinge of a chunk: the difference plus the margin, cut at zero. -/
theorem hinge_apply (o : Nat) (p q : FVec Ideal S128x128 .f32) (hs : S128x128.Slices ![0, o] S128x32)
    (c1 : S128x128.ShapeCasts S128x128x1) (c2 : S128x32.ShapeCasts S128x1x32)
    (hb1 : S128x128x1.Broadcasts S128x128x32) (hb2 : S128x1x32.Broadcasts S128x128x32) (a b : Fin 128) (k : Fin 32)
    (ho : o + k.val < 128) :
    maximumf
        (addf (subf (broadcastTo S128x128x32 (shapeCast S128x128x1 p c1) hb1)
            (broadcastTo S128x128x32 (shapeCast S128x1x32 (extractStridedSlice S128x32 ![0, o] q hs) c2) hb2))
          (broadcast S128x128x32 (Scalar.ofBits (F := Ideal) .f32 0x3E99999A#32)))
        (broadcast S128x128x32 (Scalar.ofBits (F := Ideal) .f32 0x00000000#32)) (ix3 a b k)
      = max ((p (ix2 a b) - q (ix2 a ⟨o + k.val, ho⟩)) + Cert.Trip.margin) 0 :=
  congrArg₂ max
    ((diff_apply p _ c1 c2 hb1 hb2 a b k).trans
      (congrArg (fun t => (p (ix2 a b) - t) + Cert.Trip.margin) (slice_cols o q hs a k ho)))
    zero_word

theorem pay12_apply (x3 x4 : Vec Ideal S128x128 .f32) (a b : Fin 128) (k : Fin 32) :
    k1_pay12 (F := Ideal) x3 x4 (ix3 a b k)
      = (x3 (ix2 a b) - x4 (ix2 a ⟨0 + k.val, by omega⟩)) + Cert.Trip.margin := by
  refine (diff_apply (k1_pay4 (F := Ideal) x3) _ _ _ _ _ a b k).trans ?_
  refine congrArg (· + Cert.Trip.margin) (congrArg₂ (· - ·) (congrFun (shapeCast_self x3 _) _) ?_)
  refine (slice_cols 0 (k1_pay5 (F := Ideal) x4) slices_S128x128_o0_0_S128x32 a k (by omega)).trans ?_
  exact congrFun (shapeCast_self x4 _) _

theorem pay22_apply (v8 v10 : FVec Ideal S128x128 .f32) (a b : Fin 128) (k : Fin 32) :
    k1_pay22 v8 v10 (ix3 a b k) = max ((v8 (ix2 a b) - v10 (ix2 a ⟨96 + k.val, by omega⟩)) + Cert.Trip.margin) 0 :=
  hinge_apply 96 v8 v10 _ _ _ _ _ a b k _

theorem pay4_eq (x3 : Vec Ideal S128x128 .f32) : k1_pay4 (F := Ideal) x3 = x3 := shapeCast_self x3 _
theorem pay5_eq (x4 : Vec Ideal S128x128 .f32) : k1_pay5 (F := Ideal) x4 = x4 := shapeCast_self x4 _

/-- The running count after the first chunk. -/
theorem pay14_apply (v24 : FVec Ideal S128x128 .f32) (v28 : FVec Ideal S1x1x1 .f32) (v30 : FVec Ideal S128x32 .f32) :
    k1_pay14 v24 v28 v30 (ix3 0 0 0)
      = v28 (ix3 0 0 0) + ∑ a : Fin 128, ∑ b : Fin 128, ∑ k : Fin 32, k1_pay13 v24 v30 (ix3 a b k) := by
  show v28 (ix3 0 0 0) + _ = _
  exact congrArg (v28 (ix3 0 0 0) + ·) (total_gen _ 0 0 0)

/-- The running count after the second and third chunks. -/
theorem pay20_apply (v24 v26 : FVec Ideal S128x128 .f32) (v59 : FVec Ideal S1x1x1 .f32) :
    k1_pay20 v24 v26 v59 (k1_pay17 v24 v26) (ix3 0 0 0)
      = (v59 (ix3 0 0 0) + ∑ a : Fin 128, ∑ b : Fin 128, ∑ k : Fin 32, k1_pay15 v24 v26 (ix3 a b k))
        + ∑ a : Fin 128, ∑ b : Fin 128, ∑ k : Fin 32, k1_pay18 v24 v26 (ix3 a b k) := by
  show (v59 (ix3 0 0 0) + _) + _ = _
  exact congrArg₂ (· + ·) (congrArg (v59 (ix3 0 0 0) + ·) (total_gen _ 0 0 0)) (total_gen _ 0 0 0)

/-- A [1,1] block viewed under its own shape. -/
theorem cast_11_self (v : FVec Ideal S1x1 .f32) (u w : Fin 1) :
    shapeCast S1x1 v shapeCasts_S1x1_S1x1 (ix2 u w) = v (ix2 u w) := congrFun (shapeCast_self v _) _

/-- The count stored: the total before plus the running count plus the fourth chunk's. -/
theorem pay26_apply (v121 : FVec Ideal S1x1x1 .f32) (v123 : FVec Ideal S128x32 .f32) (v133 : FVec Ideal S128x128x1 .f32)
    (s : Vec Ideal S1x1 .f32) :
    k1_pay26 (F := Ideal) v121 v123 v133 s (ix2 0 0)
      = s (ix2 0 0) + (v121 (ix3 0 0 0) + ∑ a : Fin 128, ∑ b : Fin 128, ∑ k : Fin 32, k1_pay24 v123 v133 (ix3 a b k)) := by
  unfold k1_pay26
  refine (cast_11_self _ 0 0).trans ?_
  show s (ix2 0 0) + _ = _
  refine congrArg (s (ix2 0 0) + ·) ((cast_111_11 _ shapeCasts_S1x1x1_S1x1 0 0).trans ?_)
  show v121 (ix3 0 0 0) + _ = _
  exact congrArg (v121 (ix3 0 0 0) + ·) (total_gen _ 0 0 0)

/-- The running total of hinges after the first two chunks. -/
theorem pay16_apply (v8 v10 v24 v26 : FVec Ideal S128x128 .f32) (v27 : FVec Ideal S1x1x1 .f32)
    (v30 : FVec Ideal S128x32 .f32) (v37 : FVec Ideal S128x128x32 .f32) :
    k1_pay16 v8 v10 v24 v26 v27 v30 v37 (Scalar.ofBits (F := Ideal) .f32 0x00000000#32) (ix3 0 0 0)
      = (v27 (ix3 0 0 0)
          + ∑ a : Fin 128, ∑ b : Fin 128, ∑ k : Fin 32, max (v37 (ix3 a b k)) 0 * k1_pay13 v24 v30 (ix3 a b k))
        + ∑ a : Fin 128, ∑ b : Fin 128, ∑ k : Fin 32,
            max ((v8 (ix2 a b) - v10 (ix2 a ⟨32 + k.val, by omega⟩)) + Cert.Trip.margin) 0
              * k1_pay15 v24 v26 (ix3 a b k) := by
  show (v27 (ix3 0 0 0) + _) + _ = _
  refine congrArg₂ (· + ·) (congrArg (v27 (ix3 0 0 0) + ·) ((total_gen _ 0 0 0).trans ?_)) ((total_gen _ 0 0 0).trans ?_)
  · refine Finset.sum_congr rfl fun a _ => Finset.sum_congr rfl fun b _ => Finset.sum_congr rfl fun k _ => ?_
    exact congrArg (· * k1_pay13 v24 v30 (ix3 a b k)) (congrArg (max (v37 (ix3 a b k))) zero_word)
  · refine Finset.sum_congr rfl fun a _ => Finset.sum_congr rfl fun b _ => Finset.sum_congr rfl fun k _ => ?_
    exact congrArg (· * k1_pay15 v24 v26 (ix3 a b k)) (hinge_apply 32 v8 v10 _ _ _ _ _ a b k _)

/-- The running total of hinges after the third chunk. -/
theorem pay19_apply (v8 v10 v24 v26 : FVec Ideal S128x128 .f32) (v83 : FVec Ideal S1x1x1 .f32) :
    k1_pay19 v8 v10 v24 v26 v83 (ix3 0 0 0)
      = v83 (ix3 0 0 0)
        + ∑ a : Fin 128, ∑ b : Fin 128, ∑ k : Fin 32,
            max ((v8 (ix2 a b) - v10 (ix2 a ⟨64 + k.val, by omega⟩)) + Cert.Trip.margin) 0
              * k1_pay18 v24 v26 (ix3 a b k) := by
  show v83 (ix3 0 0 0) + _ = _
  refine congrArg (v83 (ix3 0 0 0) + ·) ((total_gen _ 0 0 0).trans ?_)
  refine Finset.sum_congr rfl fun a _ => Finset.sum_congr rfl fun b _ => Finset.sum_congr rfl fun k _ => ?_
  exact congrArg (· * k1_pay18 v24 v26 (ix3 a b k)) (hinge_apply 64 v8 v10 _ _ _ _ _ a b k _)

/-- The total of hinges stored: the total before plus the running total plus the fourth chunk's. -/
theorem pay25_apply (v114 : FVec Ideal S1x1x1 .f32) (v123 : FVec Ideal S128x32 .f32) (v132 : FVec Ideal S128x128x32 .f32)
    (v133 : FVec Ideal S128x128x1 .f32) (s : Vec Ideal S1x1 .f32) :
    k1_pay25 (F := Ideal) v114 v123 v132 v133 s (ix2 0 0)
      = s (ix2 0 0) + (v114 (ix3 0 0 0)
          + ∑ a : Fin 128, ∑ b : Fin 128, ∑ k : Fin 32, v132 (ix3 a b k) * k1_pay24 v123 v133 (ix3 a b k)) := by
  unfold k1_pay25
  refine (cast_11_self _ 0 0).trans ?_
  show s (ix2 0 0) + _ = _
  refine congrArg (s (ix2 0 0) + ·) ((cast_111_11 _ shapeCasts_S1x1x1_S1x1 0 0).trans ?_)
  show v114 (ix3 0 0 0) + _ = _
  exact congrArg (v114 (ix3 0 0 0) + ·) (total_gen _ 0 0 0)

end Cert.KernelIdeal.StepValue

end
-- ==== Proof.StepValue.lean ====
/-
  One grid point of the triplet kernel as a value: the total of hinges and the total of valid triples after a point are the
  totals before it plus the block's triple sums over anchors, positives and negatives; the quotient stored at the last point
  and the zeros stored at the first.
-/
import proofs.«146449_j82489141887188_2_alg».proof.Proof.StepValueB
import proofs.«146449_j82489141887188_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.StepValue

open Idealize.ShloMosaic Idealize.ShloMosaic.ValueIdx Cert.KernelIdeal

open Cert.KernelIdeal.Gen

/-- Four chunk totals added to zero make the whole triple sum. -/
theorem assemble (f : Fin 128 → Fin 128 → Fin 128 → EReal) :
    (((0 + ∑ a : Fin 128, ∑ b : Fin 128, ∑ k : Fin 32, f a b ⟨0 + k.val, by omega⟩)
        + ∑ a : Fin 128, ∑ b : Fin 128, ∑ k : Fin 32, f a b ⟨32 + k.val, by omega⟩)
        + ∑ a : Fin 128, ∑ b : Fin 128, ∑ k : Fin 32, f a b ⟨64 + k.val, by omega⟩)
        + ∑ a : Fin 128, ∑ b : Fin 128, ∑ k : Fin 32, f a b ⟨96 + k.val, by omega⟩
      = ∑ a : Fin 128, ∑ b : Fin 128, ∑ k : Fin 128, f a b k := by
  rw [zero_add]
  have h : ∀ a b, ∑ k : Fin 128, f a b k
      = ∑ k : Fin 32, f a b ⟨0 + k.val, by omega⟩ + ∑ k : Fin 32, f a b ⟨32 + k.val, by omega⟩
        + ∑ k : Fin 32, f a b ⟨64 + k.val, by omega⟩ + ∑ k : Fin 32, f a b ⟨96 + k.val, by omega⟩ :=
    fun a b => sum_chunks (f a b)
  simp only [h, Finset.sum_add_distrib]

/-- The product of the two masks is the mask of the conjunction. -/
theorem masks_mul (x5 : Vec Ideal S128x1 .i32) (x6 x7 : Vec Ideal S1x128 .i32) (a b k : Fin 128) :
    k1_pay7 (F := Ideal) x5 x6 (ix2 a b) * k1_pay8 (F := Ideal) x5 x7 (ix2 a k)
      = if x5 (ix2 a 0) = x6 (ix2 0 b) ∧ x5 (ix2 a 0) ≠ x7 (ix2 0 k) then (1 : EReal) else 0 := by
  rw [pay7_apply, pay8_apply]
  by_cases h1 : x5 (ix2 a 0) = x6 (ix2 0 b) <;> by_cases h2 : x5 (ix2 a 0) = x7 (ix2 0 k) <;> simp [h1, h2]

theorem pay10_apply : k1_pay10 (F := Ideal) (ix3 0 0 0) = (0 : EReal) := zero_word
theorem pay9_apply : k1_pay9 (F := Ideal) (ix3 0 0 0) = (0 : EReal) := zero_word

theorem cntStep_apply (x5 : Vec Ideal S128x1 .i32) (x6 x7 : Vec Ideal S1x128 .i32) (s : Vec Ideal S1x1 .f32) :
    Cert.KernelIdeal.Step.cntStep x5 x6 x7 s (ix2 (0 : Fin 1) (0 : Fin 1))
      = s (ix2 (0 : Fin 1) (0 : Fin 1)) + ∑ a : Fin 128, ∑ b : Fin 128, ∑ k : Fin 128,
          (if x5 (ix2 a 0) = x6 (ix2 0 b) ∧ x5 (ix2 a 0) ≠ x7 (ix2 0 k) then (1 : EReal) else 0) := by
  unfold Cert.KernelIdeal.Step.cntStep
  rw [pay26_apply, pay20_apply, pay14_apply, pay10_apply]
  refine congrArg (s (ix2 0 0) + ·) ?_
  simp only [pay13_apply, pay15_apply, pay18_apply, pay24_apply, pay11_apply]
  refine (assemble fun a b k => k1_pay7 (F := Ideal) x5 x6 (ix2 a b) * k1_pay8 (F := Ideal) x5 x7 (ix2 a k)).trans ?_
  exact Finset.sum_congr rfl fun a _ => Finset.sum_congr rfl fun b _ => Finset.sum_congr rfl fun k _ =>
    masks_mul x5 x6 x7 a b k

/-- A hinge times the two masks is the hinge where both hold and zero elsewhere. -/
theorem hinge_masks (h : EReal) (x5 : Vec Ideal S128x1 .i32) (x6 x7 : Vec Ideal S1x128 .i32) (a b k : Fin 128) :
    h * (k1_pay7 (F := Ideal) x5 x6 (ix2 a b) * k1_pay8 (F := Ideal) x5 x7 (ix2 a k))
      = if x5 (ix2 a 0) = x6 (ix2 0 b) ∧ x5 (ix2 a 0) ≠ x7 (ix2 0 k) then h else 0 := by
  rw [masks_mul]
  split
  · exact mul_one h
  · exact mul_zero h

theorem lossStep_apply (x3 x4 : Vec Ideal S128x128 .f32) (x5 : Vec Ideal S128x1 .i32) (x6 x7 : Vec Ideal S1x128 .i32)
    (s : Vec Ideal S1x1 .f32) :
    Cert.KernelIdeal.Step.lossStep x3 x4 x5 x6 x7 s (ix2 (0 : Fin 1) (0 : Fin 1))
      = s (ix2 (0 : Fin 1) (0 : Fin 1)) + ∑ a : Fin 128, ∑ b : Fin 128, ∑ k : Fin 128,
          (if x5 (ix2 a 0) = x6 (ix2 0 b) ∧ x5 (ix2 a 0) ≠ x7 (ix2 0 k) then
            max ((x3 (ix2 a b) - x4 (ix2 a k)) + Cert.Trip.margin) 0 else 0) := by
  unfold Cert.KernelIdeal.Step.lossStep
  rw [pay25_apply, pay19_apply, pay16_apply, pay9_apply, pay4_eq, pay5_eq]
  refine congrArg (s (ix2 0 0) + ·) ?_
  simp only [pay13_apply, pay15_apply, pay18_apply, pay24_apply, pay11_apply, pay12_apply, pay22_apply]
  refine (assemble fun a b k => max ((x3 (ix2 a b) - x4 (ix2 a k)) + Cert.Trip.margin) 0
    * (k1_pay7 (F := Ideal) x5 x6 (ix2 a b) * k1_pay8 (F := Ideal) x5 x7 (ix2 a k))).trans ?_
  exact Finset.sum_congr rfl fun a _ => Finset.sum_congr rfl fun b _ => Finset.sum_congr rfl fun k _ =>
    hinge_masks _ x5 x6 x7 a b k

theorem quot_apply (l c : Vec Ideal S1x1 .f32) :
    Cert.KernelIdeal.Step.quot l c (ix2 (0 : Fin 1) (0 : Fin 1))
      = Ideal.div (l (ix2 (0 : Fin 1) (0 : Fin 1))) (c (ix2 (0 : Fin 1) (0 : Fin 1))) := rfl

theorem zeroLoss_apply : Cert.KernelIdeal.Step.zeroLoss (F := Ideal) (ix2 (0 : Fin 1) (0 : Fin 1)) = (0 : EReal) := by
  unfold Cert.KernelIdeal.Step.zeroLoss k1_pay2
  exact (cast_11_self _ 0 0).trans zero_word

theorem zeroCnt_apply : Cert.KernelIdeal.Step.zeroCnt (F := Ideal) (ix2 (0 : Fin 1) (0 : Fin 1)) = (0 : EReal) := by
  unfold Cert.KernelIdeal.Step.zeroCnt k1_pay3
  exact (cast_11_self _ 0 0).trans zero_word

end Cert.KernelIdeal.StepValue

end
-- ==== Proof.Tiles.lean ====
/-
  Regrouping sums over tiles.

  A row index below 512 is a block index below 4 and an offset below 128. A grid of 4 × 4 × 4 tiles of
  128 × 128 × 128 cells, the tile number read in base 4, covers the 512 × 512 × 512 cube exactly once, so a sum
  over the tiles of the sums over each tile's cells is the sum over the cube. A sequence of running totals that
  starts at zero and adds one term per step is the finite sum of the terms.
-/
import Mathlib.Algebra.BigOperators.Fin
import Mathlib.Tactic

namespace Cert.Trip

/-- Row `128 * i + a`: offset `a` in block `i`. -/
def row (i : Fin 4) (a : Fin 128) : Fin 512 := ⟨128 * i.val + a.val, by omega⟩

/-- Block and offset of a row. -/
def rowEquiv : Fin 4 × Fin 128 ≃ Fin 512 where
  toFun x := row x.1 x.2
  invFun p := (⟨p.val / 128, by omega⟩, ⟨p.val % 128, by omega⟩)
  left_inv := by
    rintro ⟨i, a⟩
    ext <;> simp only [row] <;> omega
  right_inv := by
    intro p
    ext
    simp only [row]
    omega

/-- The three base-4 digits of a tile number. -/
def tileEquiv : Fin 4 × Fin 4 × Fin 4 ≃ Fin 64 where
  toFun x := ⟨16 * x.1.val + 4 * x.2.1.val + x.2.2.val, by omega⟩
  invFun t := (⟨t.val / 16, by omega⟩, ⟨t.val / 4 % 4, by omega⟩, ⟨t.val % 4, by omega⟩)
  left_inv := by
    rintro ⟨i, j, l⟩
    ext <;> simp only <;> omega
  right_inv := by
    intro t
    ext
    simp only
    omega

/-- A sum over the 512 rows is a sum over blocks of sums over offsets. -/
theorem sum_row {M : Type*} [AddCommMonoid M] (g : Fin 512 → M) :
    ∑ p : Fin 512, g p = ∑ i : Fin 4, ∑ a : Fin 128, g (row i a) := by
  rw [← Equiv.sum_comp rowEquiv g, Fintype.sum_prod_type]
  rfl

/-- A sum over the 64 tiles is a sum over their three digits. -/
theorem sum_tile {M : Type*} [AddCommMonoid M] (F : Fin 4 → Fin 4 → Fin 4 → M) :
    ∑ t : Fin 64, F ⟨t.val / 16, by omega⟩ ⟨t.val / 4 % 4, by omega⟩ ⟨t.val % 4, by omega⟩
      = ∑ i : Fin 4, ∑ j : Fin 4, ∑ l : Fin 4, F i j l := by
  have h := Equiv.sum_comp tileEquiv.symm (fun x : Fin 4 × Fin 4 × Fin 4 => F x.1 x.2.1 x.2.2)
  rw [Fintype.sum_prod_type] at h
  simp only [Fintype.sum_prod_type] at h
  exact h

/-- Tiles then cells, against rows: the same cells, each once. -/
theorem sum_tiles {M : Type*} [AddCommMonoid M] (f : Fin 512 → Fin 512 → Fin 512 → M) :
    ∑ t : Fin 64, ∑ a : Fin 128, ∑ b : Fin 128, ∑ k : Fin 128,
      f (row ⟨t.val / 16, by omega⟩ a) (row ⟨t.val / 4 % 4, by omega⟩ b) (row ⟨t.val % 4, by omega⟩ k)
    = ∑ p : Fin 512, ∑ q : Fin 512, ∑ r : Fin 512, f p q r := by
  rw [sum_tile (fun i j l => ∑ a : Fin 128, ∑ b : Fin 128, ∑ k : Fin 128, f (row i a) (row j b) (row l k))]
  rw [sum_row (fun p => ∑ q : Fin 512, ∑ r : Fin 512, f p q r)]
  refine Finset.sum_congr rfl fun i _ => ?_
  calc ∑ j : Fin 4, ∑ l : Fin 4, ∑ a : Fin 128, ∑ b : Fin 128, ∑ k : Fin 128, f (row i a) (row j b) (row l k)
      = ∑ j : Fin 4, ∑ a : Fin 128, ∑ l : Fin 4, ∑ b : Fin 128, ∑ k : Fin 128, f (row i a) (row j b) (row l k) :=
        Finset.sum_congr rfl fun j _ => Finset.sum_comm
    _ = ∑ a : Fin 128, ∑ j : Fin 4, ∑ l : Fin 4, ∑ b : Fin 128, ∑ k : Fin 128, f (row i a) (row j b) (row l k) :=
        Finset.sum_comm
    _ = ∑ a : Fin 128, ∑ j : Fin 4, ∑ b : Fin 128, ∑ l : Fin 4, ∑ k : Fin 128, f (row i a) (row j b) (row l k) :=
        Finset.sum_congr rfl fun a _ => Finset.sum_congr rfl fun j _ => Finset.sum_comm
    _ = ∑ a : Fin 128, ∑ q : Fin 512, ∑ r : Fin 512, f (row i a) q r := by
        refine Finset.sum_congr rfl fun a _ => ?_
        rw [sum_row (fun q => ∑ r : Fin 512, f (row i a) q r)]
        refine Finset.sum_congr rfl fun j _ => Finset.sum_congr rfl fun b _ => ?_
        rw [sum_row (fun r => f (row i a) (row j b) r)]

/-- Running totals from zero, one term per step, are the finite sums of the terms. -/
theorem run_total {M : Type*} [AddCommMonoid M] (T L : ℕ → M) (h0 : L 0 = 0)
    (hs : ∀ n, L (n + 1) = L n + T n) (n : ℕ) : L n = ∑ i ∈ Finset.range n, T i := by
  induction n with
  | zero => simpa using h0
  | succ n ih => rw [hs, Finset.sum_range_succ, ih]

end Cert.Trip
-- ==== Proof.Blocks.lean ====
/-
  Each block the two regions load, and each array they leave, named by coordinates.

  The second region's grid has 64 points; point `t` has the base-4 digits `(t / 16, t / 4 % 4, t % 4)`: the anchors'
  block, the positives' block, the negatives' block. Its first window loads the 128 × 128 block (anchors, positives) of
  the distance matrix, its second the block (anchors, negatives) of the same matrix, its third the anchors' 128 labels
  out of the column of labels, its fourth and fifth the positives' and the negatives' 128 labels out of the row of
  labels. An entry `(a, b)` of a block is the entry of the array at row `128 * digit + a`, column `128 * digit + b`.
  The first region has one point, whose blocks are whole arrays: its output array ends holding the distance payload of
  its input array. The second region's 1 × 1 output is written back once, at the last point, and ends holding the
  quotient of the two running totals after all 64 points.
-/
import proofs.«146449_j82489141887188_2_alg».proof.Proof.Frame0
import proofs.«146449_j82489141887188_2_alg».proof.Proof.Frame1
import proofs.«146449_j82489141887188_2_alg».proof.Proof.Tiles
import Idealize.ShloMosaic.Lib.Pipeline.Value
import Idealize.ShloMosaic.Lib.ValueIdx

noncomputable section

namespace Cert.KernelIdeal.Fr

open Idealize.ShloMosaic Idealize.ShloMosaic.TcCoe Idealize.SL.Sem
open Idealize.ShloMosaic.Pipeline (Dat)
open Cert.KernelIdeal Cert.KernelIdeal.Gen
open Idealize.ShloMosaic.ValueIdx (ix2)
open Cert.Trip (row)

variable {F : FTy → Type} [FloatOps F]
variable (V : (c : Dev nD) → (b : Ref sig .tc) → Buf (Elt F) ((c : Thread nD τ).loc b))

/-- The second region's index maps over its 64 points: the digits of the point's number. -/
theorem idx1 : ∀ t : Fin cfg1.N,
    win1_0.index t (0 : Fin 2) = t.val / 16 ∧ win1_0.index t (1 : Fin 2) = t.val / 4 % 4
    ∧ win1_1.index t (0 : Fin 2) = t.val / 16 ∧ win1_1.index t (1 : Fin 2) = t.val % 4
    ∧ win1_2.index t (0 : Fin 2) = t.val / 16 ∧ win1_2.index t (1 : Fin 2) = 0
    ∧ win1_3.index t (0 : Fin 2) = 0 ∧ win1_3.index t (1 : Fin 2) = t.val / 4 % 4
    ∧ win1_4.index t (0 : Fin 2) = 0 ∧ win1_4.index t (1 : Fin 2) = t.val % 4
    ∧ win1_5.index t (0 : Fin 2) = 0 ∧ win1_5.index t (1 : Fin 2) = 0 :=
  (by decide +kernel : ∀ t : Fin grid1.N, _)

/-- The first region's index maps at its one point: block (0, 0). -/
theorem idx0 : ∀ t : Fin cfg0.N,
    win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- A point's number is below 64, so its digits are below 4. -/
theorem lt64 (t : Fin cfg1.N) : t.val < 64 := by
  have hN : cfg1.N = 64 := N_1
  have := t.isLt
  omega

/-- The first window's block: the (anchors, positives) block of the distance matrix. -/
theorem blk1_0 (c : Dev nD) (t : Fin cfg1.N) (a b : Fin 128) :
    (iblk1 V c 0 t : Vec F S128x128 .f32) (ix2 a b)
      = (V c main_v0 : S512x512.Idx → Elt F .f32)
          (ix2 (row ⟨t.val / 16, by have := lt64 t; omega⟩ a) (row ⟨t.val / 4 % 4, by omega⟩ b)) := by
  obtain ⟨e0, e1, -⟩ := idx1 t
  unfold iblk1
  rw [View.read_apply]
  show V c main_v0 _ = V c main_v0 _
  congr 1
  funext x
  apply Fin.ext
  match x with
  | ⟨0, _⟩ => show win1_0.index t 0 * 128 + 1 * a.val = 128 * (t.val / 16) + a.val; rw [e0]; omega
  | ⟨1, _⟩ => show win1_0.index t 1 * 128 + 1 * b.val = 128 * (t.val / 4 % 4) + b.val; rw [e1]; omega

/-- The second window's block: the (anchors, negatives) block of the distance matrix. -/
theorem blk1_1 (c : Dev nD) (t : Fin cfg1.N) (a k : Fin 128) :
    (iblk1 V c 1 t : Vec F S128x128 .f32) (ix2 a k)
      = (V c main_v0 : S512x512.Idx → Elt F .f32)
          (ix2 (row ⟨t.val / 16, by have := lt64 t; omega⟩ a) (row ⟨t.val % 4, by omega⟩ k)) := by
  obtain ⟨-, -, e0, e1, -⟩ := idx1 t
  unfold iblk1
  rw [View.read_apply]
  show V c main_v0 _ = V c main_v0 _
  congr 1
  funext x
  apply Fin.ext
  match x with
  | ⟨0, _⟩ => show win1_1.index t 0 * 128 + 1 * a.val = 128 * (t.val / 16) + a.val; rw [e0]; omega
  | ⟨1, _⟩ => show win1_1.index t 1 * 128 + 1 * k.val = 128 * (t.val % 4) + k.val; rw [e1]; omega

/-- The third window's block: the anchors' labels, out of the column of labels. -/
theorem blk1_2 (c : Dev nD) (t : Fin cfg1.N) (a : Fin 128) :
    (iblk1 V c 2 t : Vec F S128x1 .i32) (ix2 a (0 : Fin 1))
      = (V c main_v1 : S512x1.Idx → Elt F .i32) (ix2 (row ⟨t.val / 16, by have := lt64 t; omega⟩ a) (0 : Fin 1)) := by
  obtain ⟨-, -, -, -, e0, e1, -⟩ := idx1 t
  unfold iblk1
  rw [View.read_apply]
  show V c main_v1 _ = V c main_v1 _
  congr 1
  funext x
  apply Fin.ext
  match x with
  | ⟨0, _⟩ => show win1_2.index t 0 * 128 + 1 * a.val = 128 * (t.val / 16) + a.val; rw [e0]; omega
  | ⟨1, _⟩ => show win1_2.index t 1 * 1 + 1 * 0 = 0; rw [e1]

/-- The fourth window's block: the positives' labels, out of the row of labels. -/
theorem blk1_3 (c : Dev nD) (t : Fin cfg1.N) (b : Fin 128) :
    (iblk1 V c 3 t : Vec F S1x128 .i32) (ix2 (0 : Fin 1) b)
      = (V c main_v2 : S1x512.Idx → Elt F .i32) (ix2 (0 : Fin 1) (row ⟨t.val / 4 % 4, by omega⟩ b)) := by
  obtain ⟨-, -, -, -, -, -, e0, e1, -⟩ := idx1 t
  unfold iblk1
  rw [View.read_apply]
  show V c main_v2 _ = V c main_v2 _
  congr 1
  funext x
  apply Fin.ext
  match x with
  | ⟨0, _⟩ => show win1_3.index t 0 * 1 + 1 * 0 = 0; rw [e0]
  | ⟨1, _⟩ => show win1_3.index t 1 * 128 + 1 * b.val = 128 * (t.val / 4 % 4) + b.val; rw [e1]; omega

/-- The fifth window's block: the negatives' labels, out of the row of labels. -/
theorem blk1_4 (c : Dev nD) (t : Fin cfg1.N) (k : Fin 128) :
    (iblk1 V c 4 t : Vec F S1x128 .i32) (ix2 (0 : Fin 1) k)
      = (V c main_v2 : S1x512.Idx → Elt F .i32) (ix2 (0 : Fin 1) (row ⟨t.val % 4, by omega⟩ k)) := by
  obtain ⟨-, -, -, -, -, -, -, -, e0, e1, -⟩ := idx1 t
  unfold iblk1
  rw [View.read_apply]
  show V c main_v2 _ = V c main_v2 _
  congr 1
  funext x
  apply Fin.ext
  match x with
  | ⟨0, _⟩ => show win1_4.index t 0 * 1 + 1 * 0 = 0; rw [e0]
  | ⟨1, _⟩ => show win1_4.index t 1 * 128 + 1 * k.val = 128 * (t.val % 4) + k.val; rw [e1]; omega

/-- The first region's input block is its whole array. -/
theorem blk0_0 (c : Dev nD) (t : Fin cfg0.N) : (iblk0 V c 0 t : Vec F S512x512 .f32) = V c main_arg0 := by
  obtain ⟨e0, e1, -⟩ := idx0 t
  funext j
  unfold iblk0
  rw [View.read_apply]
  show V c main_arg0 _ = V c main_arg0 _
  congr 1
  funext x
  apply Fin.ext
  match x with
  | ⟨0, _⟩ => show win0_0.index t 0 * 512 + 1 * (j 0).val = (j 0).val; rw [e0]; omega
  | ⟨1, _⟩ => show win0_0.index t 1 * 512 + 1 * (j 1).val = (j 1).val; rw [e1]; omega

/-- What the first region's one point writes back is the whole of the distance payload of the input array. -/
theorem flushed0_eq (c : Dev nD) (t : Fin cfg0.N) (hf : (cfg0.win 1).flush t = true) :
    (dat0 V c).flushed 1 t = ((cfg0.win 1).blk t).view.read (Elt F) (k0_pay1 (V c main_arg0)) := by
  obtain ⟨-, -, e0, e1⟩ := idx0 t
  show (cfg0.win 1).cut (grid0.coords t) ((dat0 V c).after 1 t) = _
  rw [after0_1, blk0_0]
  have hz' : (fun a => win0_1.index t a * main_v0.ty.shape.size a) = fun _ => 0 := funext fun a => by
    match a with
    | ⟨0, _⟩ => show win0_1.index t 0 * 512 = 0; rw [e0]
    | ⟨1, _⟩ => show win0_1.index t 1 * 512 = 0; rw [e1]
  exact (Memref.read_access_unit_zero (Elt F) main_v0 hz' (fun a => by rw [congrFun hz' a]; simp) (k0_pay1 (V c main_arg0))).symm

/-- So the first region's output array ends holding the distance payload of its input array. -/
theorem final0 (c : Dev nD) : (dat0 V c).arrAt 1 cfg0.N = k0_pay1 (V c main_arg0) :=
  (dat0 V c).arrAt_eq_of_cover 1 (k0_pay1 (V c main_arg0)) (flushed0_eq V c) fun i =>
    ⟨t0_0, flush0_1 t0_0, by
      obtain ⟨-, -, e0, e1⟩ := idx0 t0_0
      show i ∈ ((View.whole main_v0).slice (win0_1.rect t0_0)).set
      rw [View.set_slice_whole, Rect.mem_set_unit]
      intro a
      have h0 : (i 0 : Nat) < 512 := (i 0).isLt
      have h1 : (i 1 : Nat) < 512 := (i 1).isLt
      match a with
      | ⟨0, _⟩ =>
        show win0_1.index t0_0 0 * 512 ≤ (i 0 : Nat) ∧ (i 0 : Nat) < win0_1.index t0_0 0 * 512 + 512
        rw [e0]; omega
      | ⟨1, _⟩ =>
        show win0_1.index t0_0 1 * 512 ≤ (i 1 : Nat) ∧ (i 1 : Nat) < win0_1.index t0_0 1 * 512 + 512
        rw [e1]; omega⟩

/-- The last of the 64 points. -/
def tLast : Fin grid1.N := ⟨63, by rw [N_1]; decide⟩

/-- The second region's one write-back, at the last point, writes the quotient of the two totals after all 64 points. -/
theorem flushed1_eq (c : Dev nD) (t : Fin cfg1.N) (hf : (cfg1.win 5).flush t = true) :
    (dat1 V c).flushed 5 t = ((cfg1.win 5).blk t).view.read (Elt F) (Step.quot (acc V c 64).1 (acc V c 64).2) := by
  have h63 : t.val + 1 = 64 := by have := (flush1_5 t).mp hf; have := lt64 t; omega
  obtain ⟨-, -, -, -, -, -, -, -, -, -, e0, e1⟩ := idx1 t
  show (cfg1.win 5).cut (grid1.coords t) ((dat1 V c).after 5 t) = _
  rw [after1_5, h63]
  have hz' : (fun a => win1_5.index t a * main_v3.ty.shape.size a) = fun _ => 0 := funext fun a => by
    match a with
    | ⟨0, _⟩ => show win1_5.index t 0 * 1 = 0; rw [e0]
    | ⟨1, _⟩ => show win1_5.index t 1 * 1 = 0; rw [e1]
  exact (Memref.read_access_unit_zero (Elt F) main_v3 hz' (fun a => by rw [congrFun hz' a]; simp)
    (Step.quot (acc V c 64).1 (acc V c 64).2)).symm

/-- So the 1 × 1 output array ends holding that quotient. -/
theorem final1 (c : Dev nD) : (dat1 V c).arrAt 5 cfg1.N = Step.quot (acc V c 64).1 (acc V c 64).2 :=
  (dat1 V c).arrAt_eq_of_cover 5 (Step.quot (acc V c 64).1 (acc V c 64).2) (flushed1_eq V c) fun i =>
    ⟨tLast, (flush1_5 tLast).mpr rfl, by
      obtain ⟨-, -, -, -, -, -, -, -, -, -, e0, e1⟩ := idx1 tLast
      show i ∈ ((View.whole main_v3).slice (win1_5.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win1_5.index tLast 0 * 1 ≤ (i 0 : Nat) ∧ (i 0 : Nat) < win1_5.index tLast 0 * 1 + 1
        rw [e0]; omega
      | ⟨1, _⟩ =>
        show win1_5.index tLast 1 * 1 ≤ (i 1 : Nat) ∧ (i 1 : Nat) < win1_5.index tLast 1 * 1 + 1
        rw [e1]; omega⟩

end Cert.KernelIdeal.Fr

end
-- ==== Proof.AccValue.lean ====
/-
  The kernel's two running totals after all 64 grid points.

  Each point adds, to the total of hinges, the sum over its 128 × 128 × 128 tile of the masked hinges, read off the
  distance matrix and the labels at the tile's rows; and to the total of valid triples the number of valid triples of
  the tile. The 64 tiles cover the 512 × 512 × 512 cube once, so after the last point the totals are the
  specification's sum of hinges over the valid triples, written over the distance matrix the kernel reads, and the
  number of valid triples.
-/
import proofs.«146449_j82489141887188_2_alg».proof.Proof.Frame1
import proofs.«146449_j82489141887188_2_alg».proof.Proof.Tiles
import proofs.«146449_j82489141887188_2_alg».proof.Proof.Spec
import proofs.«146449_j82489141887188_2_alg».proof.Proof.StepValue
import proofs.«146449_j82489141887188_2_alg».proof.Proof.Blocks

set_option maxRecDepth 16384

noncomputable section

namespace Cert.KernelIdeal.Fr

open Idealize.ShloMosaic Idealize.ShloMosaic.TcCoe Idealize.ShloMosaic.ValueIdx
open Idealize.SL.Sem
open Cert.KernelIdeal Cert.KernelIdeal.Gen
open Cert.Trip (row)
open scoped BigOperators

/-- The one index of a 1 × 1 array. -/
abbrev z : S1x1.Idx := ix2 (0 : Fin 1) (0 : Fin 1)

/-- The mask written out on the labels is the specification's. -/
theorem ite_valid {α : Type} (t : Cert.Trip.Lab) (p q r : Fin 512) (x y : α) :
    (if t (ix1 p) = t (ix1 q) ∧ t (ix1 p) ≠ t (ix1 r) then x else y) = if Cert.Trip.valid t p q r then x else y := by
  by_cases hv : Cert.Trip.valid t p q r
  · rw [if_pos hv, if_pos (show t (ix1 p) = t (ix1 q) ∧ t (ix1 p) ≠ t (ix1 r) from hv)]
  · rw [if_neg hv, if_neg (show ¬(t (ix1 p) = t (ix1 q) ∧ t (ix1 p) ≠ t (ix1 r)) from hv)]

/-- Running totals from zero that add one tile's sum per point hold, after the 64 points, the sum over the cube. -/
theorem total_of_steps {M : Type*} [AddCommMonoid M] (f : Fin 512 → Fin 512 → Fin 512 → M) (L : ℕ → M) (h0 : L 0 = 0)
    (hs : ∀ (n : ℕ) (h : n < 64), L (n + 1) = L n + ∑ a : Fin 128, ∑ b : Fin 128, ∑ k : Fin 128,
      f (row ⟨n / 16, by omega⟩ a) (row ⟨n / 4 % 4, by omega⟩ b) (row ⟨n % 4, by omega⟩ k)) :
    L 64 = ∑ p : Fin 512, ∑ q : Fin 512, ∑ r : Fin 512, f p q r := by
  let T : ℕ → M := fun n => if h : n < 64 then ∑ a : Fin 128, ∑ b : Fin 128, ∑ k : Fin 128,
      f (row ⟨n / 16, by omega⟩ a) (row ⟨n / 4 % 4, by omega⟩ b) (row ⟨n % 4, by omega⟩ k) else 0
  have key : ∀ n, n ≤ 64 → L n = ∑ i ∈ Finset.range n, T i := by
    intro n
    induction n with
    | zero => intro _; simpa using h0
    | succ n ih =>
      intro hn
      have hn' : n < 64 := by omega
      rw [hs n hn', Finset.sum_range_succ, ih (by omega)]
      refine congrArg (_ + ·) ?_
      simp only [T, dif_pos hn']
  rw [key 64 le_rfl, Finset.sum_range, ← Cert.Trip.sum_tiles f]
  refine Finset.sum_congr rfl fun i _ => ?_
  simp only [T, dif_pos i.isLt]

/-- After the last point the two totals are the sum of the hinges over the valid triples, over the distance matrix
    the kernel reads, and the number of valid triples. -/
theorem acc_value (V : (c : Dev nD) → (b : Ref sig .tc) → Buf (Elt Ideal) ((c : Thread nD τ).loc b)) (c : Dev nD)
    (t : Cert.Trip.Lab)
    (h1 : ∀ p : Fin 512, V c main_v1 (ix2 p 0) = t (ix1 p)) (h2 : ∀ q : Fin 512, V c main_v2 (ix2 0 q) = t (ix1 q)) :
    (acc (F := Ideal) V c 64).1 z = Cert.Trip.lossSumOf (fun p q => V c main_v0 (ix2 p q)) t
      ∧ (acc (F := Ideal) V c 64).2 z = Cert.Trip.count t := by
  constructor
  · unfold Cert.Trip.lossSumOf
    refine total_of_steps (fun p q r => if Cert.Trip.valid t p q r then
        Cert.Trip.hingeOf (fun p q => V c main_v0 (ix2 p q)) p q r else 0) (fun n => (acc (F := Ideal) V c n).1 z)
      StepValue.zeroLoss_apply (fun n hn => ?_)
    have e := acc_succ (F := Ideal) V c ⟨n, lt_of_lt_of_eq hn Gen.N_1.symm⟩
    show (acc (F := Ideal) V c (n + 1)).1 z = _
    rw [e]
    show Step.lossStep _ _ _ _ _ _ z = _
    rw [StepValue.lossStep_apply]
    refine congrArg (_ + ·) ?_
    refine Finset.sum_congr rfl fun a _ => Finset.sum_congr rfl fun b _ => Finset.sum_congr rfl fun k _ => ?_
    rw [blk1_0, blk1_1, blk1_2, blk1_3, blk1_4, h1, h2, h2, ite_valid]
    rfl
  · unfold Cert.Trip.count
    refine total_of_steps (fun p q r => if Cert.Trip.valid t p q r then (1 : EReal) else 0)
      (fun n => (acc (F := Ideal) V c n).2 z) StepValue.zeroCnt_apply (fun n hn => ?_)
    have e := acc_succ (F := Ideal) V c ⟨n, lt_of_lt_of_eq hn Gen.N_1.symm⟩
    show (acc (F := Ideal) V c (n + 1)).2 z = _
    rw [e]
    show Step.cntStep _ _ _ _ z = _
    rw [StepValue.cntStep_apply]
    refine congrArg (_ + ·) ?_
    refine Finset.sum_congr rfl fun a _ => Finset.sum_congr rfl fun b _ => Finset.sum_congr rfl fun k _ => ?_
    rw [blk1_2, blk1_3, blk1_4, h1, h2, h2, ite_valid]

end Cert.KernelIdeal.Fr

end
-- ==== Proof.KernelValue.lean ====
/-
  The kernel program's result is the specification's loss.

  The program runs the distance kernel on the matrix, reshapes the labels into a column and a row, runs the triplet
  kernel on the distance matrix and the reshaped labels, and reshapes the 1 × 1 result to a scalar. The distance
  kernel leaves the matrix of clamped Euclidean distances; the triplet kernel leaves the quotient of its two final
  totals, the sum of the hinges over the valid triples and their number; and the reshapes move no value.
-/
import proofs.«146449_j82489141887188_2_alg».proof.Proof.Vals
import proofs.«146449_j82489141887188_2_alg».proof.Proof.Spec
import proofs.«146449_j82489141887188_2_alg».proof.Proof.DistValue
import proofs.«146449_j82489141887188_2_alg».proof.Proof.StepValue
import proofs.«146449_j82489141887188_2_alg».proof.Proof.Blocks
import proofs.«146449_j82489141887188_2_alg».proof.Proof.AccValue
import Idealize.ShloMosaic.Lib.ValueLayout
import Idealize.ShloMosaic.Lib.StableHlo.Run

set_option maxRecDepth 16384

noncomputable section

namespace Cert.KernelIdeal.Fr

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Cert.KernelIdeal Cert.KernelIdeal.Gen

variable (m : (ℓ : Loc nD τ sig) → Buf (Elt Ideal) ℓ)

/-- The scalar result is the 1 × 1 result of the second region at its one index. -/
theorem W4_eq (c : Dev nD) (j : S_.Idx) : (W4 (F := Ideal) m c main_v4 : S_.Idx → EReal) j = (out3 m c : S1x1.Idx → EReal) z := by
  have e : (W4 (F := Ideal) m c main_v4 : S_.Idx → EReal)
      = shapeCast S_ (out3 m c : S1x1.Idx → EReal) shapeCasts_S1x1_S_ := by
    unfold W4
    dsimp only [hostOps2]
    after_results
    unfold W3
    rw [Function.update_self]
    rfl
  rw [e]
  refine shapeCast_apply _ shapeCasts_S1x1_S_ j z ?_
  rw [Shape.rowMajor_val_two]
  have h1 : ((S_ : Shape).rowMajor j).val = 0 := Shape.rowMajorPi_zero _ _
  rw [h1]
  rfl

/-- The labels as the second region finds them: the column and the row are the label vector. -/
theorem Ve1_v1 (c : Dev nD) (p : Fin 512) :
    (Ve1 (F := Ideal) m c main_v1 : S512x1.Idx → BitVec 32) (ix2 p 0) = (m ((c : Thread nD τ).loc main_arg1) : S512.Idx → BitVec 32) (ix1 p) := by
  have e : (Ve1 (F := Ideal) m c main_v1 : S512x1.Idx → BitVec 32)
      = shapeCast S512x1 (m ((c : Thread nD τ).loc main_arg1) : S512.Idx → BitVec 32) shapeCasts_S512_S512x1 := by
    dsimp only [Ve1, hostOps1]
    after_results
    unfold W1
    rw [Function.update_of_ne (StableHlo.devRef_ne_of_ne (by decide))]
    rfl
  rw [e]
  refine shapeCast_apply _ shapeCasts_S512_S512x1 (ix2 p 0) (ix1 p) ?_
  rw [Shape.rowMajor_val_two, Shape.rowMajor_val_one]
  show p.val = p.val * 1 + 0
  omega

theorem Ve1_v2 (c : Dev nD) (q : Fin 512) :
    (Ve1 (F := Ideal) m c main_v2 : S1x512.Idx → BitVec 32) (ix2 0 q) = (m ((c : Thread nD τ).loc main_arg1) : S512.Idx → BitVec 32) (ix1 q) := by
  have e : (Ve1 (F := Ideal) m c main_v2 : S1x512.Idx → BitVec 32)
      = shapeCast S1x512 (m ((c : Thread nD τ).loc main_arg1) : S512.Idx → BitVec 32) shapeCasts_S512_S1x512 := by
    dsimp only [Ve1, hostOps1]
    after_results
    unfold W1
    rw [Function.update_of_ne (StableHlo.devRef_ne_of_ne (by decide))]
    rfl
  rw [e]
  refine shapeCast_apply _ shapeCasts_S512_S1x512 (ix2 0 q) (ix1 q) ?_
  rw [Shape.rowMajor_val_two, Shape.rowMajor_val_one]
  show q.val = 0 * 512 + q.val
  omega

/-- The distance matrix as the second region finds it: what the first region left. -/
theorem Ve1_v0 (c : Dev nD) : Ve1 (F := Ideal) m c main_v0 = out1 m c := by
  dsimp only [Ve1]
  rw [StableHlo.after_of_writes_sub hostOps1 _ hostOps1_writes (by decide)]
  unfold W1
  rw [Function.update_self]

/-- What the first region left is the matrix of distances. -/
theorem out1_apply (c : Dev nD) (p q : Fin 512) :
    (out1 (F := Ideal) m c : S512x512.Idx → EReal) (ix2 p q)
      = Cert.Trip.dist (m ((c : Thread nD τ).loc main_arg0)) p q := by
  unfold out1
  rw [final0]
  exact Cert.KernelIdeal.DistValue.dist_apply _ p q

/-- The kernel program's result is the batch-all triplet loss of the matrix and the labels. -/
theorem kernel_value (c : Dev nD) :
    W4 (F := Ideal) m c main_v4
      = Cert.Trip.loss (m ((c : Thread nD τ).loc main_arg0)) (m ((c : Thread nD τ).loc main_arg1)) := by
  funext j
  refine (W4_eq m c j).trans ?_
  unfold out3
  rw [final1, Cert.KernelIdeal.StepValue.quot_apply]
  obtain ⟨hl, hc⟩ := acc_value (Ve1 m) c (m ((c : Thread nD τ).loc main_arg1)) (Ve1_v1 m c) (Ve1_v2 m c)
  rw [hl, hc]
  unfold Cert.Trip.loss Cert.Trip.lossSum
  refine congrArg (fun d => Ideal.div (Cert.Trip.lossSumOf d _) _) ?_
  funext p q
  rw [Ve1_v0]
  exact out1_apply m c p q

end Cert.KernelIdeal.Fr

end
-- ==== Proof.RefCount.lean ====
/-
  The reference's count of valid triples.

  The reference marks each triple (p, q, r) with a one-bit word: one when p and q carry the same label and p and r
  different ones. It widens the marks to 32-bit words, adds them all, and reads the total as a signed integer.
  A sum of zero-or-one words is the number of ones as a word; there are at most 512 ^ 3 = 2 ^ 27 < 2 ^ 31 of them, so the
  signed reading is that number; and the number of valid triples is the triple sum of the indicator of validity.
-/
import proofs.«146449_j82489141887188_2_alg».proof.Proof.Gen.ReferenceIdeal.Read
import proofs.«146449_j82489141887188_2_alg».proof.Proof.Spec
import Idealize.ShloMosaic.Lib.IndicatorCount
import Idealize.ShloMosaic.PureOps.Reduce

noncomputable section

namespace Cert.ReferenceIdeal.RefCount

open Cert.ReferenceIdeal Cert.ReferenceIdeal.Gen Cert.ReferenceIdeal.Read Idealize.ShloMosaic Idealize.ShloMosaic.ValueIdx

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  simp only [Fintype.sum_prod_type]
  rfl

/-- The cube of side 512 has 512 ^ 3 indices. -/
theorem card_cube : Fintype.card (⟨3, ![512, 512, 512]⟩ : Shape).Idx = 512 * 512 * 512 := by
  rw [Fintype.card_congr (idxEquiv3 (n0 := 512) (n1 := 512) (n2 := 512)), Fintype.card_prod, Fintype.card_prod,
    Fintype.card_fin, Nat.mul_assoc]

/-! ## A sum of marks is their number -/

/-- A reduce by addition, from zero, of one-bit words widened to 32 bits, into a shape with one index, is the number of
    the ones as a 32-bit word. -/
theorem reduce_addi_count {s t u : Shape} {axes : List (Fin s.rank)} (h : s.ReducesTo axes t) (ht : ∀ b, t.size b = 1)
    (v : s.Idx → BitVec 1) (init : u.Idx → BitVec 32) (hu : 0 < u.numel) (h0 : init (Shape.Idx.first hu) = 0#32)
    (j : t.Idx) :
    Host.reduce IntOp.addi (fun i => (v i).setWidth 32) init h hu j
      = BitVec.ofNat 32 (Finset.univ.filter fun i => v i = 1#1).card := by
  rw [Host.reduce_eq_fold, h0, Finset.filter_true_of_mem fun i _ => funext fun b => Fin.ext (by
    have := (h.drop i b).isLt; have := (j b).isLt; have := ht b; omega)]
  exact IndicatorCount.fold_addi_setWidth_eq_card v Finset.univ

/-- A natural number below 2 ^ 31, as a 32-bit word read signed, is itself. -/
theorem toInt_ofNat_of_lt {n : ℕ} (hn : n < 2 ^ 31) : (BitVec.ofNat 32 n).toInt = (n : ℤ) := by
  have h1 : (BitVec.ofNat 32 n).toNat = n := by
    rw [BitVec.toNat_ofNat]; exact Nat.mod_eq_of_lt (by omega)
  rw [BitVec.toInt_eq_toNat_of_lt (by rw [h1]; omega), h1]

/-- The number of the members of a finite set with a property, as an extended real, is the sum of the property's
    indicator. -/
theorem card_filter_ereal {ι : Type*} (S : Finset ι) (p : ι → Prop) [DecidablePred p] :
    (((S.filter p).card : ℝ) : EReal) = ∑ i ∈ S, if p i then (1 : EReal) else 0 := by
  classical
  induction S using Finset.induction_on with
  | empty => simp
  | insert a S ha ih =>
    rw [Finset.sum_insert ha, ← ih, Finset.filter_insert]
    by_cases h : p a
    · rw [if_pos h, if_pos h, Finset.card_insert_of_notMem (fun hm => ha (Finset.mem_filter.1 hm).1),
        Nat.cast_add, Nat.cast_one, EReal.coe_add, EReal.coe_one, add_comm]
    · rw [if_neg h, if_neg h, zero_add]

/-- The number of the ones among the marks of the cube, as a 32-bit word read signed and then as an extended real, is the
    triple sum of the indicator of a one. -/
theorem sitofp_count (v : (⟨3, ![512, 512, 512]⟩ : Shape).Idx → BitVec 1) :
    FloatOps.sitofp (F := Ideal) .f32 (BitVec.ofNat 32 (Finset.univ.filter fun i => v i = 1#1).card)
      = ∑ p : Fin 512, ∑ q : Fin 512, ∑ r : Fin 512, if v (ix3 p q r) = 1#1 then (1 : EReal) else 0 := by
  have hle : (Finset.univ.filter fun i => v i = 1#1).card ≤ 512 * 512 * 512 :=
    (Finset.card_filter_le _ _).trans (by rw [Finset.card_univ, card_cube])
  show ((((BitVec.ofNat 32 (Finset.univ.filter fun i => v i = 1#1).card).toInt : ℤ) : ℝ) : EReal) = _
  rw [toInt_ofNat_of_lt (by omega), Int.cast_natCast, card_filter_ereal, sum_idx3]

/-! ## What a mark says -/

/-- The comparison for equality is one exactly on equal words. -/
theorem cmpi_eq_ite {w : ℕ} (x y : BitVec w) : IntOp.cmpi .eq x y = if x = y then 1#1 else 0#1 := by
  by_cases h : x = y
  · rw [if_pos h]; subst h; simp [IntOp.cmpi]
  · rw [if_neg h]
    show BitVec.ofBool (x == y) = 0#1
    rw [beq_eq_false_iff_ne.mpr h]; rfl

/-- "equal to the one and not equal to the other", as one-bit words, is one exactly when both hold. -/
theorem andi_not_iff {w : ℕ} (a b c : BitVec w) :
    IntOp.andi (IntOp.cmpi .eq a b) (~~~ IntOp.cmpi .eq a c) = 1#1 ↔ (a = b ∧ a ≠ c) := by
  rw [cmpi_eq_ite, cmpi_eq_ite]
  by_cases h1 : a = b <;> by_cases h2 : a = c
  · rw [if_pos h1, if_pos h2]; exact ⟨fun h => absurd h (by decide), fun h => absurd h2 h.2⟩
  · rw [if_pos h1, if_neg h2]; exact ⟨fun _ => ⟨h1, h2⟩, fun _ => by decide⟩
  · rw [if_neg h1, if_pos h2]; exact ⟨fun h => absurd h (by decide), fun h => absurd h.1 h1⟩
  · rw [if_neg h1, if_neg h2]; exact ⟨fun h => absurd h (by decide), fun h => absurd h.1 h1⟩

/-- The reference's mark of the triple (p, q, r) is one exactly when the triple is valid. -/
theorem mask_iff (t : (⟨S512, .i32⟩ : BufTy).Contents (Elt Ideal)) (p q r : Fin 512) :
    val_main_v32 (F := Ideal) t (ix3 p q r) = 1#1 ↔ Cert.Trip.valid t p q r := by
  rw [val_main_v32_apply, val_main_v30_apply, val_main_v28_apply, val_main_v18_apply, val_main_v16_apply,
    val_main_v14_apply, val_main_v17_apply, val_main_v15_apply, val_main_v31_apply, val_main_v29_apply,
    val_main_v19_apply, val_main_v18_apply, val_main_v16_apply, val_main_v14_apply, val_main_v17_apply,
    val_main_v15_apply]
  have e1 : idx_main_v14 (idx_main_v16 (idx_main_v28 (idx_main_v30 (ix3 p q r)))) = ix1 p := by
    funext a; match a with | ⟨0, _⟩ => rfl
  have e2 : idx_main_v15 (idx_main_v17 (idx_main_v28 (idx_main_v30 (ix3 p q r)))) = ix1 q := by
    funext a; match a with | ⟨0, _⟩ => rfl
  have e4 : idx_main_v15 (idx_main_v17 (idx_main_v29 (idx_main_v31 (ix3 p q r)))) = ix1 r := by
    funext a; match a with | ⟨0, _⟩ => rfl
  rw [e1, e2, e4]
  exact andi_not_iff _ _ _

/-! ## The count -/

/-- The integer total of the marks is the number of the marks that are one. -/
theorem total_eq_card (t : (⟨S512, .i32⟩ : BufTy).Contents (Elt Ideal)) (j : S_.Idx) :
    val_main_v34 (F := Ideal) t j
      = BitVec.ofNat 32 (Finset.univ.filter fun i => val_main_v32 (F := Ideal) t i = 1#1).card := by
  unfold val_main_v34 val_main_v33
  generalize val_main_v32 (F := Ideal) t = v
  exact reduce_addi_count reducesTo_S512x512x512_S_d0_1_2 (fun b => b.elim0) v _ h_S_ rfl j

/-- The reference's count, converted to a float, is the number of valid triples. -/
theorem ref_count (t : (⟨S512, .i32⟩ : BufTy).Contents (Elt Ideal)) :
    val_main_v35 (F := Ideal) t = fun _ => Cert.Trip.count t := by
  funext j
  rw [val_main_v35_apply, total_eq_card, sitofp_count]
  unfold Cert.Trip.count
  exact Finset.sum_congr rfl fun p _ => Finset.sum_congr rfl fun q _ => Finset.sum_congr rfl fun r _ =>
    if_congr (mask_iff t p q r) rfl rfl

end Cert.ReferenceIdeal.RefCount

end
-- ==== Proof.RefValue.lean ====
/-
  The reference's value: its quotient is the specification's loss.

  Read one operation at a time, the reference computes the clamped Euclidean distance of every pair of rows, the
  mask of the valid triples, the hinge of every triple under that mask, the sum of the masked hinges over all
  triples, and divides it by the number of valid triples.
-/
import proofs.«146449_j82489141887188_2_alg».proof.Proof.Gen.ReferenceIdeal.Read
import proofs.«146449_j82489141887188_2_alg».proof.Proof.Spec
import proofs.«146449_j82489141887188_2_alg».proof.Proof.RefCount

noncomputable section

namespace Cert.ReferenceIdeal.RefValue

open Cert.ReferenceIdeal Cert.ReferenceIdeal.Read Idealize.ShloMosaic Idealize.ShloMosaic.ValueIdx
open scoped BigOperators

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The distance matrix: the reference's square root of the clamped squared distance is the specification's. -/
theorem dist_eq (x : (⟨S512x512, .f32⟩ : BufTy).Contents (Elt Ideal)) (p q : Fin 512) :
    val_main_v13 (F := Ideal) x (ix2 p q) = Cert.Trip.dist x p q := by
  rw [val_main_v13_apply, val_main_v12_apply, val_main_call0_v1_apply, val_main_call0_v0_apply, val_main_cst_1_apply,
    val_main_v11_apply, val_main_v6_apply, val_main_v4_apply, val_main_v2_apply, val_main_v5_apply, val_main_v3_apply,
    val_main_v1_apply, val_main_v1_apply, val_main_v10_apply, val_main_v9_apply, val_main_cst_0_apply, val_main_v8_apply,
    val_main_cst_apply]
  have h1 : ∀ k : Fin 512, idx_main_v1 (idx_main_v2 (idx_main_v4 (ix2 p q))) k = ix2 p k := fun k =>
    funext fun a => by match a with | ⟨0, _⟩ => rfl | ⟨1, _⟩ => rfl
  have h2 : ∀ k : Fin 512, idx_main_v1 (idx_main_v3 (idx_main_v5 (ix2 p q))) k = ix2 q k := fun k =>
    funext fun a => by match a with | ⟨0, _⟩ => rfl | ⟨1, _⟩ => rfl
  have h3 : ∀ k : Fin 512, lidx_main_v8 (ix2 p q) k = ix2 p k := fun k =>
    funext fun a => by match a with | ⟨0, _⟩ => rfl | ⟨1, _⟩ => rfl
  have h4 : ∀ k : Fin 512, idx_main_v7 (ridx_main_v8 (ix2 p q) k) = ix2 q k := fun k =>
    funext fun a => by match a with | ⟨0, _⟩ => rfl | ⟨1, _⟩ => rfl
  simp only [val_main_v0_apply, val_main_v7_apply, h1, h2, h3, h4, Ideal.hostUnary_sqrt_def, Ideal.maximumf_def,
    Ideal.subf_def, Ideal.addf_def, Ideal.mulf_def, Ideal.ofBits_def, Ideal.ofBits_zero_f32, zero_add]
  unfold Cert.Trip.dist Cert.Trip.sqn Cert.Trip.gram Cert.Trip.two Cert.Trip.eps
  rw [max_comm]

/-- On three labels: "equal to the second and not equal to the third" as the one-bit word the reference computes. -/
theorem mask_bits (a b c : BitVec 32) :
    IntOp.andi (IntOp.cmpi .eq a b) (~~~ IntOp.cmpi .eq a c) = 1#1 ↔ (a = b ∧ a ≠ c) := by
  unfold IntOp.andi IntOp.cmpi
  show (BitVec.ofBool (a == b) &&& ~~~ BitVec.ofBool (a == c)) = 1#1 ↔ (a = b ∧ a ≠ c)
  rcases Bool.eq_false_or_eq_true (a == b) with e1 | e1 <;> rcases Bool.eq_false_or_eq_true (a == c) with e2 | e2
  all_goals rw [e1, e2]
  all_goals simp only [beq_iff_eq, beq_eq_false_iff_ne] at e1 e2
  · exact ⟨fun h => absurd h (by decide), fun h => absurd e2 h.2⟩
  · exact ⟨fun _ => ⟨e1, e2⟩, fun _ => by decide⟩
  · exact ⟨fun h => absurd h (by decide), fun h => absurd h.1 e1⟩
  · exact ⟨fun h => absurd h (by decide), fun h => absurd h.1 e1⟩

/-- The mask: the reference's bit at a triple is set exactly when the triple is valid. -/
theorem valid_eq (t : (⟨S512, .i32⟩ : BufTy).Contents (Elt Ideal)) (p q r : Fin 512) :
    val_main_v32 (F := Ideal) t (ix3 p q r) = 1#1 ↔ Cert.Trip.valid t p q r := by
  have h1 : idx_main_v14 (idx_main_v16 (idx_main_v28 (idx_main_v30 (ix3 p q r)))) = ix1 p :=
    funext fun a => by match a with | ⟨0, _⟩ => rfl
  have h2 : idx_main_v15 (idx_main_v17 (idx_main_v28 (idx_main_v30 (ix3 p q r)))) = ix1 q :=
    funext fun a => by match a with | ⟨0, _⟩ => rfl
  have h3 : idx_main_v14 (idx_main_v16 (idx_main_v29 (idx_main_v31 (ix3 p q r)))) = ix1 p :=
    funext fun a => by match a with | ⟨0, _⟩ => rfl
  have h4 : idx_main_v15 (idx_main_v17 (idx_main_v29 (idx_main_v31 (ix3 p q r)))) = ix1 r :=
    funext fun a => by match a with | ⟨0, _⟩ => rfl
  simp only [val_main_v32_apply, val_main_v30_apply, val_main_v31_apply, val_main_v28_apply, val_main_v29_apply,
    val_main_v19_apply, val_main_v18_apply, val_main_v16_apply, val_main_v17_apply, val_main_v14_apply,
    val_main_v15_apply, h1, h2, h3, h4]
  exact mask_bits _ _ _

/-- The summand: the hinge of a valid triple, zero at any other. -/
theorem summand_eq (x : (⟨S512x512, .f32⟩ : BufTy).Contents (Elt Ideal)) (t : (⟨S512, .i32⟩ : BufTy).Contents (Elt Ideal))
    (p q r : Fin 512) :
    val_main_v36 (F := Ideal) x t (ix3 p q r) = if Cert.Trip.valid t p q r then Cert.Trip.hinge x p q r else 0 := by
  have h1 : idx_main_v20 (idx_main_v22 (ix3 p q r)) = ix2 p q :=
    funext fun a => by match a with | ⟨0, _⟩ => rfl | ⟨1, _⟩ => rfl
  have h2 : idx_main_v21 (idx_main_v23 (ix3 p q r)) = ix2 p r :=
    funext fun a => by match a with | ⟨0, _⟩ => rfl | ⟨1, _⟩ => rfl
  have hb : val_main_v32 (F := Ideal) t (ix3 p q r) = 1 ↔ Cert.Trip.valid t p q r := valid_eq t p q r
  rw [val_main_v36_apply, val_main_v27_apply, val_main_v26_apply, val_main_v24_apply, val_main_v22_apply,
    val_main_v20_apply, val_main_v23_apply, val_main_v21_apply, val_main_v25_apply, val_main_cst_2_apply,
    val_main_call1_v0_apply, val_main_call1_cst_apply, val_main_call2_v1_apply, val_main_call2_v0_apply,
    val_main_cst_3_apply, h1, h2, dist_eq, dist_eq]
  simp only [Ideal.maximumf_def, Ideal.subf_def, Ideal.addf_def, Ideal.ofBits_def, Ideal.ofBits_zero_f32]
  unfold Scalar.select
  by_cases hv : Cert.Trip.valid t p q r
  · rw [if_pos (hb.mpr hv), if_pos hv]; rfl
  · rw [if_neg (fun h => hv (hb.mp h)), if_neg hv]

/-- The numerator: the reference's sum over all triples is the specification's sum of hinges over the valid ones. -/
theorem sum_eq (x : (⟨S512x512, .f32⟩ : BufTy).Contents (Elt Ideal)) (t : (⟨S512, .i32⟩ : BufTy).Contents (Elt Ideal))
    (i : S_.Idx) :
    val_main_v37 (F := Ideal) x t i = Cert.Trip.lossSum x t := by
  rw [val_main_v37_apply, val_main_cst_4_apply, Ideal.ofBits_def, Ideal.ofBits_zero_f32, zero_add]
  unfold Cert.Trip.lossSum Cert.Trip.lossSumOf
  refine (sum_idx3 _).trans ?_
  refine Finset.sum_congr rfl fun p _ => Finset.sum_congr rfl fun q _ => Finset.sum_congr rfl fun r _ => ?_
  exact summand_eq x t p q r

/-- The reference computes the specification's loss, given that its denominator is the number of valid triples. -/
theorem ref_eq_of_count (x : (⟨S512x512, .f32⟩ : BufTy).Contents (Elt Ideal)) (t : (⟨S512, .i32⟩ : BufTy).Contents (Elt Ideal))
    (hc : val_main_v35 (F := Ideal) t = fun _ => Cert.Trip.count t) :
    val_main_v38 (F := Ideal) x t = Cert.Trip.loss x t := by
  funext i
  rw [val_main_v38_apply, Ideal.hostDivf_def, sum_eq, hc]
  rfl

/-- The reference computes the specification's loss. -/
theorem ref_eq (x : (⟨S512x512, .f32⟩ : BufTy).Contents (Elt Ideal)) (t : (⟨S512, .i32⟩ : BufTy).Contents (Elt Ideal)) :
    val_main_v38 (F := Ideal) x t = Cert.Trip.loss x t := by
  exact ref_eq_of_count x t (Cert.ReferenceIdeal.RefCount.ref_count t)

end Cert.ReferenceIdeal.RefValue

end
-- ==== Proof.lean ====
/-
  The batch-all triplet loss: a kernel program of two regions against its plain reference, equal over the extended reals.

  Both programs compute, for 512 points `x_p` of dimension 512 with a label each, the distances
  `d(p,q) = sqrt (max (|x_p|² + |x_q|² − 2⟨x_p, x_q⟩) ε)` and then the mean over the valid triples (anchor `p`, a positive `q` with
  `p`'s label, a negative `r` with another) of the hinge `max (d(p,q) − d(p,r) + margin) 0` (`Spec`). The reference sums
  `select (valid, hinge, 0)` over all 512³ triples, counts the valid ones as an integer (2²⁷ triples at most, so the 32-bit
  count does not wrap) and divides. The kernel program computes the distance matrix in one region (`DistValue`) and in a second
  region walks a 4 × 4 × 4 grid of 128 × 128 × 128 tiles, adding each tile's hinges (times the 0/1 masks) and its mask
  products into two running totals (`StepValue`, `AccValue`), and divides at the last point. On the extended reals addition
  is commutative and associative and `x · 1 = x`, `x · 0 = 0` hold for every `x`, so the tiled sums are the full sums
  (`Tiles`) with no finiteness assumption, and the two quotients are the same quotient.

  The frames: each region of the kernel program is run through the pipeline library from a body triple per kernel
  (`Body0`, `Body1`), proof data naming what every staging buffer and the two running totals hold after each grid point
  (`Frame0`, `Frame1`), and the regions' entry and exit around thread states that hold every unscoped buffer at named
  contents (`Vals`, `Shared`, `Frames`); the same text, with the namespace changed, serves the word-level program. The
  reference's frame is its run with the result dropped. The idealization rewrote nothing, so there is nothing to preserve.
-/
import proofs.«146449_j82489141887188_2_alg».proof.Defs
import proofs.«146449_j82489141887188_2_alg».proof.Proof.Gen.Kernel
import proofs.«146449_j82489141887188_2_alg».proof.Proof.Gen.KernelIdeal
import proofs.«146449_j82489141887188_2_alg».proof.Proof.Gen.ReferenceIdeal
import proofs.«146449_j82489141887188_2_alg».proof.Proof.Gen.Pre_finite_inputs
import proofs.«146449_j82489141887188_2_alg».proof.Proof.Gen.ReferenceIdeal.Run
import proofs.«146449_j82489141887188_2_alg».proof.Proof.Gen.ReferenceIdeal.Read
import proofs.«146449_j82489141887188_2_alg».proof.Proof.Frames
import proofs.«146449_j82489141887188_2_alg».proof.Proof.KFrames
import proofs.«146449_j82489141887188_2_alg».proof.Proof.KernelValue
import proofs.«146449_j82489141887188_2_alg».proof.Proof.RefValue

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Fr.frame (F := Bits) m ρ

/-- So does the idealized program. -/
theorem frame_ki : Cert.frame_KernelIdeal := fun m ρ _ => Cert.KernelIdeal.Fr.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the loss of the specification in their result buffer. -/
theorem algebraic : Cert.algebraic_KernelIdeal_ReferenceIdeal := by
  intro m ρ m' ρ' _ hagree
  refine ⟨fun c => Cert.KernelIdeal.Fr.W4 (F := Ideal) m c Cert.KernelIdeal.main_v4, Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.RefValue.ref_eq, (hagree c).1, (hagree c).2]
  exact (Cert.KernelIdeal.Fr.kernel_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
